-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v116)) (v1 : (c : Dev Cert.KernelIdeal.nD) → Buf (Elt Ideal) ((c.tc : Thread Cert.KernelIdeal.nD Cert.KernelIdeal.τ).loc Cert.KernelIdeal.main_v123)) (v2 : (c : Dev Cert.KernelIdeal.nD) → Buf (Elt Ideal) ((c.tc : Thread Cert.KernelIdeal.nD Cert.KernelIdeal.τ).loc Cert.KernelIdeal.main_v130)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v116) = v0 c
          ∧ r.2.mem ((c.tc : Thread Cert.KernelIdeal.nD Cert.KernelIdeal.τ).loc Cert.KernelIdeal.main_v123) = v1 c
          ∧ r.2.mem ((c.tc : Thread Cert.KernelIdeal.nD Cert.KernelIdeal.τ).loc Cert.KernelIdeal.main_v130) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_v161) = v1 c
          ∧ r.2.mem ((c.tc : Thread Cert.ReferenceIdeal.nD Cert.ReferenceIdeal.τ).loc Cert.ReferenceIdeal.main_v168) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S20000x128 : Shape := ⟨2, ![20000, 128]⟩
abbrev S600000 : Shape := ⟨1, ![600000]⟩
abbrev S4096 : Shape := ⟨1, ![4096]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_

variable [Facts]

def fn {F : FTy → Type} [FloatOps F] (main_arg0 : FVec F S40000x128 .f32) (main_arg1 : FVec F S20000x128 .f32) (main_arg2 : IVec S600000 32) (main_arg3 : IVec S600000 32) (main_arg4 : IVec S4096 32) (main_arg5 : IVec S4096 32) (main_arg6 : IVec S4096 32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S20000x128 .f32 := Host.absf main_arg1
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  main_v8
-- ==== Kernel.lean ====
abbrev S40000x128 : Shape := ⟨2, ![40000, 128]⟩
abbrev S20000x128 : Shape := ⟨2, ![20000, 128]⟩
abbrev S600000 : Shape := ⟨1, ![600000]⟩
abbrev S4096 : Shape := ⟨1, ![4096]⟩
abbrev S128x4 : Shape := ⟨2, ![128, 4]⟩
abbrev S4x128 : Shape := ⟨2, ![4, 128]⟩
abbrev S_ : Shape := ⟨0, ![]⟩
abbrev S1200000 : Shape := ⟨1, ![1200000]⟩
abbrev S60000x128 : Shape := ⟨2, ![60000, 128]⟩
abbrev S1200000x1 : Shape := ⟨2, ![1200000, 1]⟩
abbrev S1200000x128 : Shape := ⟨2, ![1200000, 128]⟩
abbrev S1200000x4 : Shape := ⟨2, ![1200000, 4]⟩
abbrev S60000x4 : Shape := ⟨2, ![60000, 4]⟩
abbrev S15000x4 : Shape := ⟨2, ![15000, 4]⟩
abbrev S15000x128 : Shape := ⟨2, ![15000, 128]⟩
abbrev S60000x1x128 : Shape := ⟨3, ![60000, 1, 128]⟩
abbrev S60000x2x128 : Shape := ⟨3, ![60000, 2, 128]⟩
abbrev S4096x1 : Shape := ⟨2, ![4096, 1]⟩
abbrev S4096x128 : Shape := ⟨2, ![4096, 128]⟩

abbrev nBuf : Space → Nat
  | .hbm => 177
  | .vmem => 22
  | .smem => 0
  | _ => 0

abbrev hbmTy0_0 (i : Nat) : BufTy := match i % 128 with
  | 0 => ⟨S40000x128, .f32⟩
  | 1 => ⟨S20000x128, .f32⟩
  | 2 => ⟨S600000, .i32⟩
  | 3 => ⟨S600000, .i32⟩
  | 4 => ⟨S4096, .i32⟩
  | 5 => ⟨S4096, .i32⟩
  | 6 => ⟨S4096, .i32⟩
  | 7 => ⟨S128x4, .f32⟩
  | 8 => ⟨S4x128, .f32⟩
  | 9 => ⟨S_, .i32⟩
  | 10 => ⟨S600000, .i32⟩
  | 11 => ⟨S600000, .i32⟩
  | 12 => ⟨S1200000, .i32⟩
  | 13 => ⟨S_, .i32⟩
  | 14 => ⟨S600000, .i32⟩
  | 15 => ⟨S600000, .i32⟩
  | 16 => ⟨S1200000, .i32⟩
  | 17 => ⟨S60000x128, .f32⟩
  | 18 => ⟨S_, .i32⟩
  | 19 => ⟨S1200000, .i32⟩
  | 20 => ⟨S1200000, .i1⟩
  | 21 => ⟨S_, .i32⟩
  | 22 => ⟨S1200000, .i32⟩
  | 23 => ⟨S1200000, .i32⟩
  | 24 => ⟨S1200000, .i32⟩
  | 25 => ⟨S1200000x1, .i32⟩
  | 26 => ⟨S1200000x128, .f32⟩
  | 27 => ⟨S_, .f32⟩
  | 28 => ⟨S1200000x4, .f32⟩
  | 29 => ⟨S_, .f32⟩
  | 30 => ⟨S1200000, .f32⟩
  | 31 => ⟨S_, .f32⟩
  | 32 => ⟨S1200000, .f32⟩
  | 33 => ⟨S1200000, .f32⟩
  | 34 => ⟨S1200000x1, .f32⟩
  | 35 => ⟨S1200000x4, .f32⟩
  | 36 => ⟨S1200000x4, .f32⟩
  | 37 => ⟨S1200000x4, .f32⟩
  | 38 => ⟨S_, .f32⟩
  | 39 => ⟨S1200000, .f32⟩
  | 40 => ⟨S1200000x1, .f32⟩
  | 41 => ⟨S1200000x4, .f32⟩
  | 42 => ⟨S1200000x4, .f32⟩
  | 43 => ⟨S_, .f32⟩
  | 44 => ⟨S60000x4, .f32⟩
  | 45 => ⟨S1200000x1, .i32⟩
  | 46 => ⟨S60000x4, .f32⟩
  | 47 => ⟨S_, .f32⟩
  | 48 => ⟨S60000x4, .f32⟩
  | 49 => ⟨S60000x4, .f32⟩
  | 50 => ⟨S60000x4, .f32⟩
  | 51 => ⟨S_, .f32⟩
  | 52 => ⟨S60000x4, .f32⟩
  | 53 => ⟨S60000x4, .f32⟩
  | 54 => ⟨S_, .i32⟩
  | 55 => ⟨S1200000, .i32⟩
  | 56 => ⟨S1200000, .i1⟩
  | 57 => ⟨S_, .i32⟩
  | 58 => ⟨S1200000, .i32⟩
  | 59 => ⟨S1200000, .i32⟩
  | 60 => ⟨S1200000, .i32⟩
  | 61 => ⟨S1200000x1, .i32⟩
  | 62 => ⟨S1200000x4, .f32⟩
  | 63 => ⟨S_, .i32⟩
  | 64 => ⟨S1200000, .i32⟩
  | 65 => ⟨S1200000, .i1⟩
  | 66 => ⟨S_, .i32⟩
  | 67 => ⟨S1200000, .i32⟩
  | 68 => ⟨S1200000, .i32⟩
  | 69 => ⟨S1200000, .i32⟩
  | 70 => ⟨S1200000x1, .i32⟩
  | 71 => ⟨S1200000x4, .f32⟩
  | 72 => ⟨S1200000x4, .f32⟩
  | 73 => ⟨S1200000x4, .f32⟩
  | 74 => ⟨S1200000x128, .f32⟩
  | 75 => ⟨S_, .f32⟩
  | 76 => ⟨S60000x128, .f32⟩
  | 77 => ⟨S1200000x1, .i32⟩
  | 78 => ⟨S60000x128, .f32⟩
  | 79 => ⟨S_, .i32⟩
  | 80 => ⟨S1200000, .i32⟩
  | 81 => ⟨S1200000, .i1⟩
  | 82 => ⟨S_, .i32⟩
  | 83 => ⟨S1200000, .i32⟩
  | 84 => ⟨S1200000, .i32⟩
  | 85 => ⟨S1200000, .i32⟩
  | 86 => ⟨S1200000x1, .i32⟩
  | 87 => ⟨S1200000x128, .f32⟩
  | 88 => ⟨S1200000x4, .f32⟩
  | 89 => ⟨S1200000x4, .f32⟩
  | 90 => ⟨S_, .f32⟩
  | 91 => ⟨S1200000, .f32⟩
  | 92 => ⟨S_, .f32⟩
  | 93 => ⟨S1200000, .f32⟩
  | 94 => ⟨S1200000, .f32⟩
  | 95 => ⟨S1200000x1, .f32⟩
  | 96 => ⟨S1200000x4, .f32⟩
  | 97 => ⟨S1200000x4, .f32⟩
  | 98 => ⟨S1200000x4, .f32⟩
  | 99 => ⟨S_, .f32⟩
  | 100 => ⟨S1200000, .f32⟩
  | 101 => ⟨S1200000x1, .f32⟩
  | 102 => ⟨S1200000x4, .f32⟩
  | 103 => ⟨S1200000x4, .f32⟩
  | 104 => ⟨S_, .f32⟩
  | 105 => ⟨S60000x4, .f32⟩
  | 106 => ⟨S1200000x1, .i32⟩
  | 107 => ⟨S60000x4, .f32⟩
  | 108 => ⟨S_, .f32⟩
  | 109 => ⟨S60000x4, .f32⟩
  | 110 => ⟨S60000x4, .f32⟩
  | 111 => ⟨S60000x4, .f32⟩
  | 112 => ⟨S_, .f32⟩
  | 113 => ⟨S60000x4, .f32⟩
  | 114 => ⟨S60000x4, .f32⟩
  | 115 => ⟨S_, .i32⟩
  | 116 => ⟨S1200000, .i32⟩
  | 117 => ⟨S1200000, .i1⟩
  | 118 => ⟨S_, .i32⟩
  | 119 => ⟨S1200000, .i32⟩
  | 120 => ⟨S1200000, .i32⟩
  | 121 => ⟨S1200000, .i32⟩
  | 122 => ⟨S1200000x1, .i32⟩
  | 123 => ⟨S1200000x4, .f32⟩
  | 124 => ⟨S_, .i32⟩
  | 125 => ⟨S1200000, .i32⟩
  | 126 => ⟨S1200000, .i1⟩
  | 127 => ⟨S_, .i32⟩
  | _ => ⟨S40000x128, .f32⟩

abbrev hbmTy0_1 (i : Nat) : BufTy := match i % 128 with
  | 0 => ⟨S1200000, .i32⟩
  | 1 => ⟨S1200000, .i32⟩
  | 2 => ⟨S1200000, .i32⟩
  | 3 => ⟨S1200000x1, .i32⟩
  | 4 => ⟨S1200000x4, .f32⟩
  | 5 => ⟨S1200000x4, .f32⟩
  | 6 => ⟨S1200000x4, .f32⟩
  | 7 => ⟨S1200000x128, .f32⟩
  | 8 => ⟨S_, .f32⟩
  | 9 => ⟨S60000x128, .f32⟩
  | 10 => ⟨S1200000x1, .i32⟩
  | 11 => ⟨S60000x128, .f32⟩
  | 12 => ⟨S60000x1x128, .f32⟩
  | 13 => ⟨S60000x1x128, .f32⟩
  | 14 => ⟨S60000x2x128, .f32⟩
  | 15 => ⟨S_, .f32⟩
  | 16 => ⟨S60000x128, .f32⟩
  | 17 => ⟨S_, .f32⟩
  | 18 => ⟨S60000x128, .f32⟩
  | 19 => ⟨S60000x128, .f32⟩
  | 20 => ⟨S40000x128, .f32⟩
  | 21 => ⟨S20000x128, .f32⟩
  | 22 => ⟨S_, .i32⟩
  | 23 => ⟨S4096, .i32⟩
  | 24 => ⟨S4096, .i1⟩
  | 25 => ⟨S_, .i32⟩
  | 26 => ⟨S4096, .i32⟩
  | 27 => ⟨S4096, .i32⟩
  | 28 => ⟨S4096, .i32⟩
  | 29 => ⟨S4096x1, .i32⟩
  | 30 => ⟨S4096x128, .f32⟩
  | 31 => ⟨S_, .i32⟩
  | 32 => ⟨S4096, .i32⟩
  | 33 => ⟨S4096, .i1⟩
  | 34 => ⟨S_, .i32⟩
  | 35 => ⟨S4096, .i32⟩
  | 36 => ⟨S4096, .i32⟩
  | 37 => ⟨S4096, .i32⟩
  | 38 => ⟨S4096x1, .i32⟩
  | 39 => ⟨S4096x128, .f32⟩
  | 40 => ⟨S_, .i32⟩
  | 41 => ⟨S4096, .i32⟩
  | 42 => ⟨S4096, .i1⟩
  | 43 => ⟨S_, .i32⟩
  | 44 => ⟨S4096, .i32⟩
  | 45 => ⟨S4096, .i32⟩
  | 46 => ⟨S4096, .i32⟩
  | 47 => ⟨S4096x1, .i32⟩
  | 48 => ⟨S4096x128, .f32⟩
  | _ => ⟨S40000x128, .f32⟩

abbrev hbmTy (i : Nat) : BufTy := match i / 128 with
  | 0 => hbmTy0_0 i
  | 1 => hbmTy0_1 i
  | _ => ⟨S40000x128, .f32⟩

abbrev bufTy : (tb : Table) → Fin (tcTables nBuf tb) → BufTy
  | .hbm, ⟨i, _⟩ => hbmTy i
  | .local _ .vmem, ⟨0, _⟩ => ⟨S15000x4, .f32⟩
  | .local _ .vmem, ⟨1, _⟩ => ⟨S15000x4, .f32⟩
  | .local _ .vmem, ⟨2, _⟩ => ⟨S15000x128, .f32⟩
  | .local _ .vmem, ⟨3, _⟩ => ⟨S15000x128, .f32⟩
  | .local _ .vmem, ⟨4, _⟩ => ⟨S4x128, .f32⟩
  | .local _ .vmem, ⟨5, _⟩ => ⟨S15000x128, .f32⟩
  | .local _ .vmem, ⟨6, _⟩ => ⟨S15000x128, .f32⟩
  | .local _ .vmem, ⟨7, _⟩ => ⟨S15000x128, .f32⟩
  | .local _ .vmem, ⟨8, _⟩ => ⟨S15000x128, .f32⟩
  | .local _ .vmem, ⟨9, _⟩ => ⟨S15000x128, .f32⟩
  | .local _ .vmem, ⟨10, _⟩ => ⟨S15000x128, .f32⟩
  | .local _ .vmem, ⟨11, _⟩ => ⟨S128x4, .f32⟩
  | .local _ .vmem, ⟨12, _⟩ => ⟨S4x128, .f32⟩
  | .local _ .vmem, ⟨13, _⟩ => ⟨S15000x4, .f32⟩
  | .local _ .vmem, ⟨14, _⟩ => ⟨S15000x4, .f32⟩
  | .local _ .vmem, ⟨15, _⟩ => ⟨S15000x4, .f32⟩
  | .local _ .vmem, ⟨16, _⟩ => ⟨S15000x4, .f32⟩
  | .local _ .vmem, ⟨17, _⟩ => ⟨S15000x128, .f32⟩
  | .local _ .vmem, ⟨18, _⟩ => ⟨S15000x128, .f32⟩
  | .local _ .vmem, ⟨19, _⟩ => ⟨S4x128, .f32⟩
  | .local _ .vmem, ⟨20, _⟩ => ⟨S15000x128, .f32⟩
  | .local _ .vmem, ⟨21, _⟩ => ⟨S15000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c_1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_2 : Ref sig .tc := ⟨.hbm, 18, rfl⟩
abbrev main_v7 : Ref sig .tc := ⟨.hbm, 19, rfl⟩
abbrev main_v8 : Ref sig .tc := ⟨.hbm, 20, rfl⟩
abbrev main_c_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_cst_5 : Ref sig .tc := ⟨.hbm, 29, rfl⟩
abbrev main_v15 : Ref sig .tc := ⟨.hbm, 30, rfl⟩
abbrev main_cst_6 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_8 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_9 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_10 : Ref sig .tc := ⟨.hbm, 51, rfl⟩
abbrev main_v32 : Ref sig .tc := ⟨.hbm, 52, rfl⟩
abbrev main_v33 : Ref sig .tc := ⟨.hbm, 53, rfl⟩
abbrev main_c_11 : Ref sig .tc := ⟨.hbm, 54, rfl⟩
abbrev main_v34 : Ref sig .tc := ⟨.hbm, 55, rfl⟩
abbrev main_v35 : Ref sig .tc := ⟨.hbm, 56, rfl⟩
abbrev main_c_12 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c_13 : Ref sig .tc := ⟨.hbm, 63, rfl⟩
abbrev main_v41 : Ref sig .tc := ⟨.hbm, 64, rfl⟩
abbrev main_v42 : Ref sig .tc := ⟨.hbm, 65, rfl⟩
abbrev main_c_14 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_15 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_16 : Ref sig .tc := ⟨.hbm, 79, rfl⟩
abbrev main_v54 : Ref sig .tc := ⟨.hbm, 80, rfl⟩
abbrev main_v55 : Ref sig .tc := ⟨.hbm, 81, rfl⟩
abbrev main_c_17 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_18 : Ref sig .tc := ⟨.hbm, 90, rfl⟩
abbrev main_v63 : Ref sig .tc := ⟨.hbm, 91, rfl⟩
abbrev main_cst_19 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_20 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_21 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_22 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_23 : Ref sig .tc := ⟨.hbm, 112, rfl⟩
abbrev main_v80 : Ref sig .tc := ⟨.hbm, 113, rfl⟩
abbrev main_v81 : Ref sig .tc := ⟨.hbm, 114, rfl⟩
abbrev main_c_24 : Ref sig .tc := ⟨.hbm, 115, rfl⟩
abbrev main_v82 : Ref sig .tc := ⟨.hbm, 116, rfl⟩
abbrev main_v83 : Ref sig .tc := ⟨.hbm, 117, rfl⟩
abbrev main_c_25 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_c_26 : Ref sig .tc := ⟨.hbm, 124, rfl⟩
abbrev main_v89 : Ref sig .tc := ⟨.hbm, 125, rfl⟩
abbrev main_v90 : Ref sig .tc := ⟨.hbm, 126, rfl⟩
abbrev main_c_27 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_cst_28 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_cst_29 : Ref sig .tc := ⟨.hbm, 143, rfl⟩
abbrev main_v105 : Ref sig .tc := ⟨.hbm, 144, rfl⟩
abbrev main_cst_30 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_c_31 : Ref sig .tc := ⟨.hbm, 150, rfl⟩
abbrev main_v110 : Ref sig .tc := ⟨.hbm, 151, rfl⟩
abbrev main_v111 : Ref sig .tc := ⟨.hbm, 152, rfl⟩
abbrev main_c_32 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_c_33 : Ref sig .tc := ⟨.hbm, 159, rfl⟩
abbrev main_v117 : Ref sig .tc := ⟨.hbm, 160, rfl⟩
abbrev main_v118 : Ref sig .tc := ⟨.hbm, 161, rfl⟩
abbrev main_c_34 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_c_35 : Ref sig .tc := ⟨.hbm, 168, rfl⟩
abbrev main_v124 : Ref sig .tc := ⟨.hbm, 169, rfl⟩
abbrev main_v125 : Ref sig .tc := ⟨.hbm, 170, rfl⟩
abbrev main_c_36 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S15000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S15000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S15000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S15000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S15000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x4 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S15000x4 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![80], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S15000x4 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S15000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S4x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S15000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S600000 : S_.BroadcastsInDim S600000 (![] : Fin 0 → Fin S600000.rank)
  concatenates_S600000_S600000_S1200000_d0 : Shape.Concatenates [S600000, S600000] S1200000 0
  concatenates_S40000x128_S20000x128_S60000x128_d0 : Shape.Concatenates [S40000x128, S20000x128] S60000x128 0
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S1200000x4 : S_.BroadcastsInDim S1200000x4 (![] : Fin 0 → Fin S1200000x4.rank)
  reducesTo_S1200000x4_S1200000_d1 : S1200000x4.ReducesTo [1] S1200000
  h_S_ : 0 < S_.numel
  bcast_S1200000x1_S1200000x4_0_1 : S1200000x1.BroadcastsInDim S1200000x4 (![0, 1] : Fin 2 → Fin S1200000x4.rank)
  bcast_S_S60000x4 : S_.BroadcastsInDim S60000x4 (![] : Fin 0 → Fin S60000x4.rank)
  inb_S15000x4_S15000x4_0_0 : ∀ a, (![0, 0] : Fin 2 → Nat) a + S15000x4.size a ≤ S15000x4.size a
  h_S15000x4 : 0 < S15000x4.numel
  shapeCasts_S15000x4_S15000x4 : S15000x4.ShapeCasts S15000x4
  inb_S4x128_S4x128_0_0 : ∀ a, (![0, 0] : Fin 2 → Nat) a + S4x128.size a ≤ S4x128.size a
  h_S4x128 : 0 < S4x128.numel
  inb_S15000x128_S15000x128_0_0 : ∀ a, (![0, 0] : Fin 2 → Nat) a + S15000x128.size a ≤ S15000x128.size a
  h_S15000x128 : 0 < S15000x128.numel
  shapeCasts_S15000x128_S15000x128 : S15000x128.ShapeCasts S15000x128
  bcast_S_S60000x128 : S_.BroadcastsInDim S60000x128 (![] : Fin 0 → Fin S60000x128.rank)
  inb_S128x4_S128x4_0_0 : ∀ a, (![0, 0] : Fin 2 → Nat) a + S128x4.size a ≤ S128x4.size a
  h_S128x4 : 0 < S128x4.numel
  bcast_S60000x128_S60000x1x128_0_2 : S60000x128.BroadcastsInDim S60000x1x128 (![0, 2] : Fin 2 → Fin S60000x1x128.rank)
  concatenates_S60000x1x128_S60000x1x128_S60000x2x128_d1 : Shape.Concatenates [S60000x1x128, S60000x1x128] S60000x2x128 1
  reducesTo_S60000x2x128_S60000x128_d1 : S60000x2x128.ReducesTo [1] S60000x128
  slices_S60000x128_S40000x128_0_0 : S60000x128.Slices ![0, 0] S40000x128
  slices_S60000x128_S20000x128_40000_0 : S60000x128.Slices ![40000, 0] S20000x128
  bcast_S_S4096 : S_.BroadcastsInDim S4096 (![] : Fin 0 → Fin S4096.rank)
  bcast_S4096_S4096x1_0 : S4096.BroadcastsInDim S4096x1 (![0] : Fin 1 → Fin S4096x1.rank)
  gather_S60000x128_S1200000x1_S1200000x128_1_0_n_n_0_1_1128_wf : GatherDims.WF S60000x128 S1200000x1 S1200000x128 [1] [0] [] [0] [] 1 ![1, 128]
  scatter_S60000x4_S1200000x1_S1200000x4_1_0_0_1_wf : ScatterDims.WF S60000x4 S1200000x1 S1200000x4 [1] [0] [0] 1
  gather_S60000x4_S1200000x1_S1200000x4_1_0_n_n_0_1_14_wf : GatherDims.WF S60000x4 S1200000x1 S1200000x4 [1] [0] [] [0] [] 1 ![1, 4]
  dot_S15000x4_S4x128_S15000x128_1_0_0_1_n_n_wf : DotDims.WF S15000x4 S4x128 S15000x128 [1] [0] [0] [1] [] []
  scatter_S60000x128_S1200000x1_S1200000x128_1_0_0_1_wf : ScatterDims.WF S60000x128 S1200000x1 S1200000x128 [1] [0] [0] 1
  dot_S15000x128_S128x4_S15000x4_1_0_0_1_n_n_wf : DotDims.WF S15000x128 S128x4 S15000x4 [1] [0] [0] [1] [] []
  gather_S40000x128_S4096x1_S4096x128_1_0_n_n_0_1_1128_wf : GatherDims.WF S40000x128 S4096x1 S4096x128 [1] [0] [] [0] [] 1 ![1, 128]
  gather_S20000x128_S4096x1_S4096x128_1_0_n_n_0_1_1128_wf : GatherDims.WF S20000x128 S4096x1 S4096x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S15000x4.size a ≤ S1200000x4.size a
  hwx0_0 : ∀ i : grid0.Coords, EltTy.bits .f32 = 32 ∨ (Rect.block (s := S1200000x4) S15000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S15000x128.size a ≤ S1200000x128.size a
  hwx0_1 : ∀ i : grid0.Coords, EltTy.bits .f32 = 32 ∨ (Rect.block (s := S1200000x128) S15000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x128.size a ≤ S4x128.size a
  hwx0_2 : ∀ i : grid0.Coords, EltTy.bits .f32 = 32 ∨ (Rect.block (s := S4x128) S4x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S15000x128.size a ≤ S1200000x128.size a
  hwx0_3 : ∀ i : grid0.Coords, EltTy.bits .f32 = 32 ∨ (Rect.block (s := S1200000x128) S15000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S15000x128.size a ≤ S1200000x128.size a
  hwx1_0 : ∀ i : grid1.Coords, EltTy.bits .f32 = 32 ∨ (Rect.block (s := S1200000x128) S15000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S15000x128.size a ≤ S1200000x128.size a
  hwx1_1 : ∀ i : grid1.Coords, EltTy.bits .f32 = 32 ∨ (Rect.block (s := S1200000x128) S15000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x4.size a ≤ S128x4.size a
  hwx1_2 : ∀ i : grid1.Coords, EltTy.bits .f32 = 32 ∨ (Rect.block (s := S128x4) S128x4.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4x128.size a ≤ S4x128.size a
  hwx1_3 : ∀ i : grid1.Coords, EltTy.bits .f32 = 32 ∨ (Rect.block (s := S4x128) S4x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S15000x4.size a ≤ S1200000x4.size a
  hwx1_4 : ∀ i : grid1.Coords, EltTy.bits .f32 = 32 ∨ (Rect.block (s := S1200000x4) S15000x4.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S15000x4.size a ≤ S1200000x4.size a
  hwx2_0 : ∀ i : grid2.Coords, EltTy.bits .f32 = 32 ∨ (Rect.block (s := S1200000x4) S15000x4.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S15000x128.size a ≤ S1200000x128.size a
  hwx2_1 : ∀ i : grid2.Coords, EltTy.bits .f32 = 32 ∨ (Rect.block (s := S1200000x128) S15000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4x128.size a ≤ S4x128.size a
  hwx2_2 : ∀ i : grid2.Coords, EltTy.bits .f32 = 32 ∨ (Rect.block (s := S4x128) S4x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S15000x128.size a ≤ S1200000x128.size a
  hwx2_3 : ∀ i : grid2.Coords, EltTy.bits .f32 = 32 ∨ (Rect.block (s := S1200000x128) S15000x128.size (cc2_transform_3 i) (hinb2_3 i)).WholeWords (EltTy.packing .f32)

variable [Facts₀]

def gather_S60000x128_S1200000x1_S1200000x128_1_0_n_n_0_1_1128 : GatherDims S60000x128 S1200000x1 S1200000x128 where
  offsetDims := [1]
  collapsedSliceDims := [0]
  operandBatchingDims := []
  startIndicesBatchingDims := []
  startIndexMap := [0]
  indexVectorDim := 1
  sliceSizes := ![1, 128]
  wf := gather_S60000x128_S1200000x1_S1200000x128_1_0_n_n_0_1_1128_wf
def scatter_S60000x4_S1200000x1_S1200000x4_1_0_0_1 : ScatterDims S60000x4 S1200000x1 S1200000x4 where
  updateWindowDims := [1]
  insertedWindowDims := [0]
  scatterDimsToOperandDims := [0]
  indexVectorDim := 1
  wf := scatter_S60000x4_S1200000x1_S1200000x4_1_0_0_1_wf
def gather_S60000x4_S1200000x1_S1200000x4_1_0_n_n_0_1_14 : GatherDims S60000x4 S1200000x1 S1200000x4 where
  offsetDims := [1]
  collapsedSliceDims := [0]
  operandBatchingDims := []
  startIndicesBatchingDims := []
  startIndexMap := [0]
  indexVectorDim := 1
  sliceSizes := ![1, 4]
  wf := gather_S60000x4_S1200000x1_S1200000x4_1_0_n_n_0_1_14_wf
def dot_S15000x4_S4x128_S15000x128_1_0_0_1_n_n : DotDims S15000x4 S4x128 S15000x128 where
  lhsContracting := [1]
  rhsContracting := [0]
  lhsNonContracting := [0]
  rhsNonContracting := [1]
  lhsBatch := []
  rhsBatch := []
  wf := dot_S15000x4_S4x128_S15000x128_1_0_0_1_n_n_wf
def scatter_S60000x128_S1200000x1_S1200000x128_1_0_0_1 : ScatterDims S60000x128 S1200000x1 S1200000x128 where
  updateWindowDims := [1]
  insertedWindowDims := [0]
  scatterDimsToOperandDims := [0]
  indexVectorDim := 1
  wf := scatter_S60000x128_S1200000x1_S1200000x128_1_0_0_1_wf
def dot_S15000x128_S128x4_S15000x4_1_0_0_1_n_n : DotDims S15000x128 S128x4 S15000x4 where
  lhsContracting := [1]
  rhsContracting := [0]
  lhsNonContracting := [0]
  rhsNonContracting := [1]
  lhsBatch := []
  rhsBatch := []
  wf := dot_S15000x128_S128x4_S15000x4_1_0_0_1_n_n_wf
def gather_S40000x128_S4096x1_S4096x128_1_0_n_n_0_1_1128 : GatherDims S40000x128 S4096x1 S4096x128 where
  offsetDims := [1]
  collapsedSliceDims := [0]
  operandBatchingDims := []
  startIndicesBatchingDims := []
  startIndexMap := [0]
  indexVectorDim := 1
  sliceSizes := ![1, 128]
  wf := gather_S40000x128_S4096x1_S4096x128_1_0_n_n_0_1_1128_wf
def gather_S20000x128_S4096x1_S4096x128_1_0_n_n_0_1_1128 : GatherDims S20000x128 S4096x1 S4096x128 where
  offsetDims := [1]
  collapsedSliceDims := [0]
  operandBatchingDims := []
  startIndicesBatchingDims := []
  startIndexMap := [0]
  indexVectorDim := 1
  sliceSizes := ![1, 128]
  wf := gather_S20000x128_S4096x1_S4096x128_1_0_n_n_0_1_1128_wf

abbrev win0_0 : Pipeline.Window sig grid0 :=
  Pipeline.Window.ofSpec (Memref.whole main_v49) S15000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S15000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_cst_0) S4x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v50) S15000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v60) S15000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S15000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_cst) S128x4.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_cst_0) S4x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v61) S15000x4.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v97) S15000x4.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S15000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_cst_0) S4x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v98) S15000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S40000x128 : Shape := ⟨2, ![40000, 128]⟩
abbrev S20000x128 : Shape := ⟨2, ![20000, 128]⟩
abbrev S600000 : Shape := ⟨1, ![600000]⟩
abbrev S4096 : Shape := ⟨1, ![4096]⟩
abbrev S_ : Shape := ⟨0, ![]⟩
abbrev S1200000 : Shape := ⟨1, ![1200000]⟩
abbrev S60000x128 : Shape := ⟨2, ![60000, 128]⟩
abbrev S1200000x4 : Shape := ⟨2, ![1200000, 4]⟩
abbrev S60000x4x32 : Shape := ⟨3, ![60000, 4, 32]⟩
abbrev S1200000x1 : Shape := ⟨2, ![1200000, 1]⟩
abbrev S60000x4 : Shape := ⟨2, ![60000, 4]⟩
abbrev S1200000x4x32 : Shape := ⟨3, ![1200000, 4, 32]⟩
abbrev S1200000x4x1 : Shape := ⟨3, ![1200000, 4, 1]⟩
abbrev S60000x1x128 : Shape := ⟨3, ![60000, 1, 128]⟩
abbrev S60000x2x128 : Shape := ⟨3, ![60000, 2, 128]⟩
abbrev S4096x1 : Shape := ⟨2, ![4096, 1]⟩
abbrev S4096x128 : Shape := ⟨2, ![4096, 128]⟩

abbrev nBuf : Space → Nat
  | .hbm => 222
  | .vmem => 0
  | .smem => 0
  | _ => 0

abbrev hbmTy0_0 (i : Nat) : BufTy := match i % 128 with
  | 0 => ⟨S40000x128, .f32⟩
  | 1 => ⟨S20000x128, .f32⟩
  | 2 => ⟨S600000, .i32⟩
  | 3 => ⟨S600000, .i32⟩
  | 4 => ⟨S4096, .i32⟩
  | 5 => ⟨S4096, .i32⟩
  | 6 => ⟨S4096, .i32⟩
  | 7 => ⟨S_, .i32⟩
  | 8 => ⟨S600000, .i32⟩
  | 9 => ⟨S600000, .i32⟩
  | 10 => ⟨S1200000, .i32⟩
  | 11 => ⟨S_, .i32⟩
  | 12 => ⟨S600000, .i32⟩
  | 13 => ⟨S600000, .i32⟩
  | 14 => ⟨S1200000, .i32⟩
  | 15 => ⟨S60000x128, .f32⟩
  | 16 => ⟨S_, .f32⟩
  | 17 => ⟨S1200000x4, .f32⟩
  | 18 => ⟨S60000x4x32, .f32⟩
  | 19 => ⟨S_, .f32⟩
  | 20 => ⟨S1200000, .f32⟩
  | 21 => ⟨S_, .f32⟩
  | 22 => ⟨S1200000, .f32⟩
  | 23 => ⟨S1200000, .f32⟩
  | 24 => ⟨S1200000x1, .f32⟩
  | 25 => ⟨S1200000x4, .f32⟩
  | 26 => ⟨S1200000x4, .f32⟩
  | 27 => ⟨S1200000x4, .f32⟩
  | 28 => ⟨S_, .f32⟩
  | 29 => ⟨S1200000, .f32⟩
  | 30 => ⟨S1200000x1, .f32⟩
  | 31 => ⟨S1200000x4, .f32⟩
  | 32 => ⟨S1200000x4, .f32⟩
  | 33 => ⟨S_, .f32⟩
  | 34 => ⟨S60000x4, .f32⟩
  | 35 => ⟨S1200000x1, .i32⟩
  | 36 => ⟨S60000x4, .f32⟩
  | 37 => ⟨S_, .f32⟩
  | 38 => ⟨S60000x4, .f32⟩
  | 39 => ⟨S60000x4, .f32⟩
  | 40 => ⟨S60000x4, .f32⟩
  | 41 => ⟨S_, .f32⟩
  | 42 => ⟨S60000x4, .f32⟩
  | 43 => ⟨S60000x4, .f32⟩
  | 44 => ⟨S_, .i32⟩
  | 45 => ⟨S1200000, .i32⟩
  | 46 => ⟨S1200000, .i1⟩
  | 47 => ⟨S_, .i32⟩
  | 48 => ⟨S1200000, .i32⟩
  | 49 => ⟨S1200000, .i32⟩
  | 50 => ⟨S1200000, .i32⟩
  | 51 => ⟨S1200000x1, .i32⟩
  | 52 => ⟨S1200000x4, .f32⟩
  | 53 => ⟨S1200000x4, .f32⟩
  | 54 => ⟨S_, .i32⟩
  | 55 => ⟨S1200000, .i32⟩
  | 56 => ⟨S1200000, .i1⟩
  | 57 => ⟨S_, .i32⟩
  | 58 => ⟨S1200000, .i32⟩
  | 59 => ⟨S1200000, .i32⟩
  | 60 => ⟨S1200000, .i32⟩
  | 61 => ⟨S1200000x1, .i32⟩
  | 62 => ⟨S1200000x4, .f32⟩
  | 63 => ⟨S1200000x4, .f32⟩
  | 64 => ⟨S_, .i32⟩
  | 65 => ⟨S1200000, .i32⟩
  | 66 => ⟨S1200000, .i1⟩
  | 67 => ⟨S_, .i32⟩
  | 68 => ⟨S1200000, .i32⟩
  | 69 => ⟨S1200000, .i32⟩
  | 70 => ⟨S1200000, .i32⟩
  | 71 => ⟨S1200000x1, .i32⟩
  | 72 => ⟨S1200000x4x32, .f32⟩
  | 73 => ⟨S1200000x4x1, .f32⟩
  | 74 => ⟨S1200000x4x32, .f32⟩
  | 75 => ⟨S1200000x4x32, .f32⟩
  | 76 => ⟨S_, .f32⟩
  | 77 => ⟨S60000x4x32, .f32⟩
  | 78 => ⟨S1200000x1, .i32⟩
  | 79 => ⟨S60000x4x32, .f32⟩
  | 80 => ⟨S_, .i32⟩
  | 81 => ⟨S1200000, .i32⟩
  | 82 => ⟨S1200000, .i1⟩
  | 83 => ⟨S_, .i32⟩
  | 84 => ⟨S1200000, .i32⟩
  | 85 => ⟨S1200000, .i32⟩
  | 86 => ⟨S1200000, .i32⟩
  | 87 => ⟨S1200000x1, .i32⟩
  | 88 => ⟨S1200000x4x32, .f32⟩
  | 89 => ⟨S1200000x4x32, .f32⟩
  | 90 => ⟨S_, .f32⟩
  | 91 => ⟨S1200000x4, .f32⟩
  | 92 => ⟨S1200000x4x1, .f32⟩
  | 93 => ⟨S1200000x4x1, .f32⟩
  | 94 => ⟨S_, .f32⟩
  | 95 => ⟨S1200000x4x1, .f32⟩
  | 96 => ⟨S1200000x4x1, .f32⟩
  | 97 => ⟨S1200000x4x32, .f32⟩
  | 98 => ⟨S1200000x4x32, .f32⟩
  | 99 => ⟨S_, .i32⟩
  | 100 => ⟨S1200000, .i32⟩
  | 101 => ⟨S1200000, .i1⟩
  | 102 => ⟨S_, .i32⟩
  | 103 => ⟨S1200000, .i32⟩
  | 104 => ⟨S1200000, .i32⟩
  | 105 => ⟨S1200000, .i32⟩
  | 106 => ⟨S1200000x1, .i32⟩
  | 107 => ⟨S1200000x4x32, .f32⟩
  | 108 => ⟨S1200000x4x32, .f32⟩
  | 109 => ⟨S_, .f32⟩
  | 110 => ⟨S1200000x4, .f32⟩
  | 111 => ⟨S1200000x4x1, .f32⟩
  | 112 => ⟨S1200000x4x1, .f32⟩
  | 113 => ⟨S_, .f32⟩
  | 114 => ⟨S1200000x4x1, .f32⟩
  | 115 => ⟨S1200000x4x1, .f32⟩
  | 116 => ⟨S1200000x4x32, .f32⟩
  | 117 => ⟨S1200000x4x32, .f32⟩
  | 118 => ⟨S1200000x4x32, .f32⟩
  | 119 => ⟨S1200000x4x32, .f32⟩
  | 120 => ⟨S_, .f32⟩
  | 121 => ⟨S1200000x4, .f32⟩
  | 122 => ⟨S1200000x4, .f32⟩
  | 123 => ⟨S_, .f32⟩
  | 124 => ⟨S1200000, .f32⟩
  | 125 => ⟨S_, .f32⟩
  | 126 => ⟨S1200000, .f32⟩
  | 127 => ⟨S1200000, .f32⟩
  | _ => ⟨S40000x128, .f32⟩

abbrev hbmTy0_1 (i : Nat) : BufTy := match i % 128 with
  | 0 => ⟨S1200000x1, .f32⟩
  | 1 => ⟨S1200000x4, .f32⟩
  | 2 => ⟨S1200000x4, .f32⟩
  | 3 => ⟨S1200000x4, .f32⟩
  | 4 => ⟨S_, .f32⟩
  | 5 => ⟨S1200000, .f32⟩
  | 6 => ⟨S1200000x1, .f32⟩
  | 7 => ⟨S1200000x4, .f32⟩
  | 8 => ⟨S1200000x4, .f32⟩
  | 9 => ⟨S_, .f32⟩
  | 10 => ⟨S60000x4, .f32⟩
  | 11 => ⟨S1200000x1, .i32⟩
  | 12 => ⟨S60000x4, .f32⟩
  | 13 => ⟨S_, .f32⟩
  | 14 => ⟨S60000x4, .f32⟩
  | 15 => ⟨S60000x4, .f32⟩
  | 16 => ⟨S60000x4, .f32⟩
  | 17 => ⟨S_, .f32⟩
  | 18 => ⟨S60000x4, .f32⟩
  | 19 => ⟨S60000x4, .f32⟩
  | 20 => ⟨S_, .i32⟩
  | 21 => ⟨S1200000, .i32⟩
  | 22 => ⟨S1200000, .i1⟩
  | 23 => ⟨S_, .i32⟩
  | 24 => ⟨S1200000, .i32⟩
  | 25 => ⟨S1200000, .i32⟩
  | 26 => ⟨S1200000, .i32⟩
  | 27 => ⟨S1200000x1, .i32⟩
  | 28 => ⟨S1200000x4, .f32⟩
  | 29 => ⟨S1200000x4, .f32⟩
  | 30 => ⟨S_, .i32⟩
  | 31 => ⟨S1200000, .i32⟩
  | 32 => ⟨S1200000, .i1⟩
  | 33 => ⟨S_, .i32⟩
  | 34 => ⟨S1200000, .i32⟩
  | 35 => ⟨S1200000, .i32⟩
  | 36 => ⟨S1200000, .i32⟩
  | 37 => ⟨S1200000x1, .i32⟩
  | 38 => ⟨S1200000x4, .f32⟩
  | 39 => ⟨S1200000x4, .f32⟩
  | 40 => ⟨S_, .i32⟩
  | 41 => ⟨S1200000, .i32⟩
  | 42 => ⟨S1200000, .i1⟩
  | 43 => ⟨S_, .i32⟩
  | 44 => ⟨S1200000, .i32⟩
  | 45 => ⟨S1200000, .i32⟩
  | 46 => ⟨S1200000, .i32⟩
  | 47 => ⟨S1200000x1, .i32⟩
  | 48 => ⟨S1200000x4x32, .f32⟩
  | 49 => ⟨S1200000x4x1, .f32⟩
  | 50 => ⟨S1200000x4x32, .f32⟩
  | 51 => ⟨S1200000x4x32, .f32⟩
  | 52 => ⟨S_, .f32⟩
  | 53 => ⟨S60000x4x32, .f32⟩
  | 54 => ⟨S1200000x1, .i32⟩
  | 55 => ⟨S60000x4x32, .f32⟩
  | 56 => ⟨S60000x128, .f32⟩
  | 57 => ⟨S60000x1x128, .f32⟩
  | 58 => ⟨S60000x1x128, .f32⟩
  | 59 => ⟨S60000x2x128, .f32⟩
  | 60 => ⟨S_, .f32⟩
  | 61 => ⟨S60000x128, .f32⟩
  | 62 => ⟨S_, .f32⟩
  | 63 => ⟨S60000x128, .f32⟩
  | 64 => ⟨S60000x128, .f32⟩
  | 65 => ⟨S40000x128, .f32⟩
  | 66 => ⟨S20000x128, .f32⟩
  | 67 => ⟨S_, .i32⟩
  | 68 => ⟨S4096, .i32⟩
  | 69 => ⟨S4096, .i1⟩
  | 70 => ⟨S_, .i32⟩
  | 71 => ⟨S4096, .i32⟩
  | 72 => ⟨S4096, .i32⟩
  | 73 => ⟨S4096, .i32⟩
  | 74 => ⟨S4096x1, .i32⟩
  | 75 => ⟨S4096x128, .f32⟩
  | 76 => ⟨S_, .i32⟩
  | 77 => ⟨S4096, .i32⟩
  | 78 => ⟨S4096, .i1⟩
  | 79 => ⟨S_, .i32⟩
  | 80 => ⟨S4096, .i32⟩
  | 81 => ⟨S4096, .i32⟩
  | 82 => ⟨S4096, .i32⟩
  | 83 => ⟨S4096x1, .i32⟩
  | 84 => ⟨S4096x128, .f32⟩
  | 85 => ⟨S_, .i32⟩
  | 86 => ⟨S4096, .i32⟩
  | 87 => ⟨S4096, .i1⟩
  | 88 => ⟨S_, .i32⟩
  | 89 => ⟨S4096, .i32⟩
  | 90 => ⟨S4096, .i32⟩
  | 91 => ⟨S4096, .i32⟩
  | 92 => ⟨S4096x1, .i32⟩
  | 93 => ⟨S4096x128, .f32⟩
  | _ => ⟨S40000x128, .f32⟩

abbrev hbmTy (i : Nat) : BufTy := match i / 128 with
  | 0 => hbmTy0_0 i
  | 1 => hbmTy0_1 i
  | _ => ⟨S40000x128, .f32⟩

abbrev bufTy : (tb : Table) → Fin (tcTables nBuf tb) → BufTy
  | .hbm, ⟨i, _⟩ => hbmTy i
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_c_7 : Ref sig .tc := ⟨.hbm, 44, rfl⟩
abbrev main_v28 : Ref sig .tc := ⟨.hbm, 45, rfl⟩
abbrev main_v29 : Ref sig .tc := ⟨.hbm, 46, rfl⟩
abbrev main_c_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_9 : Ref sig .tc := ⟨.hbm, 54, rfl⟩
abbrev main_v36 : Ref sig .tc := ⟨.hbm, 55, rfl⟩
abbrev main_v37 : Ref sig .tc := ⟨.hbm, 56, rfl⟩
abbrev main_c_10 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_11 : Ref sig .tc := ⟨.hbm, 64, rfl⟩
abbrev main_v44 : Ref sig .tc := ⟨.hbm, 65, rfl⟩
abbrev main_v45 : Ref sig .tc := ⟨.hbm, 66, rfl⟩
abbrev main_c_12 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_13 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_14 : Ref sig .tc := ⟨.hbm, 80, rfl⟩
abbrev main_v57 : Ref sig .tc := ⟨.hbm, 81, rfl⟩
abbrev main_v58 : Ref sig .tc := ⟨.hbm, 82, rfl⟩
abbrev main_c_15 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_16 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_17 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_18 : Ref sig .tc := ⟨.hbm, 99, rfl⟩
abbrev main_v72 : Ref sig .tc := ⟨.hbm, 100, rfl⟩
abbrev main_v73 : Ref sig .tc := ⟨.hbm, 101, rfl⟩
abbrev main_c_19 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_20 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_21 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_22 : Ref sig .tc := ⟨.hbm, 120, rfl⟩
abbrev main_v89 : Ref sig .tc := ⟨.hbm, 121, rfl⟩
abbrev main_v90 : Ref sig .tc := ⟨.hbm, 122, rfl⟩
abbrev main_cst_23 : Ref sig .tc := ⟨.hbm, 123, rfl⟩
abbrev main_v91 : Ref sig .tc := ⟨.hbm, 124, rfl⟩
abbrev main_cst_24 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_cst_25 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_cst_26 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_cst_27 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_cst_28 : Ref sig .tc := ⟨.hbm, 145, rfl⟩
abbrev main_v108 : Ref sig .tc := ⟨.hbm, 146, rfl⟩
abbrev main_v109 : Ref sig .tc := ⟨.hbm, 147, rfl⟩
abbrev main_c_29 : Ref sig .tc := ⟨.hbm, 148, rfl⟩
abbrev main_v110 : Ref sig .tc := ⟨.hbm, 149, rfl⟩
abbrev main_v111 : Ref sig .tc := ⟨.hbm, 150, rfl⟩
abbrev main_c_30 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_c_31 : Ref sig .tc := ⟨.hbm, 158, rfl⟩
abbrev main_v118 : Ref sig .tc := ⟨.hbm, 159, rfl⟩
abbrev main_v119 : Ref sig .tc := ⟨.hbm, 160, rfl⟩
abbrev main_c_32 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_c_33 : Ref sig .tc := ⟨.hbm, 168, rfl⟩
abbrev main_v126 : Ref sig .tc := ⟨.hbm, 169, rfl⟩
abbrev main_v127 : Ref sig .tc := ⟨.hbm, 170, rfl⟩
abbrev main_c_34 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_cst_35 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_cst_36 : Ref sig .tc := ⟨.hbm, 188, rfl⟩
abbrev main_v143 : Ref sig .tc := ⟨.hbm, 189, rfl⟩
abbrev main_cst_37 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_c_38 : Ref sig .tc := ⟨.hbm, 195, rfl⟩
abbrev main_v148 : Ref sig .tc := ⟨.hbm, 196, rfl⟩
abbrev main_v149 : Ref sig .tc := ⟨.hbm, 197, rfl⟩
abbrev main_c_39 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_c_40 : Ref sig .tc := ⟨.hbm, 204, rfl⟩
abbrev main_v155 : Ref sig .tc := ⟨.hbm, 205, rfl⟩
abbrev main_v156 : Ref sig .tc := ⟨.hbm, 206, rfl⟩
abbrev main_c_41 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_c_42 : Ref sig .tc := ⟨.hbm, 213, rfl⟩
abbrev main_v162 : Ref sig .tc := ⟨.hbm, 214, rfl⟩
abbrev main_v163 : Ref sig .tc := ⟨.hbm, 215, rfl⟩
abbrev main_c_43 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  concatenates_S600000_S600000_S1200000_d0 : Shape.Concatenates [S600000, S600000] S1200000 0
  concatenates_S40000x128_S20000x128_S60000x128_d0 : Shape.Concatenates [S40000x128, S20000x128] S60000x128 0
  bcast_S_S1200000x4 : S_.BroadcastsInDim S1200000x4 (![] : Fin 0 → Fin S1200000x4.rank)
  shapeCasts_S60000x128_S60000x4x32 : S60000x128.ShapeCasts S60000x4x32
  reducesTo_S1200000x4_S1200000_d1 : S1200000x4.ReducesTo [1] S1200000
  h_S_ : 0 < S_.numel
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S1200000x1_S1200000x4_0_1 : S1200000x1.BroadcastsInDim S1200000x4 (![0, 1] : Fin 2 → Fin S1200000x4.rank)
  bcast_S_S60000x4 : S_.BroadcastsInDim S60000x4 (![] : Fin 0 → Fin S60000x4.rank)
  bcast_S1200000x4_S1200000x4x1_0_1 : S1200000x4.BroadcastsInDim S1200000x4x1 (![0, 1] : Fin 2 → Fin S1200000x4x1.rank)
  bcast_S1200000x4x1_S1200000x4x32_0_1_2 : S1200000x4x1.BroadcastsInDim S1200000x4x32 (![0, 1, 2] : Fin 3 → Fin S1200000x4x32.rank)
  bcast_S_S60000x4x32 : S_.BroadcastsInDim S60000x4x32 (![] : Fin 0 → Fin S60000x4x32.rank)
  reducesTo_S1200000x4x32_S1200000x4_d2 : S1200000x4x32.ReducesTo [2] S1200000x4
  bcast_S_S1200000x4x1 : S_.BroadcastsInDim S1200000x4x1 (![] : Fin 0 → Fin S1200000x4x1.rank)
  shapeCasts_S60000x4x32_S60000x128 : S60000x4x32.ShapeCasts S60000x128
  bcast_S60000x128_S60000x1x128_0_2 : S60000x128.BroadcastsInDim S60000x1x128 (![0, 2] : Fin 2 → Fin S60000x1x128.rank)
  concatenates_S60000x1x128_S60000x1x128_S60000x2x128_d1 : Shape.Concatenates [S60000x1x128, S60000x1x128] S60000x2x128 1
  reducesTo_S60000x2x128_S60000x128_d1 : S60000x2x128.ReducesTo [1] S60000x128
  bcast_S_S60000x128 : S_.BroadcastsInDim S60000x128 (![] : Fin 0 → Fin S60000x128.rank)
  slices_S60000x128_S40000x128_0_0 : S60000x128.Slices ![0, 0] S40000x128
  slices_S60000x128_S20000x128_40000_0 : S60000x128.Slices ![40000, 0] S20000x128
  bcast_S_S4096 : S_.BroadcastsInDim S4096 (![] : Fin 0 → Fin S4096.rank)
  bcast_S4096_S4096x1_0 : S4096.BroadcastsInDim S4096x1 (![0] : Fin 1 → Fin S4096x1.rank)
  scatter_S60000x4_S1200000x1_S1200000x4_1_0_0_1_wf : ScatterDims.WF S60000x4 S1200000x1 S1200000x4 [1] [0] [0] 1
  gather_S60000x4_S1200000x1_S1200000x4_1_0_n_n_0_1_14_wf : GatherDims.WF S60000x4 S1200000x1 S1200000x4 [1] [0] [] [0] [] 1 ![1, 4]
  gather_S60000x4x32_S1200000x1_S1200000x4x32_12_0_n_n_0_1_1432_wf : GatherDims.WF S60000x4x32 S1200000x1 S1200000x4x32 [1, 2] [0] [] [0] [] 1 ![1, 4, 32]
  scatter_S60000x4x32_S1200000x1_S1200000x4x32_12_0_0_1_wf : ScatterDims.WF S60000x4x32 S1200000x1 S1200000x4x32 [1, 2] [0] [0] 1
  gather_S40000x128_S4096x1_S4096x128_1_0_n_n_0_1_1128_wf : GatherDims.WF S40000x128 S4096x1 S4096x128 [1] [0] [] [0] [] 1 ![1, 128]
  gather_S20000x128_S4096x1_S4096x128_1_0_n_n_0_1_1128_wf : GatherDims.WF S20000x128 S4096x1 S4096x128 [1] [0] [] [0] [] 1 ![1, 128]

variable [Facts₀]

def scatter_S60000x4_S1200000x1_S1200000x4_1_0_0_1 : ScatterDims S60000x4 S1200000x1 S1200000x4 where
  updateWindowDims := [1]
  insertedWindowDims := [0]
  scatterDimsToOperandDims := [0]
  indexVectorDim := 1
  wf := scatter_S60000x4_S1200000x1_S1200000x4_1_0_0_1_wf
def gather_S60000x4_S1200000x1_S1200000x4_1_0_n_n_0_1_14 : GatherDims S60000x4 S1200000x1 S1200000x4 where
  offsetDims := [1]
  collapsedSliceDims := [0]
  operandBatchingDims := []
  startIndicesBatchingDims := []
  startIndexMap := [0]
  indexVectorDim := 1
  sliceSizes := ![1, 4]
  wf := gather_S60000x4_S1200000x1_S1200000x4_1_0_n_n_0_1_14_wf
def gather_S60000x4x32_S1200000x1_S1200000x4x32_12_0_n_n_0_1_1432 : GatherDims S60000x4x32 S1200000x1 S1200000x4x32 where
  offsetDims := [1, 2]
  collapsedSliceDims := [0]
  operandBatchingDims := []
  startIndicesBatchingDims := []
  startIndexMap := [0]
  indexVectorDim := 1
  sliceSizes := ![1, 4, 32]
  wf := gather_S60000x4x32_S1200000x1_S1200000x4x32_12_0_n_n_0_1_1432_wf
def scatter_S60000x4x32_S1200000x1_S1200000x4x32_12_0_0_1 : ScatterDims S60000x4x32 S1200000x1 S1200000x4x32 where
  updateWindowDims := [1, 2]
  insertedWindowDims := [0]
  scatterDimsToOperandDims := [0]
  indexVectorDim := 1
  wf := scatter_S60000x4x32_S1200000x1_S1200000x4x32_12_0_0_1_wf
def gather_S40000x128_S4096x1_S4096x128_1_0_n_n_0_1_1128 : GatherDims S40000x128 S4096x1 S4096x128 where
  offsetDims := [1]
  collapsedSliceDims := [0]
  operandBatchingDims := []
  startIndicesBatchingDims := []
  startIndexMap := [0]
  indexVectorDim := 1
  sliceSizes := ![1, 128]
  wf := gather_S40000x128_S4096x1_S4096x128_1_0_n_n_0_1_1128_wf
def gather_S20000x128_S4096x1_S4096x128_1_0_n_n_0_1_1128 : GatherDims S20000x128 S4096x1 S4096x128 where
  offsetDims := [1]
  collapsedSliceDims := [0]
  operandBatchingDims := []
  startIndicesBatchingDims := []
  startIndexMap := [0]
  indexVectorDim := 1
  sliceSizes := ![1, 128]
  wf := gather_S20000x128_S4096x1_S4096x128_1_0_n_n_0_1_1128_wf

class Facts : Prop extends Facts₀ where

variable [Facts]
-- ==== Proof.KernelRun.lean ====
/-
  The idealized kernel's run with its results named.

  @main is four stretches of host operations around three pipelined regions.  The contents of every buffer at each
  boundary are a fold from the launch memory: a stretch applies its operations, a region replaces its arrays by what
  its write-backs leave.  Every weakly fair execution terminates, without a fault, with every buffer at the last
  boundary's contents; read at the three result buffers and at the seven arguments (which nothing writes) this is the
  run the value claim needs.
-/
import proofs.«168221_j52458730553670_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the three results at the last boundary's
    contents and the arguments as launched. -/
theorem run : θ_run defs (onTc (τ := τ) (main (F := F))) ⟨m, fun _ => 0, ρ⟩ (fun r => ∀ c : Dev nD,
      r.2.mem ((c.tc : Thread nD τ).loc main_v116) = W7 m ρ c (Proc.devRef .tc main_v116)
      ∧ r.2.mem ((c.tc : Thread nD τ).loc main_v123) = W7 m ρ c (Proc.devRef .tc main_v123)
      ∧ r.2.mem ((c.tc : Thread nD τ).loc main_v130) = W7 m ρ c (Proc.devRef .tc main_v130)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v116 (by decide)),
       h c _ (mem_uc main_v123 (by decide)),
       h c _ (mem_uc main_v130 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.KernelIdeal.RunValue

end
-- ==== Proof.RegionArrays.lean ====
/- Blocks to arrays for the kernel's three regions. Each region walks 80 points down the 1200000 edge rows, a block of
   15000 rows per point, and its body is row-local: row p of the block it writes depends only on row p of the row-blocked
   inputs and on the small matrices, which are read whole at every point. Under that row-locality (a hypothesis on the
   payload), the array a region leaves is ONE function of the arrays it finds, row by row: row r of the output is the row
   function of row r of the edge arrays and of the small matrices. Per region: the index maps over the grid; one entry of
   one block; what a point writes back as a block of the row-by-row array; the rows a block covers; the array. -/
import proofs.«168221_j52458730553670_2_alg».proof.Proof.Gen.KernelIdeal.Frame
import Idealize.ShloMosaic.Lib.ValueIdx
import Idealize.ShloMosaic.Lib.Pipeline.Value

set_option maxRecDepth 16384

noncomputable section

namespace Cert.KernelIdeal.RegionArrays

open Idealize.ShloMosaic Idealize.ShloMosaic.ValueIdx Idealize.ShloMosaic.TcCoe Cert.KernelIdeal Cert.KernelIdeal.Gen
open Idealize.ShloMosaic.Pipeline (Dat)

variable (V : (c : Dev nD) → (b : Ref sig .tc) → Buf (Elt Ideal) ((c : Thread nD τ).loc b))

/-- The zero offsets of a whole-block rectangle, as the constant function. -/
theorem offsets_zero : (![0, 0] : Fin 2 → Nat) = fun _ => 0 := funext fun a => by fin_cases a <;> rfl

/-! ## Region 0: a block of 15000 edges per point -/

/-- Region 0's index maps over the grid: the block of 15000 edges moves down the rows with the point,
    the columns stay, and the small matrix is read whole at every point. -/
theorem index_maps0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The array regions 0 and 2 leave, row by row: entry (r, j) is a function of row r of the two edge arrays and of the
    whole small matrix. -/
abbrev edgeRows (R : (Fin 4 → EReal) → (Fin 128 → EReal) → (S4x128.Idx → EReal) → Fin 128 → EReal)
    (a0 : S1200000x4.Idx → EReal) (a1 : S1200000x128.Idx → EReal) (a2 : S4x128.Idx → EReal) :
    S1200000x128.Idx → EReal :=
  fun i => R (fun k => a0 (ix2 (n0 := 1200000) (i 0) k)) (fun j' => a1 (ix2 (n0 := 1200000) (i 0) j')) a2 (i 1)

/-- One entry of one block: if the blocks' rows are rows 15000 t + p of the arrays and the small matrix is whole,
    a row-local payload at row p of the block is the row function at row 15000 t + p of the arrays. -/
theorem entry0 (R : (Fin 4 → EReal) → (Fin 128 → EReal) → (S4x128.Idx → EReal) → Fin 128 → EReal)
    (hR : ∀ (w : Vec Ideal S15000x4 .f32) (gt : Vec Ideal S4x128 .f32) (x : Vec Ideal S15000x128 .f32) (p : Fin 15000) (j : Fin 128),
      k0_pay1 (F := Ideal) w gt x (ix2 p j) = R (fun k => w (ix2 p k)) (fun j' => x (ix2 p j')) gt j)
    (a0 : S1200000x4.Idx → EReal) (a1 : S1200000x128.Idx → EReal) (a2 : S4x128.Idx → EReal)
    (w : Vec Ideal S15000x4 .f32) (gt : Vec Ideal S4x128 .f32) (x : Vec Ideal S15000x128 .f32) (tv : Nat)
    (hw : ∀ (p : Fin 15000) (k : Fin 4) (i : S1200000x4.Idx), (i 0).val = 15000 * tv + p.val → (i 1).val = k.val → w (ix2 p k) = a0 i)
    (hx : ∀ (p : Fin 15000) (k : Fin 128) (i : S1200000x128.Idx), (i 0).val = 15000 * tv + p.val → (i 1).val = k.val → x (ix2 p k) = a1 i)
    (hgt : gt = a2)
    (y : S15000x128.Idx) (i : S1200000x128.Idx) (hi0 : (i 0).val = 15000 * tv + (y 0).val) (hi1 : (i 1).val = (y 1).val) :
    k0_pay1 (F := Ideal) w gt x y = edgeRows R a0 a1 a2 i := by
  obtain ⟨p, q, rfl⟩ : ∃ (p : Fin 15000) (q : Fin 128), y = ix2 p q := ⟨y 0, y 1, eq_ix2 y⟩
  rw [hR]
  have e1 : (i 1 : Fin 128) = q := Fin.ext hi1
  have ew : (fun k => w (ix2 p k)) = fun k => a0 (ix2 (n0 := 1200000) (i 0) k) :=
    funext fun k => hw p k _ hi0 rfl
  have ex : (fun k => x (ix2 p k)) = fun k => a1 (ix2 (n0 := 1200000) (i 0) k) :=
    funext fun k => hx p k _ hi0 rfl
  show R _ _ _ _ = R _ _ _ _
  rw [ew, ex, hgt, e1]

/-- What point t writes back is block t of the row-by-row array over the arrays as the region finds them. -/
theorem written0 (c : Dev nD) (R : (Fin 4 → EReal) → (Fin 128 → EReal) → (S4x128.Idx → EReal) → Fin 128 → EReal)
    (hR : ∀ (w : Vec Ideal S15000x4 .f32) (gt : Vec Ideal S4x128 .f32) (x : Vec Ideal S15000x128 .f32) (p : Fin 15000) (j : Fin 128),
      k0_pay1 (F := Ideal) w gt x (ix2 p j) = R (fun k => w (ix2 p k)) (fun j' => x (ix2 p j')) gt j)
    (t : Fin cfg0.N) :
    (dat0 (F := Ideal) V c).flushed 3 t = ((cfg0.win 3).blk t).view.read (Elt Ideal)
      (edgeRows R (V c (Pipeline.arrRef spec0 0)) (V c (Pipeline.arrRef spec0 1)) (V c (Pipeline.arrRef spec0 2))) := by
  show (cfg0.win 3).cut (cfg0.grid.coords t) ((dat0 (F := Ideal) V c).after 3 t) = _
  rw [after0_3]
  unfold out0_3
  rw [View.canon_unit_zero offsets_zero]
  simp only [View.ld_unit_zero (S := S15000x4) offsets_zero, View.ld_unit_zero (S := S4x128) offsets_zero,
    View.ld_unit_zero (S := S15000x128) offsets_zero]
  obtain ⟨e00, e01, e10, e11, e20, e21, e30, e31⟩ := index_maps0 t
  funext y
  refine entry0 R hR (V c (Pipeline.arrRef spec0 0)) (V c (Pipeline.arrRef spec0 1)) (V c (Pipeline.arrRef spec0 2))
    (iblk0 V c 0 t) (iblk0 V c 2 t) (iblk0 V c 1 t) t.val ?_ ?_ ?_ y (((cfg0.win 3).blk t).view.emb y) ?_ ?_
  · intro p k i h0 h1
    show V c (Pipeline.arrRef spec0 0) (((cfg0.win 0).blk t).view.emb (ix2 p k)) = V c (Pipeline.arrRef spec0 0) i
    congr 1
    funext a
    apply Fin.ext
    match a with
    | ⟨0, _⟩ => show win0_0.index t (0 : Fin 2) * 15000 + 1 * p.val = (i 0).val; omega
    | ⟨1, _⟩ => show win0_0.index t (1 : Fin 2) * 4 + 1 * k.val = (i 1).val; omega
  · intro p k i h0 h1
    show V c (Pipeline.arrRef spec0 1) (((cfg0.win 1).blk t).view.emb (ix2 p k)) = V c (Pipeline.arrRef spec0 1) i
    congr 1
    funext a
    apply Fin.ext
    match a with
    | ⟨0, _⟩ => show win0_1.index t (0 : Fin 2) * 15000 + 1 * p.val = (i 0).val; omega
    | ⟨1, _⟩ => show win0_1.index t (1 : Fin 2) * 128 + 1 * k.val = (i 1).val; omega
  · funext z
    show V c (Pipeline.arrRef spec0 2) (((cfg0.win 2).blk t).view.emb z) = V c (Pipeline.arrRef spec0 2) z
    congr 1
    funext a
    apply Fin.ext
    match a with
    | ⟨0, _⟩ => show win0_2.index t (0 : Fin 2) * 4 + 1 * (z 0).val = (z 0).val; omega
    | ⟨1, _⟩ => show win0_2.index t (1 : Fin 2) * 128 + 1 * (z 1).val = (z 1).val; omega
  · show win0_3.index t (0 : Fin 2) * 15000 + 1 * (y 0).val = 15000 * t.val + (y 0).val; omega
  · show win0_3.index t (1 : Fin 2) * 128 + 1 * (y 1).val = (y 1).val; omega

/-- An index of the output array is in point t's block iff each coordinate is in the block's range on its axis. -/
theorem mem_block0 (t : Fin cfg0.N) (i : S1200000x128.Idx) :
    i ∈ ((cfg0.win 3).blk t).view.set ↔ ∀ a : Fin 2, win0_3.index t a * S15000x128.size a ≤ (i a).val
      ∧ (i a).val < win0_3.index t a * S15000x128.size a + S15000x128.size a := by
  show i ∈ ((View.whole main_v50).slice (win0_3.rect t)).set ↔ _
  rw [View.set_slice_whole, Rect.mem_set_unit]
  exact Iff.rfl

/-- Every row r of the output array lies in the block of point r / 15000, which is written back. -/
theorem covered0 (i : S1200000x128.Idx) :
    ∃ t : Fin cfg0.N, (cfg0.win 3).flush t = true ∧ i ∈ ((cfg0.win 3).blk t).view.set := by
  have hi0 : (i 0).val < 1200000 := (i 0).isLt
  have hi1 : (i 1).val < 128 := (i 1).isLt
  have hN : cfg0.N = 80 := N_0
  have hlt : (i 0).val / 15000 < cfg0.N := by rw [hN]; omega
  refine ⟨⟨(i 0).val / 15000, hlt⟩, flush0_3 _, ?_⟩
  rw [mem_block0]
  obtain ⟨-, -, -, -, -, -, e30, e31⟩ := index_maps0 ⟨(i 0).val / 15000, hlt⟩
  have e30' : win0_3.index ⟨(i 0).val / 15000, hlt⟩ (0 : Fin 2) = (i 0).val / 15000 := e30
  intro a
  match a with
  | ⟨0, _⟩ =>
    show win0_3.index ⟨(i 0).val / 15000, _⟩ (0 : Fin 2) * 15000 ≤ (i 0).val
      ∧ (i 0).val < win0_3.index ⟨(i 0).val / 15000, _⟩ (0 : Fin 2) * 15000 + 15000
    omega
  | ⟨1, _⟩ =>
    show win0_3.index ⟨(i 0).val / 15000, _⟩ (1 : Fin 2) * 128 ≤ (i 1).val
      ∧ (i 1).val < win0_3.index ⟨(i 0).val / 15000, _⟩ (1 : Fin 2) * 128 + 128
    omega

/-- REGION 0, blocks to array: with a row-local payload, the output array after the region is the row function of
    the arrays as the region finds them, row by row. -/
theorem array0 (c : Dev nD) (R : (Fin 4 → EReal) → (Fin 128 → EReal) → (S4x128.Idx → EReal) → Fin 128 → EReal)
    (hR : ∀ (w : Vec Ideal S15000x4 .f32) (gt : Vec Ideal S4x128 .f32) (x : Vec Ideal S15000x128 .f32) (p : Fin 15000) (j : Fin 128),
      k0_pay1 (F := Ideal) w gt x (ix2 p j) = R (fun k => w (ix2 p k)) (fun j' => x (ix2 p j')) gt j) :
    (dat0 (F := Ideal) V c).arrAt 3 cfg0.N
      = edgeRows R (V c (Pipeline.arrRef spec0 0)) (V c (Pipeline.arrRef spec0 1)) (V c (Pipeline.arrRef spec0 2)) :=
  (dat0 (F := Ideal) V c).arrAt_eq_of_cover 3
    (edgeRows R (V c (Pipeline.arrRef spec0 0)) (V c (Pipeline.arrRef spec0 1)) (V c (Pipeline.arrRef spec0 2)))
    (fun t _ => written0 V c R hR t) covered0

/-! ## Region 2: a block of 15000 edges per point -/

/-- Region 2's index maps over the grid: the block of 15000 edges moves down the rows with the point,
    the columns stay, and the small matrix is read whole at every point. -/
theorem index_maps2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- One entry of one block: if the blocks' rows are rows 15000 t + p of the arrays and the small matrix is whole,
    a row-local payload at row p of the block is the row function at row 15000 t + p of the arrays. -/
theorem entry2 (R : (Fin 4 → EReal) → (Fin 128 → EReal) → (S4x128.Idx → EReal) → Fin 128 → EReal)
    (hR : ∀ (w : Vec Ideal S15000x4 .f32) (gt : Vec Ideal S4x128 .f32) (x : Vec Ideal S15000x128 .f32) (p : Fin 15000) (j : Fin 128),
      k2_pay1 (F := Ideal) w gt x (ix2 p j) = R (fun k => w (ix2 p k)) (fun j' => x (ix2 p j')) gt j)
    (a0 : S1200000x4.Idx → EReal) (a1 : S1200000x128.Idx → EReal) (a2 : S4x128.Idx → EReal)
    (w : Vec Ideal S15000x4 .f32) (gt : Vec Ideal S4x128 .f32) (x : Vec Ideal S15000x128 .f32) (tv : Nat)
    (hw : ∀ (p : Fin 15000) (k : Fin 4) (i : S1200000x4.Idx), (i 0).val = 15000 * tv + p.val → (i 1).val = k.val → w (ix2 p k) = a0 i)
    (hx : ∀ (p : Fin 15000) (k : Fin 128) (i : S1200000x128.Idx), (i 0).val = 15000 * tv + p.val → (i 1).val = k.val → x (ix2 p k) = a1 i)
    (hgt : gt = a2)
    (y : S15000x128.Idx) (i : S1200000x128.Idx) (hi0 : (i 0).val = 15000 * tv + (y 0).val) (hi1 : (i 1).val = (y 1).val) :
    k2_pay1 (F := Ideal) w gt x y = edgeRows R a0 a1 a2 i := by
  obtain ⟨p, q, rfl⟩ : ∃ (p : Fin 15000) (q : Fin 128), y = ix2 p q := ⟨y 0, y 1, eq_ix2 y⟩
  rw [hR]
  have e1 : (i 1 : Fin 128) = q := Fin.ext hi1
  have ew : (fun k => w (ix2 p k)) = fun k => a0 (ix2 (n0 := 1200000) (i 0) k) :=
    funext fun k => hw p k _ hi0 rfl
  have ex : (fun k => x (ix2 p k)) = fun k => a1 (ix2 (n0 := 1200000) (i 0) k) :=
    funext fun k => hx p k _ hi0 rfl
  show R _ _ _ _ = R _ _ _ _
  rw [ew, ex, hgt, e1]

/-- What point t writes back is block t of the row-by-row array over the arrays as the region finds them. -/
theorem written2 (c : Dev nD) (R : (Fin 4 → EReal) → (Fin 128 → EReal) → (S4x128.Idx → EReal) → Fin 128 → EReal)
    (hR : ∀ (w : Vec Ideal S15000x4 .f32) (gt : Vec Ideal S4x128 .f32) (x : Vec Ideal S15000x128 .f32) (p : Fin 15000) (j : Fin 128),
      k2_pay1 (F := Ideal) w gt x (ix2 p j) = R (fun k => w (ix2 p k)) (fun j' => x (ix2 p j')) gt j)
    (t : Fin cfg2.N) :
    (dat2 (F := Ideal) V c).flushed 3 t = ((cfg2.win 3).blk t).view.read (Elt Ideal)
      (edgeRows R (V c (Pipeline.arrRef spec2 0)) (V c (Pipeline.arrRef spec2 1)) (V c (Pipeline.arrRef spec2 2))) := by
  show (cfg2.win 3).cut (cfg2.grid.coords t) ((dat2 (F := Ideal) V c).after 3 t) = _
  rw [after2_3]
  unfold out2_3
  rw [View.canon_unit_zero offsets_zero]
  simp only [View.ld_unit_zero (S := S15000x4) offsets_zero, View.ld_unit_zero (S := S4x128) offsets_zero,
    View.ld_unit_zero (S := S15000x128) offsets_zero]
  obtain ⟨e00, e01, e10, e11, e20, e21, e30, e31⟩ := index_maps2 t
  funext y
  refine entry2 R hR (V c (Pipeline.arrRef spec2 0)) (V c (Pipeline.arrRef spec2 1)) (V c (Pipeline.arrRef spec2 2))
    (iblk2 V c 0 t) (iblk2 V c 2 t) (iblk2 V c 1 t) t.val ?_ ?_ ?_ y (((cfg2.win 3).blk t).view.emb y) ?_ ?_
  · intro p k i h0 h1
    show V c (Pipeline.arrRef spec2 0) (((cfg2.win 0).blk t).view.emb (ix2 p k)) = V c (Pipeline.arrRef spec2 0) i
    congr 1
    funext a
    apply Fin.ext
    match a with
    | ⟨0, _⟩ => show win2_0.index t (0 : Fin 2) * 15000 + 1 * p.val = (i 0).val; omega
    | ⟨1, _⟩ => show win2_0.index t (1 : Fin 2) * 4 + 1 * k.val = (i 1).val; omega
  · intro p k i h0 h1
    show V c (Pipeline.arrRef spec2 1) (((cfg2.win 1).blk t).view.emb (ix2 p k)) = V c (Pipeline.arrRef spec2 1) i
    congr 1
    funext a
    apply Fin.ext
    match a with
    | ⟨0, _⟩ => show win2_1.index t (0 : Fin 2) * 15000 + 1 * p.val = (i 0).val; omega
    | ⟨1, _⟩ => show win2_1.index t (1 : Fin 2) * 128 + 1 * k.val = (i 1).val; omega
  · funext z
    show V c (Pipeline.arrRef spec2 2) (((cfg2.win 2).blk t).view.emb z) = V c (Pipeline.arrRef spec2 2) z
    congr 1
    funext a
    apply Fin.ext
    match a with
    | ⟨0, _⟩ => show win2_2.index t (0 : Fin 2) * 4 + 1 * (z 0).val = (z 0).val; omega
    | ⟨1, _⟩ => show win2_2.index t (1 : Fin 2) * 128 + 1 * (z 1).val = (z 1).val; omega
  · show win2_3.index t (0 : Fin 2) * 15000 + 1 * (y 0).val = 15000 * t.val + (y 0).val; omega
  · show win2_3.index t (1 : Fin 2) * 128 + 1 * (y 1).val = (y 1).val; omega

/-- An index of the output array is in point t's block iff each coordinate is in the block's range on its axis. -/
theorem mem_block2 (t : Fin cfg2.N) (i : S1200000x128.Idx) :
    i ∈ ((cfg2.win 3).blk t).view.set ↔ ∀ a : Fin 2, win2_3.index t a * S15000x128.size a ≤ (i a).val
      ∧ (i a).val < win2_3.index t a * S15000x128.size a + S15000x128.size a := by
  show i ∈ ((View.whole main_v98).slice (win2_3.rect t)).set ↔ _
  rw [View.set_slice_whole, Rect.mem_set_unit]
  exact Iff.rfl

/-- Every row r of the output array lies in the block of point r / 15000, which is written back. -/
theorem covered2 (i : S1200000x128.Idx) :
    ∃ t : Fin cfg2.N, (cfg2.win 3).flush t = true ∧ i ∈ ((cfg2.win 3).blk t).view.set := by
  have hi0 : (i 0).val < 1200000 := (i 0).isLt
  have hi1 : (i 1).val < 128 := (i 1).isLt
  have hN : cfg2.N = 80 := N_2
  have hlt : (i 0).val / 15000 < cfg2.N := by rw [hN]; omega
  refine ⟨⟨(i 0).val / 15000, hlt⟩, flush2_3 _, ?_⟩
  rw [mem_block2]
  obtain ⟨-, -, -, -, -, -, e30, e31⟩ := index_maps2 ⟨(i 0).val / 15000, hlt⟩
  have e30' : win2_3.index ⟨(i 0).val / 15000, hlt⟩ (0 : Fin 2) = (i 0).val / 15000 := e30
  intro a
  match a with
  | ⟨0, _⟩ =>
    show win2_3.index ⟨(i 0).val / 15000, _⟩ (0 : Fin 2) * 15000 ≤ (i 0).val
      ∧ (i 0).val < win2_3.index ⟨(i 0).val / 15000, _⟩ (0 : Fin 2) * 15000 + 15000
    omega
  | ⟨1, _⟩ =>
    show win2_3.index ⟨(i 0).val / 15000, _⟩ (1 : Fin 2) * 128 ≤ (i 1).val
      ∧ (i 1).val < win2_3.index ⟨(i 0).val / 15000, _⟩ (1 : Fin 2) * 128 + 128
    omega

/-- REGION 2, blocks to array: with a row-local payload, the output array after the region is the row function of
    the arrays as the region finds them, row by row. -/
theorem array2 (c : Dev nD) (R : (Fin 4 → EReal) → (Fin 128 → EReal) → (S4x128.Idx → EReal) → Fin 128 → EReal)
    (hR : ∀ (w : Vec Ideal S15000x4 .f32) (gt : Vec Ideal S4x128 .f32) (x : Vec Ideal S15000x128 .f32) (p : Fin 15000) (j : Fin 128),
      k2_pay1 (F := Ideal) w gt x (ix2 p j) = R (fun k => w (ix2 p k)) (fun j' => x (ix2 p j')) gt j) :
    (dat2 (F := Ideal) V c).arrAt 3 cfg2.N
      = edgeRows R (V c (Pipeline.arrRef spec2 0)) (V c (Pipeline.arrRef spec2 1)) (V c (Pipeline.arrRef spec2 2)) :=
  (dat2 (F := Ideal) V c).arrAt_eq_of_cover 3
    (edgeRows R (V c (Pipeline.arrRef spec2 0)) (V c (Pipeline.arrRef spec2 1)) (V c (Pipeline.arrRef spec2 2)))
    (fun t _ => written2 V c R hR t) covered2

/-! ## Region 1: a block of 15000 edges per point, two small matrices -/

/-- Region 1's index maps over the grid: the blocks of 15000 edges move down the rows with the point, the columns
    stay, and the two small matrices are read whole at every point. -/
theorem index_maps1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The array region 1 leaves, row by row: entry (r, f) is a function of row r of the two edge arrays and of the two
    whole small matrices. -/
abbrev routingRows (R : (Fin 128 → EReal) → (Fin 128 → EReal) → (S128x4.Idx → EReal) → (S4x128.Idx → EReal) → Fin 4 → EReal)
    (a0 a1 : S1200000x128.Idx → EReal) (a2 : S128x4.Idx → EReal) (a3 : S4x128.Idx → EReal) :
    S1200000x4.Idx → EReal :=
  fun i => R (fun j => a0 (ix2 (n0 := 1200000) (i 0) j)) (fun j => a1 (ix2 (n0 := 1200000) (i 0) j)) a2 a3 (i 1)

/-- One entry of one block: if the blocks' rows are rows 15000 t + p of the arrays and the small matrices are whole,
    a row-local payload at row p of the block is the row function at row 15000 t + p of the arrays. -/
theorem entry1 (R : (Fin 128 → EReal) → (Fin 128 → EReal) → (S128x4.Idx → EReal) → (S4x128.Idx → EReal) → Fin 4 → EReal)
    (hR : ∀ (g : Vec Ideal S128x4 .f32) (gt : Vec Ideal S4x128 .f32) (x y : Vec Ideal S15000x128 .f32) (p : Fin 15000) (f : Fin 4),
      k1_pay1 (F := Ideal) g gt x y (ix2 p f) = R (fun j => x (ix2 p j)) (fun j => y (ix2 p j)) g gt f)
    (a0 a1 : S1200000x128.Idx → EReal) (a2 : S128x4.Idx → EReal) (a3 : S4x128.Idx → EReal)
    (g : Vec Ideal S128x4 .f32) (gt : Vec Ideal S4x128 .f32) (x y : Vec Ideal S15000x128 .f32) (tv : Nat)
    (hx : ∀ (p : Fin 15000) (k : Fin 128) (i : S1200000x128.Idx), (i 0).val = 15000 * tv + p.val → (i 1).val = k.val → x (ix2 p k) = a0 i)
    (hy : ∀ (p : Fin 15000) (k : Fin 128) (i : S1200000x128.Idx), (i 0).val = 15000 * tv + p.val → (i 1).val = k.val → y (ix2 p k) = a1 i)
    (hg : g = a2) (hgt : gt = a3)
    (z : S15000x4.Idx) (i : S1200000x4.Idx) (hi0 : (i 0).val = 15000 * tv + (z 0).val) (hi1 : (i 1).val = (z 1).val) :
    k1_pay1 (F := Ideal) g gt x y z = routingRows R a0 a1 a2 a3 i := by
  obtain ⟨p, q, rfl⟩ : ∃ (p : Fin 15000) (q : Fin 4), z = ix2 p q := ⟨z 0, z 1, eq_ix2 z⟩
  rw [hR]
  have e1 : (i 1 : Fin 4) = q := Fin.ext hi1
  have ex : (fun k => x (ix2 p k)) = fun k => a0 (ix2 (n0 := 1200000) (i 0) k) :=
    funext fun k => hx p k _ hi0 rfl
  have ey : (fun k => y (ix2 p k)) = fun k => a1 (ix2 (n0 := 1200000) (i 0) k) :=
    funext fun k => hy p k _ hi0 rfl
  show R _ _ _ _ _ = R _ _ _ _ _
  rw [ex, ey, hg, hgt, e1]

/-- What point t writes back is block t of the row-by-row array over the arrays as the region finds them. -/
theorem written1 (c : Dev nD) (R : (Fin 128 → EReal) → (Fin 128 → EReal) → (S128x4.Idx → EReal) → (S4x128.Idx → EReal) → Fin 4 → EReal)
    (hR : ∀ (g : Vec Ideal S128x4 .f32) (gt : Vec Ideal S4x128 .f32) (x y : Vec Ideal S15000x128 .f32) (p : Fin 15000) (f : Fin 4),
      k1_pay1 (F := Ideal) g gt x y (ix2 p f) = R (fun j => x (ix2 p j)) (fun j => y (ix2 p j)) g gt f)
    (t : Fin cfg1.N) :
    (dat1 (F := Ideal) V c).flushed 4 t = ((cfg1.win 4).blk t).view.read (Elt Ideal)
      (routingRows R (V c (Pipeline.arrRef spec1 0)) (V c (Pipeline.arrRef spec1 1)) (V c (Pipeline.arrRef spec1 2))
        (V c (Pipeline.arrRef spec1 3))) := by
  show (cfg1.win 4).cut (cfg1.grid.coords t) ((dat1 (F := Ideal) V c).after 4 t) = _
  rw [after1_4]
  unfold out1_4
  rw [View.canon_unit_zero offsets_zero]
  simp only [View.ld_unit_zero (S := S128x4) offsets_zero, View.ld_unit_zero (S := S4x128) offsets_zero,
    View.ld_unit_zero (S := S15000x128) offsets_zero]
  obtain ⟨e00, e01, e10, e11, e20, e21, e30, e31, e40, e41⟩ := index_maps1 t
  funext z
  refine entry1 R hR (V c (Pipeline.arrRef spec1 0)) (V c (Pipeline.arrRef spec1 1)) (V c (Pipeline.arrRef spec1 2))
    (V c (Pipeline.arrRef spec1 3)) (iblk1 V c 2 t) (iblk1 V c 3 t) (iblk1 V c 0 t) (iblk1 V c 1 t) t.val ?_ ?_ ?_ ?_
    z (((cfg1.win 4).blk t).view.emb z) ?_ ?_
  · intro p k i h0 h1
    show V c (Pipeline.arrRef spec1 0) (((cfg1.win 0).blk t).view.emb (ix2 p k)) = V c (Pipeline.arrRef spec1 0) i
    congr 1
    funext a
    apply Fin.ext
    match a with
    | ⟨0, _⟩ => show win1_0.index t (0 : Fin 2) * 15000 + 1 * p.val = (i 0).val; omega
    | ⟨1, _⟩ => show win1_0.index t (1 : Fin 2) * 128 + 1 * k.val = (i 1).val; omega
  · intro p k i h0 h1
    show V c (Pipeline.arrRef spec1 1) (((cfg1.win 1).blk t).view.emb (ix2 p k)) = V c (Pipeline.arrRef spec1 1) i
    congr 1
    funext a
    apply Fin.ext
    match a with
    | ⟨0, _⟩ => show win1_1.index t (0 : Fin 2) * 15000 + 1 * p.val = (i 0).val; omega
    | ⟨1, _⟩ => show win1_1.index t (1 : Fin 2) * 128 + 1 * k.val = (i 1).val; omega
  · funext u
    show V c (Pipeline.arrRef spec1 2) (((cfg1.win 2).blk t).view.emb u) = V c (Pipeline.arrRef spec1 2) u
    congr 1
    funext a
    apply Fin.ext
    match a with
    | ⟨0, _⟩ => show win1_2.index t (0 : Fin 2) * 128 + 1 * (u 0).val = (u 0).val; omega
    | ⟨1, _⟩ => show win1_2.index t (1 : Fin 2) * 4 + 1 * (u 1).val = (u 1).val; omega
  · funext u
    show V c (Pipeline.arrRef spec1 3) (((cfg1.win 3).blk t).view.emb u) = V c (Pipeline.arrRef spec1 3) u
    congr 1
    funext a
    apply Fin.ext
    match a with
    | ⟨0, _⟩ => show win1_3.index t (0 : Fin 2) * 4 + 1 * (u 0).val = (u 0).val; omega
    | ⟨1, _⟩ => show win1_3.index t (1 : Fin 2) * 128 + 1 * (u 1).val = (u 1).val; omega
  · show win1_4.index t (0 : Fin 2) * 15000 + 1 * (z 0).val = 15000 * t.val + (z 0).val; omega
  · show win1_4.index t (1 : Fin 2) * 4 + 1 * (z 1).val = (z 1).val; omega

/-- An index of the output array is in point t's block iff each coordinate is in the block's range on its axis. -/
theorem mem_block1 (t : Fin cfg1.N) (i : S1200000x4.Idx) :
    i ∈ ((cfg1.win 4).blk t).view.set ↔ ∀ a : Fin 2, win1_4.index t a * S15000x4.size a ≤ (i a).val
      ∧ (i a).val < win1_4.index t a * S15000x4.size a + S15000x4.size a := by
  show i ∈ ((View.whole main_v61).slice (win1_4.rect t)).set ↔ _
  rw [View.set_slice_whole, Rect.mem_set_unit]
  exact Iff.rfl

/-- Every row r of the output array lies in the block of point r / 15000, which is written back. -/
theorem covered1 (i : S1200000x4.Idx) :
    ∃ t : Fin cfg1.N, (cfg1.win 4).flush t = true ∧ i ∈ ((cfg1.win 4).blk t).view.set := by
  have hi0 : (i 0).val < 1200000 := (i 0).isLt
  have hi1 : (i 1).val < 4 := (i 1).isLt
  have hN : cfg1.N = 80 := N_1
  have hlt : (i 0).val / 15000 < cfg1.N := by rw [hN]; omega
  refine ⟨⟨(i 0).val / 15000, hlt⟩, flush1_4 _, ?_⟩
  rw [mem_block1]
  obtain ⟨-, -, -, -, -, -, -, -, e40, e41⟩ := index_maps1 ⟨(i 0).val / 15000, hlt⟩
  have e40' : win1_4.index ⟨(i 0).val / 15000, hlt⟩ (0 : Fin 2) = (i 0).val / 15000 := e40
  intro a
  match a with
  | ⟨0, _⟩ =>
    show win1_4.index ⟨(i 0).val / 15000, _⟩ (0 : Fin 2) * 15000 ≤ (i 0).val
      ∧ (i 0).val < win1_4.index ⟨(i 0).val / 15000, _⟩ (0 : Fin 2) * 15000 + 15000
    omega
  | ⟨1, _⟩ =>
    show win1_4.index ⟨(i 0).val / 15000, _⟩ (1 : Fin 2) * 4 ≤ (i 1).val
      ∧ (i 1).val < win1_4.index ⟨(i 0).val / 15000, _⟩ (1 : Fin 2) * 4 + 4
    omega

/-- REGION 1, blocks to array: with a row-local payload, the output array after the region is the row function of
    the arrays as the region finds them, row by row. -/
theorem array1 (c : Dev nD) (R : (Fin 128 → EReal) → (Fin 128 → EReal) → (S128x4.Idx → EReal) → (S4x128.Idx → EReal) → Fin 4 → EReal)
    (hR : ∀ (g : Vec Ideal S128x4 .f32) (gt : Vec Ideal S4x128 .f32) (x y : Vec Ideal S15000x128 .f32) (p : Fin 15000) (f : Fin 4),
      k1_pay1 (F := Ideal) g gt x y (ix2 p f) = R (fun j => x (ix2 p j)) (fun j => y (ix2 p j)) g gt f) :
    (dat1 (F := Ideal) V c).arrAt 4 cfg1.N
      = routingRows R (V c (Pipeline.arrRef spec1 0)) (V c (Pipeline.arrRef spec1 1)) (V c (Pipeline.arrRef spec1 2))
          (V c (Pipeline.arrRef spec1 3)) :=
  (dat1 (F := Ideal) V c).arrAt_eq_of_cover 4
    (routingRows R (V c (Pipeline.arrRef spec1 0)) (V c (Pipeline.arrRef spec1 1)) (V c (Pipeline.arrRef spec1 2))
      (V c (Pipeline.arrRef spec1 3)))
    (fun t _ => written1 V c R hR t) covered1

end Cert.KernelIdeal.RegionArrays

end
-- ==== Proof.LibPlainDot.lean ====
/-
  A plain matrix product read at an entry, at the ideal instance.

  For dimension numbers that contract the left operand's columns with the right operand's rows and have no batch
  axis (`DotDims.plain m k n`), both the kernel's product into a zero accumulator and the host's `dot_general` are,
  at entry `(p, j)`, the sum over `q < k` of `l (p, q) · r (q, j)` on the extended reals.  Stated for any record
  equal to the plain one, so that each printed record (a `def` of its own) can be cited by `rfl`.
-/
import Idealize.ShloMosaic.Lib.ValueIdx
import Idealize.ShloMosaic.PureOps.Ideal.Laws

noncomputable section

namespace Cert.PlainDot

open Idealize.ShloMosaic Idealize.ShloMosaic.ValueIdx

variable {m k n : Nat} {φ₁ φ₂ : FTy}

/-- The sum over the one contraction axis of a plain product, re-indexed by `Fin k`, with the operand indices at an
    output entry `(p, j)` written by coordinates. -/
theorem sum_plain (l : (⟨2, ![m, k]⟩ : Shape).Idx → EReal) (r : (⟨2, ![k, n]⟩ : Shape).Idx → EReal) (p : Fin m) (j : Fin n) :
    (∑ q : (DotDims.plain m k n).contr.Idx, l ((DotDims.plain m k n).lhsIdx (ix2 p j) q) * r ((DotDims.plain m k n).rhsIdx (ix2 p j) q))
      = ∑ q : Fin k, l (ix2 p q) * r (ix2 q j) := by
  rw [← Equiv.sum_comp (contrEquiv1 (DotDims.plain m k n) k rfl rfl).symm]
  refine Finset.sum_congr rfl fun q _ => ?_
  have hq := contrEquiv1_symm_val (DotDims.plain m k n) k rfl rfl q
  have el : (DotDims.plain m k n).lhsIdx (ix2 p j) ((contrEquiv1 (DotDims.plain m k n) k rfl rfl).symm q) = ix2 p q :=
    funext fun a => Fin.ext (by
      match a with
      | ⟨0, _⟩ => rfl
      | ⟨1, _⟩ => exact ((DotDims.plain m k n).lhsIdx_val_of_single rfl _ _).trans hq)
  have er : (DotDims.plain m k n).rhsIdx (ix2 p j) ((contrEquiv1 (DotDims.plain m k n) k rfl rfl).symm q) = ix2 q j :=
    funext fun a => Fin.ext (by
      match a with
      | ⟨0, _⟩ => exact ((DotDims.plain m k n).rhsIdx_val_of_single rfl _ _).trans hq
      | ⟨1, _⟩ => rfl)
  rw [el, er]

/-- The kernel's product into the zero splat, at entry `(p, j)`. -/
theorem matmul_zero_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    matmul D prec l r (constant (F := Ideal) ⟨2, ![m, n]⟩ .f32 0x00000000#32) (ix2 p j) = ∑ q : Fin k, l (ix2 p q) * r (ix2 q j) := by
  subst hD
  simp only [matmul]
  rw [Ideal.matmul_constant_zero_apply]
  exact sum_plain l r p j

/-- The host's `dot_general`, at entry `(p, j)`. -/
theorem dotGeneral_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    Host.dotGeneral D prec l r (ix2 p j) = ∑ q : Fin k, l (ix2 p q) * r (ix2 q j) := by
  subst hD
  simp only [Host.dotGeneral]
  rw [Ideal.dotGeneral_apply]
  exact sum_plain l r p j

end Cert.PlainDot

end
-- ==== Proof.BodyEntries.lean ====
/-
  The three kernel bodies read at one entry, at the ideal instance.

  Each body is a pure term over whole-array operands.  The edge-value body is `x ⊙ (w · gt)` with `w` of four
  columns and `gt` the 4 × 128 matrix that repeats a factor's weight over the factor's 32 lanes; the routing-score
  body normalises the rows of `x` and `y` factor by factor (a sum of squares through `g`, a square root, a floor,
  a reciprocal spread back over the lanes through `gt`), multiplies the one by the hyperbolic tangent of the other
  and sums each factor's lanes through `g`.  Read at an entry, every matrix product is a finite sum over its
  contraction index on the extended reals; when `g` and `gt` are the 0/1 grouping matrices those sums collapse to
  one term, or to the sum over one factor's 32 lanes.
-/
import proofs.«168221_j52458730553670_2_alg».proof.Proof.Gen.KernelIdeal.Skeleton
import proofs.«168221_j52458730553670_2_alg».proof.Proof.LibPlainDot
import Idealize.ShloMosaic.Lib.ValueIdx
import Idealize.ShloMosaic.Lib.Pipeline.Value
import Idealize.ShloMosaic.PureOps.Ideal.Laws

noncomputable section

namespace Cert.KernelIdeal.BodyEntries

open Idealize.ShloMosaic Idealize.ShloMosaic.ValueIdx Cert.KernelIdeal Cert.KernelIdeal.Gen
open scoped BigOperators

/-! ## The edge-value bodies, with a generic spreading matrix -/

/-- The first edge-value body at entry `(p, c)`: the entry of `x` times row `p` of `w` against column `c` of `gt`. -/
theorem k0_entry (w : Vec Ideal S15000x4 .f32) (gt : Vec Ideal S4x128 .f32) (x : Vec Ideal S15000x128 .f32)
    (p : Fin 15000) (c : Fin 128) :
    k0_pay1 (F := Ideal) w gt x (ix2 p c) = x (ix2 p c) * ∑ k : Fin 4, w (ix2 p k) * gt (ix2 k c) := by
  unfold k0_pay1
  rw [shapeCast_self, shapeCast_self, mulf_apply]
  exact congrArg (x (ix2 p c) * ·) (Cert.PlainDot.matmul_zero_ix2 _ rfl _ w gt p c)

/-- The second edge-value body at entry `(p, c)`: the same term. -/
theorem k2_entry (w : Vec Ideal S15000x4 .f32) (gt : Vec Ideal S4x128 .f32) (x : Vec Ideal S15000x128 .f32)
    (p : Fin 15000) (c : Fin 128) :
    k2_pay1 (F := Ideal) w gt x (ix2 p c) = x (ix2 p c) * ∑ k : Fin 4, w (ix2 p k) * gt (ix2 k c) := by
  unfold k2_pay1
  rw [shapeCast_self, shapeCast_self, mulf_apply]
  exact congrArg (x (ix2 p c) * ·) (Cert.PlainDot.matmul_zero_ix2 _ rfl _ w gt p c)

/-! ## One product with the spreading matrix, and one reciprocal factor norm, at an entry -/

/-- An array times the product of a four-column array with `gt`, at entry `(p, c)`: the common shape of the two
    edge-value bodies and of each normalised operand of the routing score. -/
theorem spread_entry (z : FVec Ideal S15000x128 .f32) (s : FVec Ideal S15000x4 .f32) (gt : FVec Ideal S4x128 .f32)
    (p : Fin 15000) (c : Fin 128) :
    mulf z (matmul dot_S15000x4_S4x128_S15000x128_1_0_0_1_n_n (some .fp32) s gt
        (constant (F := Ideal) S15000x128 .f32 0x00000000#32)) (ix2 p c)
      = z (ix2 p c) * ∑ k : Fin 4, s (ix2 p k) * gt (ix2 k c) := by
  rw [mulf_apply]
  exact congrArg (z (ix2 p c) * ·) (Cert.PlainDot.matmul_zero_ix2 _ rfl _ s gt p c)

/-- The reciprocal, floored, of the square root of a row's squares summed against column `k` of a matrix `g`:
    `1 / max (√(∑ c, zr c · zr c · g (c, k))) 1e-12`, the literals kept as their words. -/
def rowInvAgainst (zr : Fin 128 → EReal) (g : FVec Ideal S128x4 .f32) (k : Fin 4) : EReal :=
  Ideal.div (Ideal.ofBits .f32 0x3F800000#32)
    (max (Ideal.sqrt (∑ c : Fin 128, (zr c * zr c) * g (ix2 c k))) (Ideal.ofBits .f32 0x2B8CBCCC#32))

/-- The routing score's reciprocal-norm array at entry `(p, k)`. -/
theorem invnorm_entry (z : FVec Ideal S15000x128 .f32) (g : FVec Ideal S128x4 .f32) (p : Fin 15000) (k : Fin 4) :
    divf (broadcast S15000x4 (Scalar.ofBits (F := Ideal) .f32 0x3F800000#32))
        (maximumf (sqrt (matmul dot_S15000x128_S128x4_S15000x4_1_0_0_1_n_n (some .fp32) (mulf z z) g
            (constant (F := Ideal) S15000x4 .f32 0x00000000#32)))
          (broadcast S15000x4 (Scalar.ofBits (F := Ideal) .f32 0x2B8CBCCC#32))) (ix2 p k)
      = rowInvAgainst (fun j => z (ix2 p j)) g k := by
  rw [divf_apply, maximumf_apply, broadcast_apply, broadcast_apply]
  unfold rowInvAgainst
  refine congrArg (fun t => Ideal.div (Ideal.ofBits .f32 0x3F800000#32) (max (Ideal.sqrt t) (Ideal.ofBits .f32 0x2B8CBCCC#32))) ?_
  exact Cert.PlainDot.matmul_zero_ix2 _ rfl _ (mulf z z) g p k

/-! ## The bodies in row form, with generic matrices -/

/-- The edge value of a row: entry `c` of the row `xr` times the row `wr` against column `c` of `gt`. -/
def R0 (wr : Fin 4 → EReal) (xr : Fin 128 → EReal) (gt : FVec Ideal S4x128 .f32) (c : Fin 128) : EReal :=
  xr c * ∑ k : Fin 4, wr k * gt (ix2 k c)

/-- The routing score of a pair of rows for factor `f`: each row scaled lane by lane by its reciprocal norms spread
    through `gt`, the first times the hyperbolic tangent of the second, summed against column `f` of `g`. -/
def R1 (xr yr : Fin 128 → EReal) (g : FVec Ideal S128x4 .f32) (gt : FVec Ideal S4x128 .f32) (f : Fin 4) : EReal :=
  ∑ c : Fin 128,
    ((xr c * ∑ k : Fin 4, rowInvAgainst xr g k * gt (ix2 k c))
      * Ideal.tanh (yr c * ∑ k : Fin 4, rowInvAgainst yr g k * gt (ix2 k c))) * g (ix2 c f)

/-- The first edge-value body at entry `(p, c)` depends on row `p` of `w` and of `x` only. -/
theorem k0_row (w : Vec Ideal S15000x4 .f32) (gt : Vec Ideal S4x128 .f32) (x : Vec Ideal S15000x128 .f32)
    (p : Fin 15000) (c : Fin 128) :
    k0_pay1 (F := Ideal) w gt x (ix2 p c) = R0 (fun k => w (ix2 p k)) (fun j => x (ix2 p j)) gt c :=
  k0_entry w gt x p c

/-- The second edge-value body at entry `(p, c)` depends on row `p` of `w` and of `x` only. -/
theorem k2_row (w : Vec Ideal S15000x4 .f32) (gt : Vec Ideal S4x128 .f32) (x : Vec Ideal S15000x128 .f32)
    (p : Fin 15000) (c : Fin 128) :
    k2_pay1 (F := Ideal) w gt x (ix2 p c) = R0 (fun k => w (ix2 p k)) (fun j => x (ix2 p j)) gt c :=
  k2_entry w gt x p c

/-- The routing-score body at entry `(p, f)` depends on row `p` of `x` and of `y` only: every matrix product a sum
    over its contraction index. -/
theorem k1_row (g : Vec Ideal S128x4 .f32) (gt : Vec Ideal S4x128 .f32) (x y : Vec Ideal S15000x128 .f32)
    (p : Fin 15000) (f : Fin 4) :
    k1_pay1 (F := Ideal) g gt x y (ix2 p f) = R1 (fun j => x (ix2 p j)) (fun j => y (ix2 p j)) g gt f := by
  unfold k1_pay1
  rw [shapeCast_self, shapeCast_self]
  refine (Cert.PlainDot.matmul_zero_ix2 _ rfl _ _ g p f).trans ?_
  unfold R1
  refine Finset.sum_congr rfl fun c _ => congrArg (· * g (ix2 c f)) ?_
  refine (mulf_apply _ _ _).trans ?_
  refine congrArg₂ (· * ·) ((spread_entry x _ gt p c).trans ?_) (congrArg Ideal.tanh ((spread_entry y _ gt p c).trans ?_))
  · exact congrArg (x (ix2 p c) * ·)
      (Finset.sum_congr rfl fun k _ => congrArg (· * gt (ix2 k c)) (invnorm_entry x g p k))
  · exact congrArg (y (ix2 p c) * ·)
      (Finset.sum_congr rfl fun k _ => congrArg (· * gt (ix2 k c)) (invnorm_entry y g p k))

/-! ## The grouping sums on the extended reals

Column `c` of the 128 belongs to factor `c / 32`; factor `f` owns the 32 lanes `32 f + q`.  Against the 0/1
indicator of "column `c` belongs to factor `k`" a sum over the four factors keeps one term, and a sum over the 128
columns keeps one factor's 32 lanes.  Only `a · 0 = 0`, `a · 1 = a` and `a + 0 = a` are used, which hold on the
extended reals. -/

/-- The factor a column belongs to. -/
def factorOf (c : Fin 128) : Fin 4 := ⟨c.val / 32, by have := c.isLt; omega⟩

/-- Lane `q` of factor `f`: column `32 f + q`. -/
def lane (f : Fin 4) (q : Fin 32) : Fin 128 := ⟨32 * f.val + q.val, by have := f.isLt; have := q.isLt; omega⟩

@[simp] theorem factorOf_val (c : Fin 128) : (factorOf c).val = c.val / 32 := rfl
@[simp] theorem lane_val (f : Fin 4) (q : Fin 32) : (lane f q).val = 32 * f.val + q.val := rfl

/-- A factor's lanes belong to it. -/
theorem factorOf_lane (f : Fin 4) (q : Fin 32) : factorOf (lane f q) = f :=
  Fin.ext (by have := q.isLt; show (32 * f.val + q.val) / 32 = f.val; omega)

/-- Summed over the four factors against the indicator of a column's factor, only that factor's term is left. -/
theorem sum_factor_indicator (a : Fin 4 → EReal) (c : Fin 128) :
    ∑ k : Fin 4, a k * (if c.val / 32 = k.val then (1 : EReal) else 0) = a (factorOf c) := by
  rw [Finset.sum_eq_single (factorOf c)]
  · rw [if_pos (factorOf_val c).symm, mul_one]
  · intro k _ hk
    rw [if_neg (fun h => hk (Fin.ext h.symm)), mul_zero]
  · intro h; exact absurd (Finset.mem_univ _) h

/-- Summed over the 128 columns against the indicator of one factor, that factor's 32 lanes are left. -/
theorem sum_lane_indicator (b : Fin 128 → EReal) (f : Fin 4) :
    ∑ c : Fin 128, b c * (if c.val / 32 = f.val then (1 : EReal) else 0) = ∑ q : Fin 32, b (lane f q) := by
  have h1 : ∀ c : Fin 128, b c * (if c.val / 32 = f.val then (1 : EReal) else 0)
      = if c.val / 32 = f.val then b c else 0 := by
    intro c
    by_cases h : c.val / 32 = f.val
    · rw [if_pos h, if_pos h, mul_one]
    · rw [if_neg h, if_neg h, mul_zero]
  rw [Finset.sum_congr rfl fun c _ => h1 c, ← Finset.sum_filter]
  symm
  refine Finset.sum_bij (fun q _ => lane f q) ?_ ?_ ?_ ?_
  · intro q _
    rw [Finset.mem_filter]
    exact ⟨Finset.mem_univ _, congrArg Fin.val (factorOf_lane f q)⟩
  · intro q1 _ q2 _ h
    have := congrArg Fin.val h
    simp only [lane_val] at this
    exact Fin.ext (by omega)
  · intro c hc
    rw [Finset.mem_filter] at hc
    refine ⟨⟨c.val % 32, Nat.mod_lt _ (by decide)⟩, Finset.mem_univ _, Fin.ext ?_⟩
    have := hc.2
    show 32 * f.val + c.val % 32 = c.val
    omega
  · intro q _; rfl

/-! ## The bodies when `g` and `gt` are the grouping matrices -/

/-- The reciprocal of a row's factor norm floored at `1e-12`: `1 / max (√(∑ q, zr (lane f q)²)) 1e-12`. -/
def rowInvNorm (zr : Fin 128 → EReal) (f : Fin 4) : EReal :=
  Ideal.div (Ideal.ofBits .f32 0x3F800000#32)
    (max (Ideal.sqrt (∑ q : Fin 32, zr (lane f q) * zr (lane f q))) (Ideal.ofBits .f32 0x2B8CBCCC#32))

/-- The same for row `p` of an array. -/
def invNorm (z : Vec Ideal S15000x128 .f32) (p : Fin 15000) (f : Fin 4) : EReal :=
  Ideal.div (Ideal.ofBits .f32 0x3F800000#32)
    (max (Ideal.sqrt (∑ q : Fin 32, z (ix2 p (lane f q)) * z (ix2 p (lane f q)))) (Ideal.ofBits .f32 0x2B8CBCCC#32))

theorem invNorm_eq_row (z : Vec Ideal S15000x128 .f32) (p : Fin 15000) (f : Fin 4) :
    invNorm z p f = rowInvNorm (fun j => z (ix2 p j)) f := rfl

/-- Against the grouping matrix `g` the reciprocal norm is the factor's own. -/
theorem rowInvAgainst_grouped (zr : Fin 128 → EReal) (g : FVec Ideal S128x4 .f32)
    (hg : ∀ (c : Fin 128) (k : Fin 4), g (ix2 c k) = if c.val / 32 = k.val then 1 else 0) (k : Fin 4) :
    rowInvAgainst zr g k = rowInvNorm zr k := by
  unfold rowInvAgainst rowInvNorm
  refine congrArg (fun t => Ideal.div (Ideal.ofBits .f32 0x3F800000#32) (max (Ideal.sqrt t) (Ideal.ofBits .f32 0x2B8CBCCC#32))) ?_
  rw [Finset.sum_congr rfl fun c _ => congrArg ((zr c * zr c) * ·) (hg c k)]
  exact sum_lane_indicator (fun c => zr c * zr c) k

/-- The edge value of a row when `gt` is the grouping matrix: the entry times its factor's weight. -/
theorem R0_grouped (wr : Fin 4 → EReal) (xr : Fin 128 → EReal) (gt : FVec Ideal S4x128 .f32)
    (hgt : ∀ (k : Fin 4) (c : Fin 128), gt (ix2 k c) = if c.val / 32 = k.val then 1 else 0) (c : Fin 128) :
    R0 wr xr gt c = xr c * wr (factorOf c) := by
  unfold R0
  rw [Finset.sum_congr rfl fun k _ => congrArg (wr k * ·) (hgt k c)]
  exact congrArg (xr c * ·) (sum_factor_indicator wr c)

/-- The routing score of a pair of rows when `g` and `gt` are the grouping matrices: over the factor's 32 lanes, the
    normalised lane of the first row times the hyperbolic tangent of the normalised lane of the second. -/
theorem R1_grouped (xr yr : Fin 128 → EReal) (g : FVec Ideal S128x4 .f32) (gt : FVec Ideal S4x128 .f32)
    (hg : ∀ (c : Fin 128) (k : Fin 4), g (ix2 c k) = if c.val / 32 = k.val then 1 else 0)
    (hgt : ∀ (k : Fin 4) (c : Fin 128), gt (ix2 k c) = if c.val / 32 = k.val then 1 else 0) (f : Fin 4) :
    R1 xr yr g gt f
      = ∑ q : Fin 32, (xr (lane f q) * rowInvNorm xr f) * Ideal.tanh (yr (lane f q) * rowInvNorm yr f) := by
  have spread : ∀ (zr : Fin 128 → EReal) (c : Fin 128),
      ∑ k : Fin 4, rowInvAgainst zr g k * gt (ix2 k c) = rowInvNorm zr (factorOf c) := by
    intro zr c
    rw [Finset.sum_congr rfl fun k _ => congrArg₂ (· * ·) (rowInvAgainst_grouped zr g hg k) (hgt k c)]
    exact sum_factor_indicator (fun k => rowInvNorm zr k) c
  unfold R1
  rw [Finset.sum_congr rfl fun c _ => congrArg₂ (· * ·)
    (congrArg₂ (· * ·) (congrArg (xr c * ·) (spread xr c)) (congrArg Ideal.tanh (congrArg (yr c * ·) (spread yr c)))) (hg c f)]
  refine (sum_lane_indicator (fun c => (xr c * rowInvNorm xr (factorOf c)) * Ideal.tanh (yr c * rowInvNorm yr (factorOf c))) f).trans ?_
  refine Finset.sum_congr rfl fun q _ => ?_
  show (xr (lane f q) * rowInvNorm xr (factorOf (lane f q))) * Ideal.tanh (yr (lane f q) * rowInvNorm yr (factorOf (lane f q))) = _
  rw [factorOf_lane]

/-- The first edge-value body at entry `(p, c)` when `gt` is the grouping matrix. -/
theorem k0_grouped (w : Vec Ideal S15000x4 .f32) (gt : Vec Ideal S4x128 .f32) (x : Vec Ideal S15000x128 .f32)
    (hgt : ∀ (k : Fin 4) (c : Fin 128), gt (ix2 k c) = if c.val / 32 = k.val then 1 else 0)
    (p : Fin 15000) (c : Fin 128) :
    k0_pay1 (F := Ideal) w gt x (ix2 p c) = x (ix2 p c) * w (ix2 p (factorOf c)) :=
  (k0_row w gt x p c).trans (R0_grouped _ _ gt hgt c)

/-- The second edge-value body at entry `(p, c)` when `gt` is the grouping matrix. -/
theorem k2_grouped (w : Vec Ideal S15000x4 .f32) (gt : Vec Ideal S4x128 .f32) (x : Vec Ideal S15000x128 .f32)
    (hgt : ∀ (k : Fin 4) (c : Fin 128), gt (ix2 k c) = if c.val / 32 = k.val then 1 else 0)
    (p : Fin 15000) (c : Fin 128) :
    k2_pay1 (F := Ideal) w gt x (ix2 p c) = x (ix2 p c) * w (ix2 p (factorOf c)) :=
  (k2_row w gt x p c).trans (R0_grouped _ _ gt hgt c)

/-- The routing-score body at entry `(p, f)` when `g` and `gt` are the grouping matrices. -/
theorem k1_grouped (g : Vec Ideal S128x4 .f32) (gt : Vec Ideal S4x128 .f32) (x y : Vec Ideal S15000x128 .f32)
    (hg : ∀ (c : Fin 128) (k : Fin 4), g (ix2 c k) = if c.val / 32 = k.val then 1 else 0)
    (hgt : ∀ (k : Fin 4) (c : Fin 128), gt (ix2 k c) = if c.val / 32 = k.val then 1 else 0)
    (p : Fin 15000) (f : Fin 4) :
    k1_pay1 (F := Ideal) g gt x y (ix2 p f)
      = ∑ q : Fin 32, (x (ix2 p (lane f q)) * invNorm x p f) * Ideal.tanh (y (ix2 p (lane f q)) * invNorm y p f) :=
  (k1_row g gt x y p f).trans (R1_grouped _ _ g gt hg hgt f)

end Cert.KernelIdeal.BodyEntries

end
-- ==== Proof.Grouping.lean ====
/-
  The two constant matrices that group the 128 embedding columns into 4 factors of 32 consecutive columns.

  `g : [128, 4]` has a one at `(c, k)` exactly when column `c` lies in factor `k`, that is `c / 32 = k`, and zeros
  elsewhere; `gt : [4, 128]` is its transpose.  A product with `g` sums each factor's 32 columns; a product with `gt`
  repeats a per-factor number over the factor's 32 columns.
-/
import proofs.«168221_j52458730553670_2_alg».proof.KernelIdeal
import Idealize.ShloMosaic.PureOps.Ideal.Laws
import Idealize.ShloMosaic.Lib.IdealHost
import Idealize.ShloMosaic.Lib.ValueIdx

set_option maxRecDepth 16384

noncomputable section

namespace Cert.KernelIdeal.Grouping

open Idealize.ShloMosaic Idealize.ShloMosaic.ValueIdx Cert.KernelIdeal

/-- Entry `4 c + k` of the row-major table of `g` is the pattern of one when `c / 32 = k`, of zero otherwise. -/
theorem lit0_eq : ∀ i : Fin 512, lit0 i = if (i.val / 4) / 32 = i.val % 4 then 0x3F800000#32 else 0x00000000#32 := by
  decide +kernel

/-- Entry `128 k + c` of the row-major table of `gt` is the pattern of one when `c / 32 = k`, of zero otherwise. -/
theorem lit1_eq : ∀ i : Fin 512, lit1 i = if (i.val % 128) / 32 = i.val / 128 then 0x3F800000#32 else 0x00000000#32 := by
  decide +kernel

/-- `g` at `(c, k)`: one when column `c` lies in factor `k`, zero otherwise. -/
theorem g_apply (c : Fin 128) (k : Fin 4) :
    (fun i : S128x4.Idx => FloatOps.ofBits (F := Ideal) .f32 (lit0 (S128x4.rowMajor i))) (ix2 c k)
      = if c.val / 32 = k.val then (1 : EReal) else 0 := by
  have hv : (S128x4.rowMajor (ix2 c k)).val = c.val * 4 + k.val := Shape.rowMajor_val_two (ix2 c k)
  have key : ∀ i : Fin 512, i.val = c.val * 4 + k.val →
      Ideal.ofBits .f32 (lit0 i) = if c.val / 32 = k.val then (1 : EReal) else 0 := by
    intro i hi
    rw [lit0_eq i]
    have h1 : i.val / 4 = c.val := by omega
    have h2 : i.val % 4 = k.val := by omega
    rw [h1, h2]
    split
    · exact Ideal.ofBits_one_f32
    · exact Ideal.ofBits_zero_f32
  exact key (S128x4.rowMajor (ix2 c k)) hv

/-- `gt` at `(k, c)`: one when column `c` lies in factor `k`, zero otherwise. -/
theorem gt_apply (k : Fin 4) (c : Fin 128) :
    (fun i : S4x128.Idx => FloatOps.ofBits (F := Ideal) .f32 (lit1 (S4x128.rowMajor i))) (ix2 k c)
      = if c.val / 32 = k.val then (1 : EReal) else 0 := by
  have hv : (S4x128.rowMajor (ix2 k c)).val = k.val * 128 + c.val := Shape.rowMajor_val_two (ix2 k c)
  have key : ∀ i : Fin 512, i.val = k.val * 128 + c.val →
      Ideal.ofBits .f32 (lit1 i) = if c.val / 32 = k.val then (1 : EReal) else 0 := by
    intro i hi
    rw [lit1_eq i]
    have h1 : i.val % 128 = c.val := by omega
    have h2 : i.val / 128 = k.val := by omega
    rw [h1, h2]
    split
    · exact Ideal.ofBits_one_f32
    · exact Ideal.ofBits_zero_f32
  exact key (S4x128.rowMajor (ix2 k c)) hv

/-- The floor `1e-12` of a factor's norm is positive. -/
theorem eps_pos : (0 : EReal) < Ideal.ofBits .f32 0x2B8CBCCC#32 := by
  have h : Ideal.ofBits .f32 0x2B8CBCCC#32 = (((9223372 : ℝ) * (2 : ℝ) ^ (-63 : Int) : ℝ) : EReal) := by
    simp [Ideal.ofBits, Ideal.ieee, -EReal.coe_mul]
  rw [h]
  exact EReal.coe_pos.mpr (by positivity)

end Cert.KernelIdeal.Grouping

end
-- ==== Proof.KernelForms.lean ====
/-
  What the kernel's two kinds of region compute, as whole-array functions of the arrays they read.

  An edge's value: row `e` of the gathered tail embeddings, each column `c` weighted by the edge's weight for the factor
  that column lies in.  An edge's routing score for factor `f`: over the factor's 32 columns, the sum of the products
  of the normalised head entry and the hyperbolic tangent of the normalised tail entry, each row normalised factor by
  factor by the reciprocal of its factor norm floored at 1e-12.
-/
import proofs.«168221_j52458730553670_2_alg».proof.Proof.BodyEntries

noncomputable section

namespace Cert.KernelIdeal.Forms

open Idealize.ShloMosaic Idealize.ShloMosaic.ValueIdx Cert.KernelIdeal Cert.KernelIdeal.BodyEntries

/-- The edge values: entry `(e, c)` is the tail embedding's entry times the edge's weight for column `c`'s factor. -/
def edgeValue (w : FVec Ideal S1200000x4 .f32) (x : FVec Ideal S1200000x128 .f32) : FVec Ideal S1200000x128 .f32 :=
  fun i => x (ix2 (i 0) (i 1)) * w (ix2 (i 0) (factorOf (i 1)))

/-- The routing scores: entry `(e, f)` sums, over factor `f`'s 32 columns, the normalised head entry times the
    hyperbolic tangent of the normalised tail entry. -/
def routeScore (y x : FVec Ideal S1200000x128 .f32) : FVec Ideal S1200000x4 .f32 :=
  fun i => ∑ q : Fin 32, (y (ix2 (i 0) (lane (i 1) q)) * rowInvNorm (fun j => y (ix2 (i 0) j)) (i 1))
    * Ideal.tanh (x (ix2 (i 0) (lane (i 1) q)) * rowInvNorm (fun j => x (ix2 (i 0) j)) (i 1))

end Cert.KernelIdeal.Forms

end
-- ==== Proof.Boundaries.lean ====
/-
  The contents of the kernel's buffers at the boundaries between its stretches of host operations and its regions.

  A buffer that a stretch does not write keeps its contents through it, and a region changes only its own arrays; so
  the edge lists, the node embeddings, the gathered tail embeddings, the all-ones routing scores and the two grouping
  matrices, all computed by the first stretch, are still what that stretch left when a later stretch or region reads
  them.
-/
import proofs.«168221_j52458730553670_2_alg».proof.Proof.Gen.KernelIdeal.Frame
import Idealize.ShloMosaic.Lib.StableHlo.Run
import Idealize.ShloMosaic.PureOps.Ideal
set_option maxRecDepth 16384

noncomputable section

namespace Cert.KernelIdeal.Boundaries

open Idealize.ShloMosaic Idealize.ShloMosaic.TcCoe Idealize.ShloMosaic.Tactic Idealize.SL.Sem
open Cert.KernelIdeal Cert.KernelIdeal.Gen

variable {F : FTy → Type} [FloatOps F]
variable (m : (ℓ : Loc nD τ sig) → Buf (Elt F) ℓ) (ρ : Dev nD → PrngReg) (c : Dev nD)

/-- A stretch of host operations leaves a buffer none of them writes as it found it. -/
macro "host_keeps " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

theorem W2_main_v2 : W2 m ρ c (Proc.devRef .tc main_v2) = W1 m ρ c (Proc.devRef .tc main_v2) :=
  calc W2 m ρ c (Proc.devRef .tc main_v2)
    _ = W1 m ρ c (Proc.devRef .tc main_v2) := W2_of_ne m ρ c main_v2 (by decide)

theorem W3_main_v13 : W3 m ρ c (Proc.devRef .tc main_v13) = W1 m ρ c (Proc.devRef .tc main_v13) :=
  calc W3 m ρ c (Proc.devRef .tc main_v13)
    _ = W2 m ρ c (Proc.devRef .tc main_v13) := by host_keeps hostOps1
    _ = W1 m ρ c (Proc.devRef .tc main_v13) :=
        (W2_arr m ρ c 1).trans (((dat0 (V1 m ρ) c).arrAt_in 1 (by decide) _).trans (A_eq0 (V1 m ρ) c 1))

theorem W3_main_cst : W3 m ρ c (Proc.devRef .tc main_cst) = W1 m ρ c (Proc.devRef .tc main_cst) :=
  calc W3 m ρ c (Proc.devRef .tc main_cst)
    _ = W2 m ρ c (Proc.devRef .tc main_cst) := by host_keeps hostOps1
    _ = W1 m ρ c (Proc.devRef .tc main_cst) := W2_of_ne m ρ c main_cst (by decide)

theorem W3_main_cst_0 : W3 m ρ c (Proc.devRef .tc main_cst_0) = W1 m ρ c (Proc.devRef .tc main_cst_0) :=
  calc W3 m ρ c (Proc.devRef .tc main_cst_0)
    _ = W2 m ρ c (Proc.devRef .tc main_cst_0) := by host_keeps hostOps1
    _ = W1 m ρ c (Proc.devRef .tc main_cst_0) :=
        (W2_arr m ρ c 2).trans (((dat0 (V1 m ρ) c).arrAt_in 2 (by decide) _).trans (A_eq0 (V1 m ρ) c 2))

theorem W4_main_v14 : W4 m ρ c (Proc.devRef .tc main_v14) = W1 m ρ c (Proc.devRef .tc main_v14) :=
  calc W4 m ρ c (Proc.devRef .tc main_v14)
    _ = W3 m ρ c (Proc.devRef .tc main_v14) := W4_of_ne m ρ c main_v14 (by decide)
    _ = W2 m ρ c (Proc.devRef .tc main_v14) := by host_keeps hostOps1
    _ = W1 m ρ c (Proc.devRef .tc main_v14) := W2_of_ne m ρ c main_v14 (by decide)

theorem W4_main_v2 : W4 m ρ c (Proc.devRef .tc main_v2) = W1 m ρ c (Proc.devRef .tc main_v2) :=
  calc W4 m ρ c (Proc.devRef .tc main_v2)
    _ = W3 m ρ c (Proc.devRef .tc main_v2) := W4_of_ne m ρ c main_v2 (by decide)
    _ = W2 m ρ c (Proc.devRef .tc main_v2) := by host_keeps hostOps1
    _ = W1 m ρ c (Proc.devRef .tc main_v2) := W2_of_ne m ρ c main_v2 (by decide)

theorem W4_main_v5 : W4 m ρ c (Proc.devRef .tc main_v5) = W1 m ρ c (Proc.devRef .tc main_v5) :=
  calc W4 m ρ c (Proc.devRef .tc main_v5)
    _ = W3 m ρ c (Proc.devRef .tc main_v5) := W4_of_ne m ρ c main_v5 (by decide)
    _ = W2 m ρ c (Proc.devRef .tc main_v5) := by host_keeps hostOps1
    _ = W1 m ρ c (Proc.devRef .tc main_v5) := W2_of_ne m ρ c main_v5 (by decide)

theorem W5_main_v13 : W5 m ρ c (Proc.devRef .tc main_v13) = W1 m ρ c (Proc.devRef .tc main_v13) :=
  calc W5 m ρ c (Proc.devRef .tc main_v13)
    _ = W4 m ρ c (Proc.devRef .tc main_v13) := by host_keeps hostOps2
    _ = W3 m ρ c (Proc.devRef .tc main_v13) :=
        (W4_arr m ρ c 1).trans (((dat1 (V3 m ρ) c).arrAt_in 1 (by decide) _).trans (A_eq1 (V3 m ρ) c 1))
    _ = W2 m ρ c (Proc.devRef .tc main_v13) := by host_keeps hostOps1
    _ = W1 m ρ c (Proc.devRef .tc main_v13) :=
        (W2_arr m ρ c 1).trans (((dat0 (V1 m ρ) c).arrAt_in 1 (by decide) _).trans (A_eq0 (V1 m ρ) c 1))

theorem W5_main_cst_0 : W5 m ρ c (Proc.devRef .tc main_cst_0) = W1 m ρ c (Proc.devRef .tc main_cst_0) :=
  calc W5 m ρ c (Proc.devRef .tc main_cst_0)
    _ = W4 m ρ c (Proc.devRef .tc main_cst_0) := by host_keeps hostOps2
    _ = W3 m ρ c (Proc.devRef .tc main_cst_0) :=
        (W4_arr m ρ c 3).trans (((dat1 (V3 m ρ) c).arrAt_in 3 (by decide) _).trans (A_eq1 (V3 m ρ) c 3))
    _ = W2 m ρ c (Proc.devRef .tc main_cst_0) := by host_keeps hostOps1
    _ = W1 m ρ c (Proc.devRef .tc main_cst_0) :=
        (W2_arr m ρ c 2).trans (((dat0 (V1 m ρ) c).arrAt_in 2 (by decide) _).trans (A_eq0 (V1 m ρ) c 2))

theorem W6_main_v2 : W6 m ρ c (Proc.devRef .tc main_v2) = W1 m ρ c (Proc.devRef .tc main_v2) :=
  calc W6 m ρ c (Proc.devRef .tc main_v2)
    _ = W5 m ρ c (Proc.devRef .tc main_v2) := W6_of_ne m ρ c main_v2 (by decide)
    _ = W4 m ρ c (Proc.devRef .tc main_v2) := by host_keeps hostOps2
    _ = W3 m ρ c (Proc.devRef .tc main_v2) := W4_of_ne m ρ c main_v2 (by decide)
    _ = W2 m ρ c (Proc.devRef .tc main_v2) := by host_keeps hostOps1
    _ = W1 m ρ c (Proc.devRef .tc main_v2) := W2_of_ne m ρ c main_v2 (by decide)

theorem W6_main_v6 : W6 m ρ c (Proc.devRef .tc main_v6) = W1 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := by host_keeps hostOps2
    _ = W3 m ρ c (Proc.devRef .tc main_v6) := W4_of_ne m ρ c main_v6 (by decide)
    _ = W2 m ρ c (Proc.devRef .tc main_v6) := by host_keeps hostOps1
    _ = W1 m ρ c (Proc.devRef .tc main_v6) := W2_of_ne m ρ c main_v6 (by decide)

theorem W6_main_arg4 : W6 m ρ c (Proc.devRef .tc main_arg4) = W0 m ρ c (Proc.devRef .tc main_arg4) :=
  calc W6 m ρ c (Proc.devRef .tc main_arg4)
    _ = W5 m ρ c (Proc.devRef .tc main_arg4) := W6_of_ne m ρ c main_arg4 (by decide)
    _ = W4 m ρ c (Proc.devRef .tc main_arg4) := by host_keeps hostOps2
    _ = W3 m ρ c (Proc.devRef .tc main_arg4) := W4_of_ne m ρ c main_arg4 (by decide)
    _ = W2 m ρ c (Proc.devRef .tc main_arg4) := by host_keeps hostOps1
    _ = W1 m ρ c (Proc.devRef .tc main_arg4) := W2_of_ne m ρ c main_arg4 (by decide)
    _ = W0 m ρ c (Proc.devRef .tc main_arg4) := by host_keeps hostOps0

theorem W6_main_arg5 : W6 m ρ c (Proc.devRef .tc main_arg5) = W0 m ρ c (Proc.devRef .tc main_arg5) :=
  calc W6 m ρ c (Proc.devRef .tc main_arg5)
    _ = W5 m ρ c (Proc.devRef .tc main_arg5) := W6_of_ne m ρ c main_arg5 (by decide)
    _ = W4 m ρ c (Proc.devRef .tc main_arg5) := by host_keeps hostOps2
    _ = W3 m ρ c (Proc.devRef .tc main_arg5) := W4_of_ne m ρ c main_arg5 (by decide)
    _ = W2 m ρ c (Proc.devRef .tc main_arg5) := by host_keeps hostOps1
    _ = W1 m ρ c (Proc.devRef .tc main_arg5) := W2_of_ne m ρ c main_arg5 (by decide)
    _ = W0 m ρ c (Proc.devRef .tc main_arg5) := by host_keeps hostOps0

theorem W6_main_arg6 : W6 m ρ c (Proc.devRef .tc main_arg6) = W0 m ρ c (Proc.devRef .tc main_arg6) :=
  calc W6 m ρ c (Proc.devRef .tc main_arg6)
    _ = W5 m ρ c (Proc.devRef .tc main_arg6) := W6_of_ne m ρ c main_arg6 (by decide)
    _ = W4 m ρ c (Proc.devRef .tc main_arg6) := by host_keeps hostOps2
    _ = W3 m ρ c (Proc.devRef .tc main_arg6) := W4_of_ne m ρ c main_arg6 (by decide)
    _ = W2 m ρ c (Proc.devRef .tc main_arg6) := by host_keeps hostOps1
    _ = W1 m ρ c (Proc.devRef .tc main_arg6) := W2_of_ne m ρ c main_arg6 (by decide)
    _ = W0 m ρ c (Proc.devRef .tc main_arg6) := by host_keeps hostOps0

end Cert.KernelIdeal.Boundaries

end
-- ==== Proof.EdgeLists.lean ====
/-
  The graph the kernel and the reference both build from the arguments, as pure terms.

  An interaction `(user u, item i)` gives two directed edges, `u → 40000 + i` and `40000 + i → u`: the head list is the
  users followed by the shifted items, the tail list the shifted items followed by the users (1 200 000 edges over
  60 000 nodes).  The node embeddings are the users' rows followed by the items' rows.  A list used as gather indices
  is first wrapped (a negative entry has 60 000 added) and laid out as a column.
-/
import proofs.«168221_j52458730553670_2_alg».proof.KernelIdeal
import Idealize.ShloMosaic.PureOps.Ideal

noncomputable section

namespace Cert.KernelIdeal.EdgeLists

open Idealize.ShloMosaic Cert.KernelIdeal

variable [Facts]
open Facts₀ Facts

/-- The item numbers shifted past the 40 000 users. -/
def shifted (a3 : IVec S600000 32) : IVec S600000 32 :=
  addi a3 (broadcastInDim S600000 ![] bcast_S_S600000 (constantI S_ 32 40000#32))

/-- Each edge's head node: the users, then the shifted items. -/
def heads (a2 a3 : IVec S600000 32) : IVec S1200000 32 :=
  concatenate S1200000 0 [⟨S600000, a2⟩, ⟨S600000, shifted a3⟩] concatenates_S600000_S600000_S1200000_d0

/-- Each edge's tail node: the shifted items, then the users. -/
def tails (a2 a3 : IVec S600000 32) : IVec S1200000 32 :=
  concatenate S1200000 0 [⟨S600000, shifted a3⟩, ⟨S600000, a2⟩] concatenates_S600000_S600000_S1200000_d0

/-- The node embeddings: the users' rows, then the items' rows. -/
def nodes (a0 : FVec Ideal S40000x128 .f32) (a1 : FVec Ideal S20000x128 .f32) : FVec Ideal S60000x128 .f32 :=
  concatenate S60000x128 0 [⟨S40000x128, a0⟩, ⟨S20000x128, a1⟩] concatenates_S40000x128_S20000x128_S60000x128_d0

/-- A node list as a column of gather indices: negative entries wrapped by 60 000. -/
def wrapCol (v : IVec S1200000 32) : IVec S1200000x1 32 :=
  broadcastInDim S1200000x1 ![0] bcast_S1200000_S1200000x1_0
    (select (cmpi .slt v (broadcastInDim S1200000 ![] bcast_S_S1200000 (constantI S_ 32 0#32)))
      (addi v (broadcastInDim S1200000 ![] bcast_S_S1200000 (constantI S_ 32 60000#32))) v)

/-- A node list as a column of scatter indices, as it stands. -/
def col (v : IVec S1200000 32) : IVec S1200000x1 32 :=
  broadcastInDim S1200000x1 ![0] bcast_S1200000_S1200000x1_0 v

/-- The all-ones routing scores the first iteration starts from. -/
def ones : FVec Ideal S1200000x4 .f32 :=
  broadcastInDim S1200000x4 ![] bcast_S_S1200000x4 (constant (F := Ideal) S_ .f32 0x3F800000#32)

end Cert.KernelIdeal.EdgeLists

end
-- ==== Proof.FirstStretch.lean ====
/-
  What the first stretch of host operations leaves in the buffers that the regions and the later stretches read:
  the node embeddings, the tail embeddings gathered once for all iterations, and the two grouping matrices.
-/
import proofs.«168221_j52458730553670_2_alg».proof.Proof.Gen.KernelIdeal.Frame
import proofs.«168221_j52458730553670_2_alg».proof.Proof.EdgeLists
import Idealize.ShloMosaic.Lib.StableHlo.Run
import Idealize.ShloMosaic.PureOps.Ideal
set_option maxRecDepth 16384

noncomputable section

namespace Cert.KernelIdeal.FirstStretch

open Idealize.ShloMosaic Idealize.ShloMosaic.TcCoe Idealize.ShloMosaic.Tactic Idealize.SL.Sem
open Cert.KernelIdeal Cert.KernelIdeal.Gen Cert.KernelIdeal.EdgeLists

variable (m : (ℓ : Loc nD τ sig) → Buf (Elt Ideal) ℓ) (ρ : Dev nD → PrngReg) (c : Dev nD)

/-- The matrix that sums each factor's 32 columns, as the first stretch writes it. -/
theorem W1_cst : W1 m ρ c (Proc.devRef .tc main_cst)
    = (fun i : S128x4.Idx => FloatOps.ofBits (F := Ideal) .f32 (lit0 (S128x4.rowMajor i))) := by
  show StableHlo.after hostOps0 _ (Proc.devRef .tc main_cst) = _
  after_results <;> rfl

/-- The matrix that repeats a per-factor number over the factor's 32 columns. -/
theorem W1_cst_0 : W1 m ρ c (Proc.devRef .tc main_cst_0)
    = (fun i : S4x128.Idx => FloatOps.ofBits (F := Ideal) .f32 (lit1 (S4x128.rowMajor i))) := by
  show StableHlo.after hostOps0 _ (Proc.devRef .tc main_cst_0) = _
  after_results <;> rfl

/-- The node embeddings. -/
theorem W1_v6 : W1 m ρ c (Proc.devRef .tc main_v6)
    = nodes (m ((c : Thread nD τ).loc main_arg0)) (m ((c : Thread nD τ).loc main_arg1)) := by
  show StableHlo.after hostOps0 _ (Proc.devRef .tc main_v6) = _
  after_results <;> rfl

set_option maxHeartbeats 2000000 in
/-- Each edge's tail embedding. -/
theorem W1_v13 : W1 m ρ c (Proc.devRef .tc main_v13)
    = Host.gather gather_S60000x128_S1200000x1_S1200000x128_1_0_n_n_0_1_1128
        (nodes (m ((c : Thread nD τ).loc main_arg0)) (m ((c : Thread nD τ).loc main_arg1)))
        (wrapCol (tails (m ((c : Thread nD τ).loc main_arg2)) (m ((c : Thread nD τ).loc main_arg3)))) := by
  show StableHlo.after hostOps0 _ (Proc.devRef .tc main_v13) = _
  unfold nodes wrapCol tails shifted
  after_results <;> rfl

end Cert.KernelIdeal.FirstStretch

end
-- ==== Proof.RegionValues.lean ====
/-
  What each of the kernel's three regions writes, as a whole-array function of what the first stretch and the stretch
  before the region left: the edge values (regions 0 and 2) and the routing scores (region 1).  Each region's blocks
  tile its arrays by 15 000 edges and its body is row-local, so its result array is the row function applied row by
  row; the grouping matrices turn the row function's small matrix products into "the weight of the column's factor"
  and "the sum over the factor's 32 columns".
-/
import proofs.«168221_j52458730553670_2_alg».proof.Proof.Gen.KernelIdeal.Frame
import proofs.«168221_j52458730553670_2_alg».proof.Proof.RegionArrays
import proofs.«168221_j52458730553670_2_alg».proof.Proof.BodyEntries
import proofs.«168221_j52458730553670_2_alg».proof.Proof.Grouping
import proofs.«168221_j52458730553670_2_alg».proof.Proof.KernelForms
import proofs.«168221_j52458730553670_2_alg».proof.Proof.Boundaries
import proofs.«168221_j52458730553670_2_alg».proof.Proof.FirstStretch
set_option maxRecDepth 16384

noncomputable section

namespace Cert.KernelIdeal.RegionValues

open Idealize.ShloMosaic Idealize.ShloMosaic.TcCoe Idealize.ShloMosaic.ValueIdx Idealize.SL.Sem
open Cert.KernelIdeal Cert.KernelIdeal.Gen Cert.KernelIdeal.BodyEntries Cert.KernelIdeal.Forms Cert.KernelIdeal.Grouping
open Cert.KernelIdeal.RegionArrays Cert.KernelIdeal.Boundaries Cert.KernelIdeal.FirstStretch

variable (m : (ℓ : Loc nD τ sig) → Buf (Elt Ideal) ℓ) (ρ : Dev nD → PrngReg) (c : Dev nD)

/-- The column-repeating matrix, as every region finds it: one where the column lies in the factor. -/
theorem gt_entry (k : Fin 4) (j : Fin 128) :
    (W1 m ρ c (Proc.devRef .tc main_cst_0) : S4x128.Idx → EReal) (ix2 k j) = (if j.val / 32 = k.val then (1 : EReal) else 0) := by
  rw [W1_cst_0]; exact gt_apply k j

/-- The factor-summing matrix, as region 1 finds it. -/
theorem g_entry (j : Fin 128) (k : Fin 4) :
    (W1 m ρ c (Proc.devRef .tc main_cst) : S128x4.Idx → EReal) (ix2 j k) = (if j.val / 32 = k.val then (1 : EReal) else 0) := by
  rw [W1_cst]; exact g_apply j k

/-- Region 0 writes the edge values of the first iteration's weights. -/
theorem W2_v50 : W2 m ρ c (Proc.devRef .tc main_v50)
    = edgeValue (W1 m ρ c (Proc.devRef .tc main_v49)) (W1 m ρ c (Proc.devRef .tc main_v13)) := by
  refine (W2_arr m ρ c 3).trans ?_
  rw [array0 (V1 m ρ) c R0 k0_row]
  funext i
  show R0 (fun k => (W1 m ρ c (Proc.devRef .tc main_v49) : S1200000x4.Idx → EReal) (ix2 (i 0) k))
      (fun j => (W1 m ρ c (Proc.devRef .tc main_v13) : S1200000x128.Idx → EReal) (ix2 (i 0) j))
      (W1 m ρ c (Proc.devRef .tc main_cst_0)) (i 1) = _
  exact (R0_grouped _ _ _ (fun k j => gt_entry m ρ c k j) _).trans rfl

/-- Region 1 writes the routing scores of the gathered factor embeddings against the tail embeddings. -/
theorem W4_v61 : W4 m ρ c (Proc.devRef .tc main_v61)
    = routeScore (W3 m ρ c (Proc.devRef .tc main_v60)) (W1 m ρ c (Proc.devRef .tc main_v13)) := by
  refine (W4_arr m ρ c 4).trans ?_
  rw [array1 (V3 m ρ) c R1 k1_row]
  funext i
  show R1 (fun j => (W3 m ρ c (Proc.devRef .tc main_v60) : S1200000x128.Idx → EReal) (ix2 (i 0) j))
      (fun j => (W3 m ρ c (Proc.devRef .tc main_v13) : S1200000x128.Idx → EReal) (ix2 (i 0) j))
      (W3 m ρ c (Proc.devRef .tc main_cst)) (W3 m ρ c (Proc.devRef .tc main_cst_0)) (i 1) = _
  rw [W3_main_v13 m ρ c, W3_main_cst m ρ c, W3_main_cst_0 m ρ c]
  exact (R1_grouped _ _ _ _ (fun j k => g_entry m ρ c j k) (fun k j => gt_entry m ρ c k j) _).trans rfl

/-- Region 2 writes the edge values of the second iteration's weights. -/
theorem W6_v98 : W6 m ρ c (Proc.devRef .tc main_v98)
    = edgeValue (W5 m ρ c (Proc.devRef .tc main_v97)) (W1 m ρ c (Proc.devRef .tc main_v13)) := by
  refine (W6_arr m ρ c 3).trans ?_
  rw [array2 (V5 m ρ) c R0 k2_row]
  funext i
  show R0 (fun k => (W5 m ρ c (Proc.devRef .tc main_v97) : S1200000x4.Idx → EReal) (ix2 (i 0) k))
      (fun j => (W5 m ρ c (Proc.devRef .tc main_v13) : S1200000x128.Idx → EReal) (ix2 (i 0) j))
      (W5 m ρ c (Proc.devRef .tc main_cst_0)) (i 1) = _
  rw [W5_main_v13 m ρ c, W5_main_cst_0 m ρ c]
  exact (R0_grouped _ _ _ (fun k j => gt_entry m ρ c k j) _).trans rfl

end Cert.KernelIdeal.RegionValues

end
-- ==== Proof.LaterStretches.lean ====
/-
  What the kernel's later stretches of host operations compute, as pure terms of the buffers they read.

  Between its regions the kernel runs plain array operations.  After the first region, the edge values are summed
  into their head nodes and the sums are gathered back along the tail nodes.  After the second region, the routing
  scores are turned into edge weights: a softmax over the four factors, divided on both sides by the square root of
  the head node's summed weight (floored at 1e-8), once gathered by head and once by tail.  After the third region,
  the node embeddings and the summed edge values are averaged, and the rows named by the three index arguments are
  gathered out of the users' and the items' halves.
-/
import proofs.«168221_j52458730553670_2_alg».proof.Proof.Gen.KernelIdeal.Frame
import proofs.«168221_j52458730553670_2_alg».proof.Proof.EdgeLists
import Idealize.ShloMosaic.Lib.StableHlo.Run
import Idealize.ShloMosaic.PureOps.Ideal
set_option maxRecDepth 16384

noncomputable section

namespace Cert.KernelIdeal.LaterStretches

open Idealize.ShloMosaic Idealize.ShloMosaic.TcCoe Idealize.ShloMosaic.Tactic Idealize.SL.Sem
open Cert.KernelIdeal Cert.KernelIdeal.Gen Cert.KernelIdeal.EdgeLists

variable (m : (ℓ : Loc nD τ sig) → Buf (Elt Ideal) ℓ) (ρ : Dev nD → PrngReg) (c : Dev nD)

/-! ## After the first region: the edge values summed by head node, gathered along the tails -/

set_option maxHeartbeats 2000000 in
/-- The second region's gathered rows: the edge values the first region left, summed into their head nodes from
    zero, then read back at each edge's (wrapped) head node. -/
theorem W3_main_v60 :
    (W3 m ρ c (Proc.devRef .tc main_v60) : FVec Ideal S1200000x128 .f32)
      = Host.gather gather_S60000x128_S1200000x1_S1200000x128_1_0_n_n_0_1_1128
          (Host.scatterAdd scatter_S60000x128_S1200000x1_S1200000x128_1_0_0_1
            (broadcastInDim S60000x128 ![] bcast_S_S60000x128 (constant (F := Ideal) S_ .f32 0x00000000#32))
            (broadcastInDim S1200000x1 ![0] bcast_S1200000_S1200000x1_0
              (W2 m ρ c (Proc.devRef .tc main_v2) : IVec S1200000 32))
            (W2 m ρ c (Proc.devRef .tc main_v50) : FVec Ideal S1200000x128 .f32))
          (broadcastInDim S1200000x1 ![0] bcast_S1200000_S1200000x1_0
            (select
              (cmpi .slt (W2 m ρ c (Proc.devRef .tc main_v2) : IVec S1200000 32)
                (broadcastInDim S1200000 ![] bcast_S_S1200000 (constantI S_ 32 0#32)))
              (addi (W2 m ρ c (Proc.devRef .tc main_v2) : IVec S1200000 32)
                (broadcastInDim S1200000 ![] bcast_S_S1200000 (constantI S_ 32 60000#32)))
              (W2 m ρ c (Proc.devRef .tc main_v2) : IVec S1200000 32))) := by
  show StableHlo.after hostOps1 _ (Proc.devRef .tc main_v60) = _
  after_results
  all_goals rfl

/-- The same, with the two index columns by name: the head list as it stands for the sum, wrapped for the read. -/
theorem W3_main_v60_named :
    (W3 m ρ c (Proc.devRef .tc main_v60) : FVec Ideal S1200000x128 .f32)
      = Host.gather gather_S60000x128_S1200000x1_S1200000x128_1_0_n_n_0_1_1128
          (Host.scatterAdd scatter_S60000x128_S1200000x1_S1200000x128_1_0_0_1
            (broadcastInDim S60000x128 ![] bcast_S_S60000x128 (constant (F := Ideal) S_ .f32 0x00000000#32))
            (col (W2 m ρ c (Proc.devRef .tc main_v2) : IVec S1200000 32))
            (W2 m ρ c (Proc.devRef .tc main_v50) : FVec Ideal S1200000x128 .f32))
          (wrapCol (W2 m ρ c (Proc.devRef .tc main_v2) : IVec S1200000 32)) :=
  W3_main_v60 m ρ c

/-! ## After the third region: the two node tables averaged, the asked rows gathered -/

/-- The all-zero node table the edge values are summed into. -/
def zeroNodes : FVec Ideal S60000x128 .f32 :=
  broadcastInDim S60000x128 ![] bcast_S_S60000x128 (constant (F := Ideal) S_ .f32 0x00000000#32)

/-- The entrywise mean of two node tables: both laid out as `[60000, 1, 128]`, joined along the middle axis, summed
    over it from zero, divided by two. -/
def pooled (ego fe : FVec Ideal S60000x128 .f32) : FVec Ideal S60000x128 .f32 :=
  Host.divf
    (Host.reduceAdd
      (concatenate S60000x2x128 1
        [⟨S60000x1x128, broadcastInDim S60000x1x128 ![0, 2] bcast_S60000x128_S60000x1x128_0_2 ego⟩,
          ⟨S60000x1x128, broadcastInDim S60000x1x128 ![0, 2] bcast_S60000x128_S60000x1x128_0_2 fe⟩]
        concatenates_S60000x1x128_S60000x1x128_S60000x2x128_d1)
      (constant (F := Ideal) S_ .f32 0x00000000#32) reducesTo_S60000x2x128_S60000x128_d1 h_S_)
    (broadcastInDim S60000x128 ![] bcast_S_S60000x128 (constant (F := Ideal) S_ .f32 0x40000000#32))

/-- A list of 4096 row numbers as a column of gather indices into a table of `n` rows: a negative entry has `n`
    added. -/
def wrapRows (n : BitVec 32) (v : IVec S4096 32) : IVec S4096x1 32 :=
  broadcastInDim S4096x1 ![0] bcast_S4096_S4096x1_0
    (select (cmpi .slt v (broadcastInDim S4096 ![] bcast_S_S4096 (constantI S_ 32 0#32)))
      (addi v (broadcastInDim S4096 ![] bcast_S_S4096 (constantI S_ 32 n))) v)

/-- The averaged node table at the kernel's end: the node embeddings and the last region's edge values summed into
    their head nodes from zero. -/
def finalNodes : FVec Ideal S60000x128 .f32 :=
  pooled (W6 m ρ c (Proc.devRef .tc main_v6) : FVec Ideal S60000x128 .f32)
    (Host.scatterAdd scatter_S60000x128_S1200000x1_S1200000x128_1_0_0_1 zeroNodes
      (col (W6 m ρ c (Proc.devRef .tc main_v2) : IVec S1200000 32))
      (W6 m ρ c (Proc.devRef .tc main_v98) : FVec Ideal S1200000x128 .f32))

set_option maxHeartbeats 2000000 in
/-- The first result: the users' half of the averaged table, read at the (wrapped) rows the fifth argument names. -/
theorem W7_main_v116 :
    (W7 m ρ c (Proc.devRef .tc main_v116) : FVec Ideal S4096x128 .f32)
      = Host.gather gather_S40000x128_S4096x1_S4096x128_1_0_n_n_0_1_1128
          (extractStridedSlice S40000x128 ![0, 0] (finalNodes m ρ c) slices_S60000x128_S40000x128_0_0)
          (wrapRows 40000#32 (W6 m ρ c (Proc.devRef .tc main_arg4) : IVec S4096 32)) := by
  show StableHlo.after hostOps3 _ (Proc.devRef .tc main_v116) = _
  after_results
  all_goals rfl

set_option maxHeartbeats 2000000 in
/-- The second result: the items' half of the averaged table, read at the (wrapped) rows the sixth argument names. -/
theorem W7_main_v123 :
    (W7 m ρ c (Proc.devRef .tc main_v123) : FVec Ideal S4096x128 .f32)
      = Host.gather gather_S20000x128_S4096x1_S4096x128_1_0_n_n_0_1_1128
          (extractStridedSlice S20000x128 ![40000, 0] (finalNodes m ρ c) slices_S60000x128_S20000x128_40000_0)
          (wrapRows 20000#32 (W6 m ρ c (Proc.devRef .tc main_arg5) : IVec S4096 32)) := by
  show StableHlo.after hostOps3 _ (Proc.devRef .tc main_v123) = _
  after_results
  all_goals rfl

set_option maxHeartbeats 2000000 in
/-- The third result: the items' half of the averaged table, read at the (wrapped) rows the seventh argument
    names. -/
theorem W7_main_v130 :
    (W7 m ρ c (Proc.devRef .tc main_v130) : FVec Ideal S4096x128 .f32)
      = Host.gather gather_S20000x128_S4096x1_S4096x128_1_0_n_n_0_1_1128
          (extractStridedSlice S20000x128 ![40000, 0] (finalNodes m ρ c) slices_S60000x128_S20000x128_40000_0)
          (wrapRows 20000#32 (W6 m ρ c (Proc.devRef .tc main_arg6) : IVec S4096 32)) := by
  show StableHlo.after hostOps3 _ (Proc.devRef .tc main_v130) = _
  after_results
  all_goals rfl

end Cert.KernelIdeal.LaterStretches

end
-- ==== Proof.EdgeWeights.lean ====
/-
  The edge weights of one routing iteration, as a pure function of the routing scores and the edge lists, and what
  the first stretch of host operations leaves in the buffers it is computed from and into.

  From scores `a : [1200000, 4]`: the softmax over the 4 factors (each row shifted by its maximum, exponentiated,
  divided by its sum); the per-node, per-factor degree, the scatter-add of the softmax rows into `[60000, 4]` by head
  node; its reciprocal square root after a floor at 1e-8; and each edge's softmax row times that factor at its head
  node and at its tail node.
-/
import proofs.«168221_j52458730553670_2_alg».proof.Proof.Gen.KernelIdeal.Frame
import proofs.«168221_j52458730553670_2_alg».proof.Proof.EdgeLists
import Idealize.ShloMosaic.Lib.StableHlo.Run
import Idealize.ShloMosaic.PureOps.Ideal

set_option maxRecDepth 16384

noncomputable section

namespace Cert.KernelIdeal.EdgeWeights

open Idealize.ShloMosaic Idealize.ShloMosaic.TcCoe Idealize.ShloMosaic.Tactic Idealize.SL.Sem
open Cert.KernelIdeal Cert.KernelIdeal.Gen Cert.KernelIdeal.EdgeLists

/-! ## The edge weights as a function of the scores and the edge lists -/

/-- The scores shifted by their row maximum (the maximum over the 4 factors, from `-∞`) and exponentiated. -/
def expShifted (a : FVec Ideal S1200000x4 .f32) : FVec Ideal S1200000x4 .f32 :=
  Host.exp (subf a (broadcastInDim S1200000x4 ![0, 1] Facts₀.bcast_S1200000x1_S1200000x4_0_1
    (broadcastInDim S1200000x1 ![0] Facts₀.bcast_S1200000_S1200000x1_0
      (maximumf (broadcastInDim S1200000 ![] Facts₀.bcast_S_S1200000 (constant (F := Ideal) S_ .f32 0xFF800000#32))
        (Host.reduce FloatOps.maximumf a (constant (F := Ideal) S_ .f32 0xFF800000#32) Facts₀.reducesTo_S1200000x4_S1200000_d1 Facts₀.h_S_)))))

/-- The softmax of the scores over the 4 factors: the shifted exponentials divided by their row sum. -/
def softmax4 (a : FVec Ideal S1200000x4 .f32) : FVec Ideal S1200000x4 .f32 :=
  Host.divf (expShifted a) (broadcastInDim S1200000x4 ![0, 1] Facts₀.bcast_S1200000x1_S1200000x4_0_1
    (broadcastInDim S1200000x1 ![0] Facts₀.bcast_S1200000_S1200000x1_0
      (Host.reduceAdd (expShifted a) (constant (F := Ideal) S_ .f32 0x00000000#32) Facts₀.reducesTo_S1200000x4_S1200000_d1 Facts₀.h_S_)))

/-- The reciprocal square root of each node's per-factor degree: the rows `s` scatter-added by head node into zeros,
    floored at 1e-8, square-rooted, and one divided by it. -/
def invSqrtDegree (s : FVec Ideal S1200000x4 .f32) (h : IVec S1200000 32) : FVec Ideal S60000x4 .f32 :=
  Host.divf (broadcastInDim S60000x4 ![] Facts₀.bcast_S_S60000x4 (constant (F := Ideal) S_ .f32 0x3F800000#32))
    (Host.sqrt (maximumf
      (Host.scatterAdd scatter_S60000x4_S1200000x1_S1200000x4_1_0_0_1
        (broadcastInDim S60000x4 ![] Facts₀.bcast_S_S60000x4 (constant (F := Ideal) S_ .f32 0x00000000#32)) (col h) s)
      (broadcastInDim S60000x4 ![] Facts₀.bcast_S_S60000x4 (constant (F := Ideal) S_ .f32 0x322BCC77#32))))

/-- The edge weights: each edge's softmax row times the reciprocal square-root degree at its head node and at its
    tail node. -/
def edgeWeights (a : FVec Ideal S1200000x4 .f32) (h t : IVec S1200000 32) : FVec Ideal S1200000x4 .f32 :=
  mulf
    (mulf (softmax4 a)
      (Host.gather gather_S60000x4_S1200000x1_S1200000x4_1_0_n_n_0_1_14 (invSqrtDegree (softmax4 a) h) (wrapCol h)))
    (Host.gather gather_S60000x4_S1200000x1_S1200000x4_1_0_n_n_0_1_14 (invSqrtDegree (softmax4 a) h) (wrapCol t))

/-! ## What the first stretch leaves -/

variable (m : (ℓ : Loc nD τ sig) → Buf (Elt Ideal) ℓ) (ρ : Dev nD → PrngReg) (c : Dev nD)

/-- The first iteration's scores: all ones. -/
theorem W1_v14 : W1 m ρ c (Proc.devRef .tc main_v14) = ones := by
  show StableHlo.after hostOps0 _ (Proc.devRef .tc main_v14) = _
  unfold ones
  after_results <;> rfl

/-- Each edge's head node. -/
theorem W1_v2 : W1 m ρ c (Proc.devRef .tc main_v2)
    = heads (m ((c : Thread nD τ).loc main_arg2)) (m ((c : Thread nD τ).loc main_arg3)) := by
  show StableHlo.after hostOps0 _ (Proc.devRef .tc main_v2) = _
  unfold heads shifted
  after_results <;> rfl

/-- Each edge's tail node. -/
theorem W1_v5 : W1 m ρ c (Proc.devRef .tc main_v5)
    = tails (m ((c : Thread nD τ).loc main_arg2)) (m ((c : Thread nD τ).loc main_arg3)) := by
  show StableHlo.after hostOps0 _ (Proc.devRef .tc main_v5) = _
  unfold tails shifted
  after_results <;> rfl

end Cert.KernelIdeal.EdgeWeights

end
-- ==== Proof.ThirdStretch.lean ====
/-
  What the kernel's third stretch of host operations computes, as a pure term of the buffers it reads.

  After the second region the routing scores are turned into edge weights: the all-ones scores plus the region's
  scores, a softmax over the four factors, divided on both sides by the square root of the head node's summed weight
  (floored at 1e-8), once gathered by head and once by tail.
-/
import proofs.«168221_j52458730553670_2_alg».proof.Proof.Gen.KernelIdeal.Frame
import proofs.«168221_j52458730553670_2_alg».proof.Proof.EdgeLists
import proofs.«168221_j52458730553670_2_alg».proof.Proof.EdgeWeights
import Idealize.ShloMosaic.Lib.StableHlo.Run
import Idealize.ShloMosaic.PureOps.Ideal
set_option maxRecDepth 16384

noncomputable section

namespace Cert.KernelIdeal.ThirdStretch

open Idealize.ShloMosaic Idealize.ShloMosaic.TcCoe Idealize.ShloMosaic.Tactic Idealize.SL.Sem
open Cert.KernelIdeal Cert.KernelIdeal.Gen Cert.KernelIdeal.EdgeLists Cert.KernelIdeal.EdgeWeights

variable (m : (ℓ : Loc nD τ sig) → Buf (Elt Ideal) ℓ) (ρ : Dev nD → PrngReg) (c : Dev nD)

/-! ## After the second region: the routing scores turned into edge weights -/

set_option maxHeartbeats 4000000 in
/-- The third region's edge weights: the all-ones scores plus the second region's routing scores, softmaxed over the
    four factors and scaled on both sides by the reciprocal square-root degree of the head and of the tail node. -/
theorem W5_main_v97 :
    (W5 m ρ c (Proc.devRef .tc main_v97) : FVec Ideal S1200000x4 .f32)
      = edgeWeights
          (addf (W4 m ρ c (Proc.devRef .tc main_v14) : FVec Ideal S1200000x4 .f32)
            (W4 m ρ c (Proc.devRef .tc main_v61) : FVec Ideal S1200000x4 .f32))
          (W4 m ρ c (Proc.devRef .tc main_v2) : IVec S1200000 32)
          (W4 m ρ c (Proc.devRef .tc main_v5) : IVec S1200000 32) := by
  show StableHlo.after hostOps2 _ (Proc.devRef .tc main_v97) = _
  unfold edgeWeights invSqrtDegree softmax4 expShifted wrapCol col
  after_results_simp
  all_goals rfl

end Cert.KernelIdeal.ThirdStretch

end
-- ==== Proof.FirstWeights.lean ====
/-
  The first routing iteration's edge weights: what the first stretch of host operations leaves in the buffer the
  first region reads them from is the edge-weight function of the all-ones scores and the two edge lists.
-/
import proofs.«168221_j52458730553670_2_alg».proof.Proof.Gen.KernelIdeal.Frame
import proofs.«168221_j52458730553670_2_alg».proof.Proof.EdgeLists
import proofs.«168221_j52458730553670_2_alg».proof.Proof.EdgeWeights
import Idealize.ShloMosaic.Lib.StableHlo.Run
import Idealize.ShloMosaic.PureOps.Ideal

set_option maxRecDepth 16384

noncomputable section

namespace Cert.KernelIdeal.FirstWeights

open Idealize.ShloMosaic Idealize.ShloMosaic.TcCoe Idealize.ShloMosaic.Tactic Idealize.SL.Sem
open Cert.KernelIdeal Cert.KernelIdeal.Gen Cert.KernelIdeal.EdgeLists Cert.KernelIdeal.EdgeWeights

variable (m : (ℓ : Loc nD τ sig) → Buf (Elt Ideal) ℓ) (ρ : Dev nD → PrngReg) (c : Dev nD)

set_option maxHeartbeats 20000000 in
/-- The first iteration's edge weights: those of the all-ones scores. -/
theorem W1_v49 : W1 m ρ c (Proc.devRef .tc main_v49)
    = edgeWeights ones (heads (m ((c : Thread nD τ).loc main_arg2)) (m ((c : Thread nD τ).loc main_arg3)))
        (tails (m ((c : Thread nD τ).loc main_arg2)) (m ((c : Thread nD τ).loc main_arg3))) := by
  show StableHlo.after hostOps0 _ (Proc.devRef .tc main_v49) = _
  unfold edgeWeights invSqrtDegree softmax4 expShifted ones heads tails shifted wrapCol col
  after_results_simp <;> rfl

end Cert.KernelIdeal.FirstWeights

end
-- ==== Proof.KernelValue.lean ====
/-
  The idealized kernel's three results as one pure function of its arguments.

  One propagation sums, into each edge's head node, the edge's tail embedding with each column weighted by the edge's
  weight for that column's factor.  The kernel propagates once with the weights of the all-ones scores, scores the
  result against the tail embeddings, adds the scores to the ones, and propagates again with the weights of the new
  scores; the node table it returns rows of is the mean of the node embeddings and the second propagation.
-/
import proofs.«168221_j52458730553670_2_alg».proof.Proof.Gen.KernelIdeal.Frame
import proofs.«168221_j52458730553670_2_alg».proof.Proof.RegionValues
import proofs.«168221_j52458730553670_2_alg».proof.Proof.LaterStretches
import proofs.«168221_j52458730553670_2_alg».proof.Proof.EdgeWeights
import proofs.«168221_j52458730553670_2_alg».proof.Proof.ThirdStretch
import proofs.«168221_j52458730553670_2_alg».proof.Proof.FirstWeights
set_option maxRecDepth 16384

noncomputable section

namespace Cert.KernelIdeal.KernelValue

open Idealize.ShloMosaic Idealize.ShloMosaic.TcCoe Idealize.SL.Sem
open Cert.KernelIdeal Cert.KernelIdeal.Gen Cert.KernelIdeal.EdgeLists Cert.KernelIdeal.EdgeWeights
open Cert.KernelIdeal.Forms Cert.KernelIdeal.LaterStretches Cert.KernelIdeal.ThirdStretch Cert.KernelIdeal.FirstWeights

section Pure

variable (a0 : FVec Ideal S40000x128 .f32) (a1 : FVec Ideal S20000x128 .f32) (a2 a3 : IVec S600000 32)

/-- Each edge's tail embedding. -/
def tailRows : FVec Ideal S1200000x128 .f32 :=
  Host.gather gather_S60000x128_S1200000x1_S1200000x128_1_0_n_n_0_1_1128 (nodes a0 a1) (wrapCol (tails a2 a3))

/-- One propagation with edge weights `w`: the weighted tail embeddings summed into their head nodes from zero. -/
def propagate (w : FVec Ideal S1200000x4 .f32) : FVec Ideal S60000x128 .f32 :=
  Host.scatterAdd scatter_S60000x128_S1200000x1_S1200000x128_1_0_0_1
    (broadcastInDim S60000x128 ![] Facts₀.bcast_S_S60000x128 (constant (F := Ideal) S_ .f32 0x00000000#32))
    (col (heads a2 a3)) (edgeValue w (tailRows a0 a1 a2 a3))

/-- The second iteration's routing scores: the ones plus the scores of the first propagation, read at the heads,
    against the tail embeddings. -/
def scores2 : FVec Ideal S1200000x4 .f32 :=
  addf ones (routeScore
    (Host.gather gather_S60000x128_S1200000x1_S1200000x128_1_0_n_n_0_1_1128
      (propagate a0 a1 a2 a3 (edgeWeights ones (heads a2 a3) (tails a2 a3))) (wrapCol (heads a2 a3)))
    (tailRows a0 a1 a2 a3))

/-- The node table the results are rows of. -/
def finalTable : FVec Ideal S60000x128 .f32 :=
  pooled (nodes a0 a1) (propagate a0 a1 a2 a3 (edgeWeights (scores2 a0 a1 a2 a3) (heads a2 a3) (tails a2 a3)))

end Pure

variable (m : (ℓ : Loc nD τ sig) → Buf (Elt Ideal) ℓ) (ρ : Dev nD → PrngReg) (c : Dev nD)

set_option maxHeartbeats 2000000 in
/-- The table at the kernel's end is that function of the launch contents of the first four arguments. -/
theorem finalNodes_eq : finalNodes m ρ c
    = finalTable (m ((c : Thread nD τ).loc main_arg0)) (m ((c : Thread nD τ).loc main_arg1))
        (m ((c : Thread nD τ).loc main_arg2)) (m ((c : Thread nD τ).loc main_arg3)) := by
  unfold finalNodes finalTable scores2 propagate tailRows zeroNodes
  rw [Boundaries.W6_main_v6 m ρ c, FirstStretch.W1_v6 m ρ c, Boundaries.W6_main_v2 m ρ c, W1_v2 m ρ c,
    RegionValues.W6_v98 m ρ c, W5_main_v97 m ρ c, Boundaries.W4_main_v14 m ρ c, W1_v14 m ρ c,
    Boundaries.W4_main_v2 m ρ c, W1_v2 m ρ c, Boundaries.W4_main_v5 m ρ c, W1_v5 m ρ c,
    RegionValues.W4_v61 m ρ c, W3_main_v60_named m ρ c, Boundaries.W2_main_v2 m ρ c, W1_v2 m ρ c,
    RegionValues.W2_v50 m ρ c, W1_v49 m ρ c, FirstStretch.W1_v13 m ρ c]

/-- The first result. -/
theorem result0 : W7 m ρ c (Proc.devRef .tc main_v116)
    = Host.gather gather_S40000x128_S4096x1_S4096x128_1_0_n_n_0_1_1128
        (extractStridedSlice S40000x128 ![0, 0]
          (finalTable (m ((c : Thread nD τ).loc main_arg0)) (m ((c : Thread nD τ).loc main_arg1))
            (m ((c : Thread nD τ).loc main_arg2)) (m ((c : Thread nD τ).loc main_arg3)))
          Facts₀.slices_S60000x128_S40000x128_0_0)
        (wrapRows 40000#32 (m ((c : Thread nD τ).loc main_arg4))) := by
  rw [W7_main_v116 m ρ c, finalNodes_eq m ρ c, Boundaries.W6_main_arg4 m ρ c]

/-- The second result. -/
theorem result1 : W7 m ρ c (Proc.devRef .tc main_v123)
    = Host.gather gather_S20000x128_S4096x1_S4096x128_1_0_n_n_0_1_1128
        (extractStridedSlice S20000x128 ![40000, 0]
          (finalTable (m ((c : Thread nD τ).loc main_arg0)) (m ((c : Thread nD τ).loc main_arg1))
            (m ((c : Thread nD τ).loc main_arg2)) (m ((c : Thread nD τ).loc main_arg3)))
          Facts₀.slices_S60000x128_S20000x128_40000_0)
        (wrapRows 20000#32 (m ((c : Thread nD τ).loc main_arg5))) := by
  rw [W7_main_v123 m ρ c, finalNodes_eq m ρ c, Boundaries.W6_main_arg5 m ρ c]

/-- The third result. -/
theorem result2 : W7 m ρ c (Proc.devRef .tc main_v130)
    = Host.gather gather_S20000x128_S4096x1_S4096x128_1_0_n_n_0_1_1128
        (extractStridedSlice S20000x128 ![40000, 0]
          (finalTable (m ((c : Thread nD τ).loc main_arg0)) (m ((c : Thread nD τ).loc main_arg1))
            (m ((c : Thread nD τ).loc main_arg2)) (m ((c : Thread nD τ).loc main_arg3)))
          Facts₀.slices_S60000x128_S20000x128_40000_0)
        (wrapRows 20000#32 (m ((c : Thread nD τ).loc main_arg6))) := by
  rw [W7_main_v130 m ρ c, finalNodes_eq m ρ c, Boundaries.W6_main_arg6 m ρ c]

end Cert.KernelIdeal.KernelValue

end
-- ==== Proof.LibRowIndex.lean ====
/-
  Gathers and scatters that move whole rows by ONE start index per row, read at an index written by coordinates.

  An integer column `idx : [E, 1]` names, for each of `E` edges, one row of an operand with `N` rows.
  * Gathering rows of a matrix `x : [N, C]` gives `[E, C]`: element `(e, c)` is `x` at row `idx[e, 0]` — read as a signed
    integer and clamped into `[0, N - 1]` — and column `c`.
  * Gathering entries of a vector `x : [N]` gives `[E]`: element `e` is `x` at `idx[e, 0]`, read signed and clamped.
  * Scattering the rows of updates `[E, C]` into `[N, C]`: update element `(e, c)` lands in row `idx[e, 0]` read as a signed
    integer and NOT clamped (an update whose row is outside `[0, N)` is dropped). All that is stated here is the row: if
    the update lands at `i`, then `idx[e, 0]`, as a signed integer, is `i`'s row.
-/
import Idealize.ShloMosaic.Lib.ValueIdx

noncomputable section

namespace Cert.Lib.RowIndex

open Idealize.ShloMosaic Idealize.ShloMosaic.ValueIdx

variable {α : Type}

/-! ## Gathering rows of a matrix -/

/-- The dimension numbers of `x[idx]` for a matrix `x : [N, C]` and a column of row numbers `idx : [E, 1]`: the rows
    are collapsed, the columns are the offset axis, one start index per result row. -/
abbrev rowGatherDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Element `(e, c)` of the gathered rows is the matrix at the clamped row `idx[e, 0]` and column `c`. -/
theorem rowGather_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N C E wf) x idx (ix2 e c)
      = x (ix2 ⟨min (idx (ix2 e 0)).toInt.toNat (N - 1), by omega⟩ c) := by
  unfold Host.gather
  congr 1
  funext a
  refine Fin.ext ?_
  match a with
  | ⟨0, _⟩ =>
    show (rowGatherDims N C E wf).start (ix2 e c) idx 0 + (rowGatherDims N C E wf).batchCoord (ix2 e c) 0
      + (rowGatherDims N C E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C E wf).startIndexMap from List.mem_singleton.mpr rfl)]
    have hsi : (rowGatherDims N C E wf).siIdx (ix2 e c) ⟨List.idxOf (0 : Fin 2) (rowGatherDims N C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N C E wf).start (ix2 e c) idx 1 + (rowGatherDims N C E wf).batchCoord (ix2 e c) 1
      + (rowGatherDims N C E wf).offCoord (ix2 e c) 1 = c.val
    rw [GatherDims.batchCoord_eq_zero _ _ _ List.not_mem_nil]
    have hs : (rowGatherDims N C E wf).start (ix2 e c) idx 1 = 0 := by
      unfold GatherDims.start
      rw [dif_neg (show ¬ (1 : Fin 2) ∈ (rowGatherDims N C E wf).startIndexMap from
        (by decide : ¬ (1 : Fin 2) ∈ ([0] : List (Fin 2))))]
    have ho : (rowGatherDims N C E wf).offCoord (ix2 e c) 1 = c.val := by
      unfold GatherDims.offCoord
      rw [dif_pos (show (1 : Fin 2) ∈ (rowGatherDims N C E wf).sKept from
        (GatherDims.mem_sKept _ _).mpr ⟨(by decide : ¬ (1 : Fin 2) ∈ ([0] : List (Fin 2))), List.not_mem_nil⟩)]
      rfl
    rw [hs, ho]; omega

/-! ## Gathering entries of a vector -/

/-- The dimension numbers of `x[idx]` for a vector `x : [N]` and a column of positions `idx : [E, 1]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Element `e` of the gathered entries is the vector at the clamped position `idx[e, 0]`. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## Scattering rows -/

/-- The dimension numbers of `zeros.at[idx].add(u)` for updates `u : [E, C]` into `[N, C]` and a column of row numbers
    `idx : [E, 1]`: the update's columns are its window, the operand's rows are inserted, one start index per update row. -/
abbrev rowScatterDims (N C E : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- If update element `u` lands at `i`, then its row number `idx[u₀, 0]`, as a signed integer, is `i`'s row. -/
theorem rowScatter_row {N C E w : Nat}
    (wf : ScatterDims.WF ⟨2, ![N, C]⟩ ⟨2, ![E, 1]⟩ ⟨2, ![E, C]⟩ [1] [0] [0] 1)
    (idx : IVec ⟨2, ![E, 1]⟩ w) (u : (⟨2, ![E, C]⟩ : Shape).Idx) (i : (⟨2, ![N, C]⟩ : Shape).Idx)
    (h : (rowScatterDims N C E wf).resultIdx? u idx = some i) :
    (idx (ix2 (u 0) 0)).toInt = ((i 0).val : Int) := by
  have hs : (rowScatterDims N C E wf).start u idx 0 = (idx (ix2 (u 0) 0)).toInt := by
    unfold ScatterDims.start
    rw [dif_pos (show (0 : Fin 2) ∈ (rowScatterDims N C E wf).scatterDimsToOperandDims from List.mem_singleton.mpr rfl)]
    have hsi : (rowScatterDims N C E wf).siIdx u ⟨List.idxOf (0 : Fin 2) (rowScatterDims N C E wf).scatterDimsToOperandDims,
        List.idxOf_lt_length_iff.2 (List.mem_singleton.mpr rfl)⟩ = ix2 (u 0) 0 := by
      funext b; refine Fin.ext ?_
      match b with
      | ⟨0, _⟩ => rfl
      | ⟨1, _⟩ => rfl
    rw [hsi]
    rfl
  have hw : (rowScatterDims N C E wf).window u 0 = 0 := by
    unfold ScatterDims.window
    rw [dif_neg (show ¬ (0 : Fin 2) ∈ (rowScatterDims N C E wf).sKept from
      (by decide : ¬ (0 : Fin 2) ∈ (List.finRange 2).filter (fun a => a ∉ ([0] : List (Fin 2)))))]
  unfold ScatterDims.resultIdx? at h
  split at h
  · rename_i hb
    have h0 : ((rowScatterDims N C E wf).start u idx 0 + ((rowScatterDims N C E wf).window u 0 : Int)).toNat = (i 0).val :=
      congrArg (fun f : (⟨2, ![N, C]⟩ : Shape).Idx => (f 0).val) (Option.some.inj h)
    have hb0 := (hb 0).1
    rw [hs, hw] at h0 hb0
    simp only [Nat.cast_zero, add_zero] at h0 hb0
    omega
  · exact absurd h (by simp)

end Cert.Lib.RowIndex

end
-- ==== Proof.LibSlabIndex.lean ====
/-
  Scatter-adds and gathers that move whole rows or whole slabs by ONE start index per edge, read at an entry.

  An integer column `idx : [E, 1]` names, for each of `E` edges, one row of an operand with `N` rows.
  * An update element lands at a result index exactly when its start index, read as a signed integer and NOT clamped,
    is the result's row and its window coordinates are the result's remaining coordinates.
  * Hence the accumulating scatter of updates `[E, C]` into `x : [N, C]`, read at entry `(n, c)`, is `x[n, c]` plus the
    sum of `upd[e, c]` over the edges `e` whose start index is `n`; the same with slabs `[A, B]` in place of rows.
  * Gathering slabs of `x : [N, A, B]` gives `[E, A, B]`: element `(e, a, b)` is `x` at row `idx[e, 0]` — read signed and
    clamped into `[0, N - 1]` — and coordinates `(a, b)`.
-/
import Idealize.ShloMosaic.Lib.ValueIdx
import Idealize.ShloMosaic.PureOps.Ideal
import proofs.«168221_j52458730553670_2_alg».proof.Proof.LibRowIndex

noncomputable section

open scoped BigOperators

namespace Cert.Lib.SlabIndex

open Idealize.ShloMosaic Idealize.ShloMosaic.ValueIdx Cert.Lib.RowIndex

/-! ## An index with known trailing coordinates -/

/-- A rank-2 index whose column is `c` is `(j₀, c)`. -/
theorem idx2_eq_of_col {n0 n1 : Nat} (j : (⟨2, ![n0, n1]⟩ : Shape).Idx) (c : Fin n1) (h : (j 1).val = c.val) :
    j = ix2 (j 0) c := by
  funext a
  match a with
  | ⟨0, _⟩ => rfl
  | ⟨1, _⟩ => exact Fin.ext h

/-- A rank-3 index whose last two coordinates are `a` and `b` is `(j₀, a, b)`. -/
theorem idx3_eq_of_tail {n0 n1 n2 : Nat} (j : (⟨3, ![n0, n1, n2]⟩ : Shape).Idx) (a : Fin n1) (b : Fin n2)
    (ha : (j 1).val = a.val) (hb : (j 2).val = b.val) : j = ix3 (j 0) a b := by
  funext k
  match k with
  | ⟨0, _⟩ => rfl
  | ⟨1, _⟩ => exact Fin.ext ha
  | ⟨2, _⟩ => exact Fin.ext hb

/-! ## When an update lands at a result index -/

/-- An update index `j` lands at the result index `i` exactly when, on every operand axis, the start (read signed, not
    clamped) plus the window coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i hb
    constructor
    · intro hs a
      have ha : (d.start j idx a + (d.window j a : Int)).toNat = (i a).val :=
        congrArg (fun f : s.Idx => (f a).val) (Option.some.inj hs)
      have := (hb a).1
      omega
    · intro hs
      congr 1
      funext a
      refine Fin.ext ?_
      show (d.start j idx a + (d.window j a : Int)).toNat = (i a).val
      rw [hs a]
      exact Int.toNat_natCast _
  · rename_i hb
    constructor
    · intro hs
      exact absurd hs (by simp)
    · intro hs
      refine absurd (fun a => ?_) hb
      rw [hs a]
      exact ⟨Int.natCast_nonneg _, by exact_mod_cast (i a).isLt⟩

/-! ## Scattering rows -/

section Row

variable {N C E w : Nat} (wf : ScatterDims.WF ⟨2, ![N, C]⟩ ⟨2, ![E, 1]⟩ ⟨2, ![E, C]⟩ [1] [0] [0] 1)

/-- On the row axis the start of update `u` is its start index `idx[u₀, 0]`, read as a signed integer. -/
theorem rowScatter_start0 (idx : IVec ⟨2, ![E, 1]⟩ w) (u : (⟨2, ![E, C]⟩ : Shape).Idx) :
    (rowScatterDims N C E wf).start u idx 0 = (idx (ix2 (u 0) 0)).toInt := by
  unfold ScatterDims.start
  rw [dif_pos (show (0 : Fin 2) ∈ (rowScatterDims N C E wf).scatterDimsToOperandDims from List.mem_singleton.mpr rfl)]
  have hsi : (rowScatterDims N C E wf).siIdx u ⟨List.idxOf (0 : Fin 2) (rowScatterDims N C E wf).scatterDimsToOperandDims,
      List.idxOf_lt_length_iff.2 (List.mem_singleton.mpr rfl)⟩ = ix2 (u 0) 0 := by
    funext b; refine Fin.ext ?_
    match b with
    | ⟨0, _⟩ => rfl
    | ⟨1, _⟩ => rfl
  rw [hsi]
  rfl

/-- On the column axis the start is `0`: the start index names a row only. -/
theorem rowScatter_start1 (idx : IVec ⟨2, ![E, 1]⟩ w) (u : (⟨2, ![E, C]⟩ : Shape).Idx) :
    (rowScatterDims N C E wf).start u idx 1 = 0 := by
  unfold ScatterDims.start
  rw [dif_neg (show ¬ (1 : Fin 2) ∈ (rowScatterDims N C E wf).scatterDimsToOperandDims from
    (by decide : ¬ (1 : Fin 2) ∈ ([0] : List (Fin 2))))]

/-- On the row axis, an inserted one, the window coordinate is `0`. -/
theorem rowScatter_window0 (u : (⟨2, ![E, C]⟩ : Shape).Idx) : (rowScatterDims N C E wf).window u 0 = 0 := by
  unfold ScatterDims.window
  rw [dif_neg (show ¬ (0 : Fin 2) ∈ (rowScatterDims N C E wf).sKept from
    (by decide : ¬ (0 : Fin 2) ∈ (List.finRange 2).filter (fun a => a ∉ ([0] : List (Fin 2)))))]

/-- On the column axis the window coordinate is the update's column. -/
theorem rowScatter_window1 (u : (⟨2, ![E, C]⟩ : Shape).Idx) : (rowScatterDims N C E wf).window u 1 = (u 1).val := by
  unfold ScatterDims.window
  rw [dif_pos (show (1 : Fin 2) ∈ (rowScatterDims N C E wf).sKept from
    (by decide : (1 : Fin 2) ∈ (List.finRange 2).filter (fun a => a ∉ ([0] : List (Fin 2)))))]
  rfl

/-- Update element `u` lands at `i` exactly when its start index `idx[u₀, 0]`, as a signed integer, is `i`'s row and its
    column is `i`'s column. -/
theorem rowScatter_resultIdx?_iff (idx : IVec ⟨2, ![E, 1]⟩ w) (u : (⟨2, ![E, C]⟩ : Shape).Idx)
    (i : (⟨2, ![N, C]⟩ : Shape).Idx) :
    (rowScatterDims N C E wf).resultIdx? u idx = some i
      ↔ (idx (ix2 (u 0) 0)).toInt = ((i 0).val : Int) ∧ (u 1).val = (i 1).val := by
  rw [resultIdx?_eq_some_iff]
  constructor
  · intro h
    have h0 := h 0
    have h1 := h 1
    rw [rowScatter_start0, rowScatter_window0] at h0
    rw [rowScatter_start1, rowScatter_window1] at h1
    constructor
    · simpa using h0
    · exact_mod_cast (by simpa using h1 : ((u 1).val : Int) = ((i 1).val : Int))
  · rintro ⟨h0, h1⟩ a
    match a with
    | ⟨0, _⟩ =>
      show (rowScatterDims N C E wf).start u idx 0 + ((rowScatterDims N C E wf).window u 0 : Int) = ((i 0).val : Int)
      rw [rowScatter_start0, rowScatter_window0, h0]; simp
    | ⟨1, _⟩ =>
      show (rowScatterDims N C E wf).start u idx 1 + ((rowScatterDims N C E wf).window u 1 : Int) = ((i 1).val : Int)
      rw [rowScatter_start1, rowScatter_window1, h1]; simp

/-- The accumulating row scatter read at entry `(n, c)`: the operand's entry plus the sum of `upd[e, c]` over the edges
    `e` whose start index `idx[e, 0]`, as a signed integer, is `n`. -/
theorem rowScatterAdd_apply {φ : FTy} (x : FVec Ideal ⟨2, ![N, C]⟩ φ) (idx : IVec ⟨2, ![E, 1]⟩ w)
    (upd : FVec Ideal ⟨2, ![E, C]⟩ φ) (n : Fin N) (c : Fin C) :
    Host.scatterAdd (F := Ideal) (rowScatterDims N C E wf) x idx upd (ix2 n c)
      = x (ix2 n c)
        + ∑ e ∈ Finset.univ.filter (fun e : Fin E => (idx (ix2 e 0)).toInt = (n.val : Int)), upd (ix2 e c) := by
  simp only [Host.scatterAdd, Ideal.hostScatterAdd_def, Ideal.hostScatterAdd]
  congr 1
  refine Finset.sum_nbij' (fun j : (⟨2, ![E, C]⟩ : Shape).Idx => (j 0 : Fin E)) (fun e : Fin E => ix2 e c) ?_ ?_ ?_ ?_ ?_
  · intro j hj
    have hj2 := (Finset.mem_filter.mp hj).2
    exact Finset.mem_filter.mpr ⟨Finset.mem_univ _, ((rowScatter_resultIdx?_iff wf idx j (ix2 n c)).mp hj2).1⟩
  · intro e he
    have he2 := (Finset.mem_filter.mp he).2
    exact Finset.mem_filter.mpr ⟨Finset.mem_univ _,
      (rowScatter_resultIdx?_iff wf idx (ix2 e c) (ix2 n c)).mpr ⟨he2, rfl⟩⟩
  · intro j hj
    have hj2 := (Finset.mem_filter.mp hj).2
    exact (idx2_eq_of_col j c ((rowScatter_resultIdx?_iff wf idx j (ix2 n c)).mp hj2).2).symm
  · intro e _
    rfl
  · intro j hj
    have hj2 := (Finset.mem_filter.mp hj).2
    exact congrArg upd (idx2_eq_of_col j c ((rowScatter_resultIdx?_iff wf idx j (ix2 n c)).mp hj2).2)

/-- The same read for any dimension numbers `D` equal to the row scatter's. -/
theorem rowScatterAdd_apply_of_eq {φ : FTy} (D : ScatterDims ⟨2, ![N, C]⟩ ⟨2, ![E, 1]⟩ ⟨2, ![E, C]⟩)
    (hD : D = rowScatterDims N C E wf) (x : FVec Ideal ⟨2, ![N, C]⟩ φ) (idx : IVec ⟨2, ![E, 1]⟩ w)
    (upd : FVec Ideal ⟨2, ![E, C]⟩ φ) (n : Fin N) (c : Fin C) :
    Host.scatterAdd (F := Ideal) D x idx upd (ix2 n c)
      = x (ix2 n c)
        + ∑ e ∈ Finset.univ.filter (fun e : Fin E => (idx (ix2 e 0)).toInt = (n.val : Int)), upd (ix2 e c) := by
  subst hD
  exact rowScatterAdd_apply wf x idx upd n c

end Row

/-! ## Scattering slabs -/

/-- The dimension numbers of `zeros.at[idx].add(u)` for updates `u : [E, A, B]` into `[N, A, B]` and a column of row
    numbers `idx : [E, 1]`: the update's last two axes are its window, the operand's rows are inserted, one start
    index per update slab. -/
abbrev slabScatterDims (N A B E : Nat)
    (wf : ScatterDims.WF ⟨3, ![N, A, B]⟩ ⟨2, ![E, 1]⟩ ⟨3, ![E, A, B]⟩ [1, 2] [0] [0] 1) :
    ScatterDims ⟨3, ![N, A, B]⟩ ⟨2, ![E, 1]⟩ ⟨3, ![E, A, B]⟩ where
  updateWindowDims := [1, 2]
  insertedWindowDims := [0]
  scatterDimsToOperandDims := [0]
  indexVectorDim := 1
  wf := wf

section Slab

variable {N A B E w : Nat} (wf : ScatterDims.WF ⟨3, ![N, A, B]⟩ ⟨2, ![E, 1]⟩ ⟨3, ![E, A, B]⟩ [1, 2] [0] [0] 1)

/-- On the row axis the start of update `u` is its start index `idx[u₀, 0]`, read as a signed integer. -/
theorem slabScatter_start0 (idx : IVec ⟨2, ![E, 1]⟩ w) (u : (⟨3, ![E, A, B]⟩ : Shape).Idx) :
    (slabScatterDims N A B E wf).start u idx 0 = (idx (ix2 (u 0) 0)).toInt := by
  unfold ScatterDims.start
  rw [dif_pos (show (0 : Fin 3) ∈ (slabScatterDims N A B E wf).scatterDimsToOperandDims from List.mem_singleton.mpr rfl)]
  have hsi : (slabScatterDims N A B E wf).siIdx u ⟨List.idxOf (0 : Fin 3) (slabScatterDims N A B E wf).scatterDimsToOperandDims,
      List.idxOf_lt_length_iff.2 (List.mem_singleton.mpr rfl)⟩ = ix2 (u 0) 0 := by
    funext b; refine Fin.ext ?_
    match b with
    | ⟨0, _⟩ => rfl
    | ⟨1, _⟩ => rfl
  rw [hsi]
  rfl

/-- On the two slab axes the start is `0`: the start index names a row only. -/
theorem slabScatter_start1 (idx : IVec ⟨2, ![E, 1]⟩ w) (u : (⟨3, ![E, A, B]⟩ : Shape).Idx) :
    (slabScatterDims N A B E wf).start u idx 1 = 0 := by
  unfold ScatterDims.start
  rw [dif_neg (show ¬ (1 : Fin 3) ∈ (slabScatterDims N A B E wf).scatterDimsToOperandDims from
    (by decide : ¬ (1 : Fin 3) ∈ ([0] : List (Fin 3))))]

/-- On the two slab axes the start is `0`: the start index names a row only. -/
theorem slabScatter_start2 (idx : IVec ⟨2, ![E, 1]⟩ w) (u : (⟨3, ![E, A, B]⟩ : Shape).Idx) :
    (slabScatterDims N A B E wf).start u idx 2 = 0 := by
  unfold ScatterDims.start
  rw [dif_neg (show ¬ (2 : Fin 3) ∈ (slabScatterDims N A B E wf).scatterDimsToOperandDims from
    (by decide : ¬ (2 : Fin 3) ∈ ([0] : List (Fin 3))))]

/-- On the row axis, an inserted one, the window coordinate is `0`. -/
theorem slabScatter_window0 (u : (⟨3, ![E, A, B]⟩ : Shape).Idx) : (slabScatterDims N A B E wf).window u 0 = 0 := by
  unfold ScatterDims.window
  rw [dif_neg (show ¬ (0 : Fin 3) ∈ (slabScatterDims N A B E wf).sKept from
    (by decide : ¬ (0 : Fin 3) ∈ (List.finRange 3).filter (fun a => a ∉ ([0] : List (Fin 3)))))]

/-- On the first slab axis the window coordinate is the update's second coordinate. -/
theorem slabScatter_window1 (u : (⟨3, ![E, A, B]⟩ : Shape).Idx) :
    (slabScatterDims N A B E wf).window u 1 = (u 1).val := by
  unfold ScatterDims.window
  rw [dif_pos (show (1 : Fin 3) ∈ (slabScatterDims N A B E wf).sKept from
    (by decide : (1 : Fin 3) ∈ (List.finRange 3).filter (fun a => a ∉ ([0] : List (Fin 3)))))]
  rfl

/-- On the second slab axis the window coordinate is the update's third coordinate. -/
theorem slabScatter_window2 (u : (⟨3, ![E, A, B]⟩ : Shape).Idx) :
    (slabScatterDims N A B E wf).window u 2 = (u 2).val := by
  unfold ScatterDims.window
  rw [dif_pos (show (2 : Fin 3) ∈ (slabScatterDims N A B E wf).sKept from
    (by decide : (2 : Fin 3) ∈ (List.finRange 3).filter (fun a => a ∉ ([0] : List (Fin 3)))))]
  rfl

/-- Update element `u` lands at `i` exactly when its start index `idx[u₀, 0]`, as a signed integer, is `i`'s row and its
    two slab coordinates are `i`'s. -/
theorem slabScatter_resultIdx?_iff (idx : IVec ⟨2, ![E, 1]⟩ w) (u : (⟨3, ![E, A, B]⟩ : Shape).Idx)
    (i : (⟨3, ![N, A, B]⟩ : Shape).Idx) :
    (slabScatterDims N A B E wf).resultIdx? u idx = some i
      ↔ (idx (ix2 (u 0) 0)).toInt = ((i 0).val : Int) ∧ (u 1).val = (i 1).val ∧ (u 2).val = (i 2).val := by
  rw [resultIdx?_eq_some_iff]
  constructor
  · intro h
    have h0 := h 0
    have h1 := h 1
    have h2 := h 2
    rw [slabScatter_start0, slabScatter_window0] at h0
    rw [slabScatter_start1, slabScatter_window1] at h1
    rw [slabScatter_start2, slabScatter_window2] at h2
    refine ⟨?_, ?_, ?_⟩
    · simpa using h0
    · exact_mod_cast (by simpa using h1 : ((u 1).val : Int) = ((i 1).val : Int))
    · exact_mod_cast (by simpa using h2 : ((u 2).val : Int) = ((i 2).val : Int))
  · rintro ⟨h0, h1, h2⟩ a
    match a with
    | ⟨0, _⟩ =>
      show (slabScatterDims N A B E wf).start u idx 0 + ((slabScatterDims N A B E wf).window u 0 : Int) = ((i 0).val : Int)
      rw [slabScatter_start0, slabScatter_window0, h0]; simp
    | ⟨1, _⟩ =>
      show (slabScatterDims N A B E wf).start u idx 1 + ((slabScatterDims N A B E wf).window u 1 : Int) = ((i 1).val : Int)
      rw [slabScatter_start1, slabScatter_window1, h1]; simp
    | ⟨2, _⟩ =>
      show (slabScatterDims N A B E wf).start u idx 2 + ((slabScatterDims N A B E wf).window u 2 : Int) = ((i 2).val : Int)
      rw [slabScatter_start2, slabScatter_window2, h2]; simp

/-- The accumulating slab scatter read at entry `(n, a, b)`: the operand's entry plus the sum of `upd[e, a, b]` over
    the edges `e` whose start index `idx[e, 0]`, as a signed integer, is `n`. -/
theorem slabScatterAdd_apply {φ : FTy} (x : FVec Ideal ⟨3, ![N, A, B]⟩ φ) (idx : IVec ⟨2, ![E, 1]⟩ w)
    (upd : FVec Ideal ⟨3, ![E, A, B]⟩ φ) (n : Fin N) (a : Fin A) (b : Fin B) :
    Host.scatterAdd (F := Ideal) (slabScatterDims N A B E wf) x idx upd (ix3 n a b)
      = x (ix3 n a b)
        + ∑ e ∈ Finset.univ.filter (fun e : Fin E => (idx (ix2 e 0)).toInt = (n.val : Int)), upd (ix3 e a b) := by
  simp only [Host.scatterAdd, Ideal.hostScatterAdd_def, Ideal.hostScatterAdd]
  congr 1
  refine Finset.sum_nbij' (fun j : (⟨3, ![E, A, B]⟩ : Shape).Idx => (j 0 : Fin E)) (fun e : Fin E => ix3 e a b)
    ?_ ?_ ?_ ?_ ?_
  · intro j hj
    have hj2 := (Finset.mem_filter.mp hj).2
    exact Finset.mem_filter.mpr ⟨Finset.mem_univ _, ((slabScatter_resultIdx?_iff wf idx j (ix3 n a b)).mp hj2).1⟩
  · intro e he
    have he2 := (Finset.mem_filter.mp he).2
    exact Finset.mem_filter.mpr ⟨Finset.mem_univ _,
      (slabScatter_resultIdx?_iff wf idx (ix3 e a b) (ix3 n a b)).mpr ⟨he2, rfl, rfl⟩⟩
  · intro j hj
    have hj2 := (slabScatter_resultIdx?_iff wf idx j (ix3 n a b)).mp (Finset.mem_filter.mp hj).2
    exact (idx3_eq_of_tail j a b hj2.2.1 hj2.2.2).symm
  · intro e _
    rfl
  · intro j hj
    have hj2 := (slabScatter_resultIdx?_iff wf idx j (ix3 n a b)).mp (Finset.mem_filter.mp hj).2
    exact congrArg upd (idx3_eq_of_tail j a b hj2.2.1 hj2.2.2)

/-- The same read for any dimension numbers `D` equal to the slab scatter's. -/
theorem slabScatterAdd_apply_of_eq {φ : FTy} (D : ScatterDims ⟨3, ![N, A, B]⟩ ⟨2, ![E, 1]⟩ ⟨3, ![E, A, B]⟩)
    (hD : D = slabScatterDims N A B E wf) (x : FVec Ideal ⟨3, ![N, A, B]⟩ φ) (idx : IVec ⟨2, ![E, 1]⟩ w)
    (upd : FVec Ideal ⟨3, ![E, A, B]⟩ φ) (n : Fin N) (a : Fin A) (b : Fin B) :
    Host.scatterAdd (F := Ideal) D x idx upd (ix3 n a b)
      = x (ix3 n a b)
        + ∑ e ∈ Finset.univ.filter (fun e : Fin E => (idx (ix2 e 0)).toInt = (n.val : Int)), upd (ix3 e a b) := by
  subst hD
  exact slabScatterAdd_apply wf x idx upd n a b

end Slab

/-! ## Gathering slabs -/

/-- The dimension numbers of `x[idx]` for `x : [N, A, B]` and a column of row numbers `idx : [E, 1]`: the rows are
    collapsed, the two slab axes are the offset axes, one start index per result slab. -/
abbrev slabGatherDims (N A B E : Nat)
    (wf : GatherDims.WF ⟨3, ![N, A, B]⟩ ⟨2, ![E, 1]⟩ ⟨3, ![E, A, B]⟩ [1, 2] [0] [] [0] [] 1 ![1, A, B]) :
    GatherDims ⟨3, ![N, A, B]⟩ ⟨2, ![E, 1]⟩ ⟨3, ![E, A, B]⟩ where
  offsetDims := [1, 2]
  collapsedSliceDims := [0]
  operandBatchingDims := []
  startIndicesBatchingDims := []
  startIndexMap := [0]
  indexVectorDim := 1
  sliceSizes := ![1, A, B]
  wf := wf

/-- Element `(e, a, b)` of the gathered slabs is the operand at the clamped row `idx[e, 0]` and coordinates `(a, b)`. -/
theorem slabGather_apply {α : Type} {N A B E w : Nat} (hN : 0 < N)
    (wf : GatherDims.WF ⟨3, ![N, A, B]⟩ ⟨2, ![E, 1]⟩ ⟨3, ![E, A, B]⟩ [1, 2] [0] [] [0] [] 1 ![1, A, B])
    (x : (⟨3, ![N, A, B]⟩ : Shape).Idx → α) (idx : IVec ⟨2, ![E, 1]⟩ w) (e : Fin E) (a : Fin A) (b : Fin B) :
    Host.gather (slabGatherDims N A B E wf) x idx (ix3 e a b)
      = x (ix3 ⟨min (idx (ix2 e 0)).toInt.toNat (N - 1), by omega⟩ a b) := by
  unfold Host.gather
  congr 1
  funext k
  refine Fin.ext ?_
  match k with
  | ⟨0, _⟩ =>
    show (slabGatherDims N A B E wf).start (ix3 e a b) idx 0 + (slabGatherDims N A B E wf).batchCoord (ix3 e a b) 0
      + (slabGatherDims N A B E wf).offCoord (ix3 e a b) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (slabGatherDims N A B E wf).startIndexMap from List.mem_singleton.mpr rfl)]
    have hsi : (slabGatherDims N A B E wf).siIdx (ix3 e a b) ⟨List.idxOf (0 : Fin 3) (slabGatherDims N A B E wf).startIndexMap,
        List.idxOf_lt_length_iff.2 (List.mem_singleton.mpr rfl)⟩ = ix2 e 0 := by
      funext c; refine Fin.ext ?_
      match c with
      | ⟨0, _⟩ => rfl
      | ⟨1, _⟩ => rfl
    rw [hsi]
    rfl
  | ⟨1, _⟩ =>
    show (slabGatherDims N A B E wf).start (ix3 e a b) idx 1 + (slabGatherDims N A B E wf).batchCoord (ix3 e a b) 1
      + (slabGatherDims N A B E wf).offCoord (ix3 e a b) 1 = a.val
    rw [GatherDims.batchCoord_eq_zero _ _ _ List.not_mem_nil]
    have hs : (slabGatherDims N A B E wf).start (ix3 e a b) idx 1 = 0 := by
      unfold GatherDims.start
      rw [dif_neg (show ¬ (1 : Fin 3) ∈ (slabGatherDims N A B E wf).startIndexMap from
        (by decide : ¬ (1 : Fin 3) ∈ ([0] : List (Fin 3))))]
    have ho : (slabGatherDims N A B E wf).offCoord (ix3 e a b) 1 = a.val := by
      unfold GatherDims.offCoord
      rw [dif_pos (show (1 : Fin 3) ∈ (slabGatherDims N A B E wf).sKept from
        (GatherDims.mem_sKept _ _).mpr ⟨(by decide : ¬ (1 : Fin 3) ∈ ([0] : List (Fin 3))), List.not_mem_nil⟩)]
      rfl
    rw [hs, ho]; omega
  | ⟨2, _⟩ =>
    show (slabGatherDims N A B E wf).start (ix3 e a b) idx 2 + (slabGatherDims N A B E wf).batchCoord (ix3 e a b) 2
      + (slabGatherDims N A B E wf).offCoord (ix3 e a b) 2 = b.val
    rw [GatherDims.batchCoord_eq_zero _ _ _ List.not_mem_nil]
    have hs : (slabGatherDims N A B E wf).start (ix3 e a b) idx 2 = 0 := by
      unfold GatherDims.start
      rw [dif_neg (show ¬ (2 : Fin 3) ∈ (slabGatherDims N A B E wf).startIndexMap from
        (by decide : ¬ (2 : Fin 3) ∈ ([0] : List (Fin 3))))]
    have ho : (slabGatherDims N A B E wf).offCoord (ix3 e a b) 2 = b.val := by
      unfold GatherDims.offCoord
      rw [dif_pos (show (2 : Fin 3) ∈ (slabGatherDims N A B E wf).sKept from
        (GatherDims.mem_sKept _ _).mpr ⟨(by decide : ¬ (2 : Fin 3) ∈ ([0] : List (Fin 3))), List.not_mem_nil⟩)]
      rfl
    rw [hs, ho]; omega

/-- The same read for any dimension numbers `D` equal to the slab gather's. -/
theorem slabGather_apply_of_eq {α : Type} {N A B E w : Nat} (hN : 0 < N)
    (wf : GatherDims.WF ⟨3, ![N, A, B]⟩ ⟨2, ![E, 1]⟩ ⟨3, ![E, A, B]⟩ [1, 2] [0] [] [0] [] 1 ![1, A, B])
    (D : GatherDims ⟨3, ![N, A, B]⟩ ⟨2, ![E, 1]⟩ ⟨3, ![E, A, B]⟩) (hD : D = slabGatherDims N A B E wf)
    (x : (⟨3, ![N, A, B]⟩ : Shape).Idx → α) (idx : IVec ⟨2, ![E, 1]⟩ w) (e : Fin E) (a : Fin A) (b : Fin B) :
    Host.gather D x idx (ix3 e a b)
      = x (ix3 ⟨min (idx (ix2 e 0)).toInt.toNat (N - 1), by omega⟩ a b) := by
  subst hD
  exact slabGather_apply hN wf x idx e a b

end Cert.Lib.SlabIndex

end
-- ==== Proof.FactorChunks.lean ====
/-
  The reference keeps every node's 128-wide embedding as four factor chunks of 32 lanes: arrays of
  shape [60000, 4, 32] and, per edge, [1200000, 4, 32]. This module reads the reference's chunked
  operations AT AN INDEX, over variables of the literal array types: lane `q` of chunk `f` of row `n`
  is column `32 f + q` of the flat row; a per-chunk weight broadcast over the lanes multiplies every lane
  of its chunk; the l2 normalization of a chunk divides each lane by the larger of the chunk's euclidean
  norm and a floor constant; a sum over the lane axis is the sum over the 32 lanes of the chunk.
  Every side condition of a shape operation is a hypothesis of the lemma, so a lemma applies to the
  operation with whatever witness the program cites.
-/
import proofs.«168221_j52458730553670_2_alg».proof.ReferenceIdeal
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

open scoped BigOperators

namespace Cert.ReferenceIdeal.FactorChunks

open Idealize.ShloMosaic Idealize.ShloMosaic.ValueIdx Cert.ReferenceIdeal

/-! ## The flat row and its four chunks -/

/-- Lane `q` of factor chunk `f` is column `32 f + q` of the 128-wide row. -/
abbrev col (f : Fin 4) (q : Fin 32) : Fin 128 := ⟨32 * f.val + q.val, by omega⟩

/-- The flat [60000, 128] array reshaped to [60000, 4, 32] reads, at row `n`, chunk `f`, lane `q`, the flat array
    at row `n`, column `32 f + q`: both indices have row-major position `128 n + 32 f + q`. -/
theorem reshape_chunks_apply (x : FVec Ideal S60000x128 .f32) (h : S60000x128.ShapeCasts S60000x4x32)
    (n : Fin 60000) (f : Fin 4) (q : Fin 32) :
    shapeCast S60000x4x32 x h (ix3 n f q) = x (ix2 n (col f q)) :=
  shapeCast_apply x h _ _ (by
    rw [Shape.rowMajor_val_two, Shape.rowMajor_val_three]
    show n.val * 128 + (32 * f.val + q.val) = (n.val * 4 + f.val) * 32 + q.val
    omega)

/-- The chunked [60000, 4, 32] array reshaped back to [60000, 128] reads, at row `n`, column `32 f + q`, the
    chunked array at row `n`, chunk `f`, lane `q`. -/
theorem reshape_flat_apply (y : FVec Ideal S60000x4x32 .f32) (h : S60000x4x32.ShapeCasts S60000x128)
    (n : Fin 60000) (f : Fin 4) (q : Fin 32) :
    shapeCast S60000x128 y h (ix2 n (col f q)) = y (ix3 n f q) :=
  shapeCast_apply y h _ _ (by
    rw [Shape.rowMajor_val_three, Shape.rowMajor_val_two]
    show (n.val * 4 + f.val) * 32 + q.val = n.val * 128 + (32 * f.val + q.val)
    omega)

/-! ## Elementwise host functions at an index -/

/-- The host's hyperbolic tangent at an index is the extended reals' `tanh` of the element. -/
theorem hostTanh_apply {s : Shape} {φ : FTy} (z : FVec Ideal s φ) (i : s.Idx) : Host.tanh z i = Ideal.tanh (z i) := rfl

/-- The host's square root at an index is the extended reals' `sqrt` of the element. -/
theorem hostSqrt_apply {s : Shape} {φ : FTy} (z : FVec Ideal s φ) (i : s.Idx) : Host.sqrt z i = Ideal.sqrt (z i) := rfl

/-! ## The sum over the lanes of a chunk -/

/-- Over edge `e` and chunk `f`, the index of the lane sum's source whose lane coordinate is `q` is `(e, f, q)`. -/
theorem lift_lane (hr : S1200000x4x32.Reduces [2] S1200000x4) (e : Fin 1200000) (f : Fin 4) (q : Fin 32) :
    hr.lift (ix2 e f) q = ix3 e f q := by
  funext c
  match c with
  | ⟨0, _⟩ => exact Fin.ext rfl
  | ⟨1, _⟩ => exact Fin.ext rfl
  | ⟨2, _⟩ => exact Fin.ext rfl

/-- The host's sum over axis 2 of a [1200000, 4, 32] array, at edge `e` and chunk `f`, is the initial value plus the
    sum of the 32 lanes of that chunk. -/
theorem laneSum_apply (u : FVec Ideal S1200000x4x32 .f32) (init : FVec Ideal S_ .f32)
    (h : S1200000x4x32.ReducesTo [2] S1200000x4) (hu : 0 < S_.numel) (e : Fin 1200000) (f : Fin 4) :
    Host.reduceAdd u init h hu (ix2 e f) = init ix0 + ∑ q : Fin 32, u (ix3 e f q) := by
  have hr : S1200000x4x32.Reduces [2] S1200000x4 := ⟨h.1, Nat.succ_pos _, h.2⟩
  rw [hostReduceAdd_apply, Ideal.hostReduceAdd_single h hr, eq_ix0 (Shape.Idx.first hu)]
  show init ix0 + ∑ q : Fin 32, u (hr.lift (ix2 e f) q) = _
  simp only [lift_lane]

/-! ## A per-chunk value broadcast over the lanes -/

/-- A [1200000, 4] array given a trailing unit axis reads, at `(e, f, 0)`, the array at `(e, f)`. -/
theorem keepdims_apply (w : FVec Ideal S1200000x4 .f32)
    (h : S1200000x4.BroadcastsInDim S1200000x4x1 (![0, 1] : Fin 2 → Fin S1200000x4x1.rank))
    (e : Fin 1200000) (f : Fin 4) (z : Fin 1) :
    broadcastInDim S1200000x4x1 (![0, 1] : Fin 2 → Fin S1200000x4x1.rank) h w (ix3 e f z) = w (ix2 e f) :=
  broadcastInDim_apply _ h w (ix3 e f z) (ix2 e f) (fun a => match a with
    | ⟨0, _⟩ => by show e.val = if (1200000 : ℕ) = 1 then 0 else e.val; rw [if_neg (by omega)]
    | ⟨1, _⟩ => by show f.val = if (4 : ℕ) = 1 then 0 else f.val; rw [if_neg (by omega)])

/-- A [1200000, 4, 1] array broadcast over 32 lanes reads, at `(e, f, q)`, the array at `(e, f, 0)`. -/
theorem lanes_apply (v : FVec Ideal S1200000x4x1 .f32)
    (h : S1200000x4x1.BroadcastsInDim S1200000x4x32 (![0, 1, 2] : Fin 3 → Fin S1200000x4x32.rank))
    (e : Fin 1200000) (f : Fin 4) (q : Fin 32) :
    broadcastInDim S1200000x4x32 (![0, 1, 2] : Fin 3 → Fin S1200000x4x32.rank) h v (ix3 e f q) = v (ix3 e f (0 : Fin 1)) :=
  broadcastInDim_apply _ h v (ix3 e f q) (ix3 e f (0 : Fin 1)) (fun a => match a with
    | ⟨0, _⟩ => by show e.val = if (1200000 : ℕ) = 1 then 0 else e.val; rw [if_neg (by omega)]
    | ⟨1, _⟩ => by show f.val = if (4 : ℕ) = 1 then 0 else f.val; rw [if_neg (by omega)]
    | ⟨2, _⟩ => by show (0 : ℕ) = if (1 : ℕ) = 1 then 0 else q.val; rw [if_pos rfl])

/-- A per-chunk weight [1200000, 4], given a trailing unit axis and then broadcast over the 32 lanes, reads at
    `(e, f, q)` the weight of chunk `f` of edge `e`. -/
theorem chunkWeight_apply (w : FVec Ideal S1200000x4 .f32)
    (h1 : S1200000x4.BroadcastsInDim S1200000x4x1 (![0, 1] : Fin 2 → Fin S1200000x4x1.rank))
    (h2 : S1200000x4x1.BroadcastsInDim S1200000x4x32 (![0, 1, 2] : Fin 3 → Fin S1200000x4x32.rank))
    (e : Fin 1200000) (f : Fin 4) (q : Fin 32) :
    broadcastInDim S1200000x4x32 (![0, 1, 2] : Fin 3 → Fin S1200000x4x32.rank) h2
      (broadcastInDim S1200000x4x1 (![0, 1] : Fin 2 → Fin S1200000x4x1.rank) h1 w) (ix3 e f q) = w (ix2 e f) := by
  rw [lanes_apply, keepdims_apply]

/-- An edge's gathered chunk times its per-chunk weight: at `(e, f, q)` the lane times the weight of chunk `f`. -/
theorem weightedChunk_apply (a : FVec Ideal S1200000x4x32 .f32) (w : FVec Ideal S1200000x4 .f32)
    (h1 : S1200000x4.BroadcastsInDim S1200000x4x1 (![0, 1] : Fin 2 → Fin S1200000x4x1.rank))
    (h2 : S1200000x4x1.BroadcastsInDim S1200000x4x32 (![0, 1, 2] : Fin 3 → Fin S1200000x4x32.rank))
    (e : Fin 1200000) (f : Fin 4) (q : Fin 32) :
    mulf a (broadcastInDim S1200000x4x32 (![0, 1, 2] : Fin 3 → Fin S1200000x4x32.rank) h2
      (broadcastInDim S1200000x4x1 (![0, 1] : Fin 2 → Fin S1200000x4x1.rank) h1 w)) (ix3 e f q)
      = a (ix3 e f q) * w (ix2 e f) := by
  rw [mulf_apply, chunkWeight_apply]

/-! ## The l2 normalization of a chunk -/

/-- `x / max(sqrt(sum(x * x, lanes)), floor)` as the reference composes it over the chunked edge array: the squares,
    their sum over the lane axis from the zero constant, the trailing unit axis put back, the square root, the maximum
    with the broadcast floor constant, the broadcast over the 32 lanes, the quotient. -/
def normalizeChunks (y : FVec Ideal S1200000x4x32 .f32)
    (hr : S1200000x4x32.ReducesTo [2] S1200000x4) (hu : 0 < S_.numel)
    (h1 : S1200000x4.BroadcastsInDim S1200000x4x1 (![0, 1] : Fin 2 → Fin S1200000x4x1.rank))
    (hc : S_.BroadcastsInDim S1200000x4x1 (![] : Fin 0 → Fin S1200000x4x1.rank))
    (h2 : S1200000x4x1.BroadcastsInDim S1200000x4x32 (![0, 1, 2] : Fin 3 → Fin S1200000x4x32.rank)) :
    FVec Ideal S1200000x4x32 .f32 :=
  Host.divf (F := Ideal) y
    (broadcastInDim S1200000x4x32 (![0, 1, 2] : Fin 3 → Fin S1200000x4x32.rank) h2
      (maximumf (F := Ideal)
        (Host.sqrt (F := Ideal)
          (broadcastInDim S1200000x4x1 (![0, 1] : Fin 2 → Fin S1200000x4x1.rank) h1
            (Host.reduceAdd (mulf (F := Ideal) y y) (constant (F := Ideal) S_ .f32 0x00000000#32) hr hu)))
        (broadcastInDim S1200000x4x1 (![] : Fin 0 → Fin S1200000x4x1.rank) hc
          (constant (F := Ideal) S_ .f32 0x2B8CBCCC#32))))

/-- The composed term at `(e, f, q)`: lane `q` of chunk `f` divided by the larger of the square root of the
    chunk's sum of squares (from the zero word) and the floor constant. -/
theorem l2normalize_apply (y : FVec Ideal S1200000x4x32 .f32)
    (hr : S1200000x4x32.ReducesTo [2] S1200000x4) (hu : 0 < S_.numel)
    (h1 : S1200000x4.BroadcastsInDim S1200000x4x1 (![0, 1] : Fin 2 → Fin S1200000x4x1.rank))
    (hc : S_.BroadcastsInDim S1200000x4x1 (![] : Fin 0 → Fin S1200000x4x1.rank))
    (h2 : S1200000x4x1.BroadcastsInDim S1200000x4x32 (![0, 1, 2] : Fin 3 → Fin S1200000x4x32.rank))
    (e : Fin 1200000) (f : Fin 4) (q : Fin 32) :
    Host.divf (F := Ideal) y
      (broadcastInDim S1200000x4x32 (![0, 1, 2] : Fin 3 → Fin S1200000x4x32.rank) h2
        (maximumf (F := Ideal)
          (Host.sqrt (F := Ideal)
            (broadcastInDim S1200000x4x1 (![0, 1] : Fin 2 → Fin S1200000x4x1.rank) h1
              (Host.reduceAdd (mulf (F := Ideal) y y) (constant (F := Ideal) S_ .f32 0x00000000#32) hr hu)))
          (broadcastInDim S1200000x4x1 (![] : Fin 0 → Fin S1200000x4x1.rank) hc
            (constant (F := Ideal) S_ .f32 0x2B8CBCCC#32)))) (ix3 e f q)
      = Ideal.div (y (ix3 e f q))
          (max (Ideal.sqrt (Ideal.ofBits .f32 0x00000000#32 + ∑ q' : Fin 32, y (ix3 e f q') * y (ix3 e f q')))
            (Ideal.ofBits .f32 0x2B8CBCCC#32)) := by
  rw [hostDivf_apply, lanes_apply, maximumf_apply, hostSqrt_apply, keepdims_apply, laneSum_apply,
    broadcastInDim_scalar_apply, constant_apply, constant_apply]
  rfl

/-- The same with the zero word read as the extended real zero: the divisor is the larger of the chunk's euclidean
    norm and the floor constant. -/
theorem l2normalize_apply' (y : FVec Ideal S1200000x4x32 .f32)
    (hr : S1200000x4x32.ReducesTo [2] S1200000x4) (hu : 0 < S_.numel)
    (h1 : S1200000x4.BroadcastsInDim S1200000x4x1 (![0, 1] : Fin 2 → Fin S1200000x4x1.rank))
    (hc : S_.BroadcastsInDim S1200000x4x1 (![] : Fin 0 → Fin S1200000x4x1.rank))
    (h2 : S1200000x4x1.BroadcastsInDim S1200000x4x32 (![0, 1, 2] : Fin 3 → Fin S1200000x4x32.rank))
    (e : Fin 1200000) (f : Fin 4) (q : Fin 32) :
    Host.divf (F := Ideal) y
      (broadcastInDim S1200000x4x32 (![0, 1, 2] : Fin 3 → Fin S1200000x4x32.rank) h2
        (maximumf (F := Ideal)
          (Host.sqrt (F := Ideal)
            (broadcastInDim S1200000x4x1 (![0, 1] : Fin 2 → Fin S1200000x4x1.rank) h1
              (Host.reduceAdd (mulf (F := Ideal) y y) (constant (F := Ideal) S_ .f32 0x00000000#32) hr hu)))
          (broadcastInDim S1200000x4x1 (![] : Fin 0 → Fin S1200000x4x1.rank) hc
            (constant (F := Ideal) S_ .f32 0x2B8CBCCC#32)))) (ix3 e f q)
      = Ideal.div (y (ix3 e f q))
          (max (Ideal.sqrt (∑ q' : Fin 32, y (ix3 e f q') * y (ix3 e f q')))
            (Ideal.ofBits .f32 0x2B8CBCCC#32)) := by
  rw [l2normalize_apply, Ideal.ofBits_zero_f32, zero_add]

/-- The named form of the composed term at `(e, f, q)`. -/
theorem normalizeChunks_apply (y : FVec Ideal S1200000x4x32 .f32)
    (hr : S1200000x4x32.ReducesTo [2] S1200000x4) (hu : 0 < S_.numel)
    (h1 : S1200000x4.BroadcastsInDim S1200000x4x1 (![0, 1] : Fin 2 → Fin S1200000x4x1.rank))
    (hc : S_.BroadcastsInDim S1200000x4x1 (![] : Fin 0 → Fin S1200000x4x1.rank))
    (h2 : S1200000x4x1.BroadcastsInDim S1200000x4x32 (![0, 1, 2] : Fin 3 → Fin S1200000x4x32.rank))
    (e : Fin 1200000) (f : Fin 4) (q : Fin 32) :
    normalizeChunks y hr hu h1 hc h2 (ix3 e f q)
      = Ideal.div (y (ix3 e f q))
          (max (Ideal.sqrt (∑ q' : Fin 32, y (ix3 e f q') * y (ix3 e f q')))
            (Ideal.ofBits .f32 0x2B8CBCCC#32)) := by
  unfold normalizeChunks
  exact l2normalize_apply' y hr hu h1 hc h2 e f q

end Cert.ReferenceIdeal.FactorChunks

end
-- ==== Proof.EdgeLayer.lean ====
/-
  One propagation layer's aggregation, on the kernel's side and on the reference's side.

  Every edge `e` has a head node (where its value is added, the start index read as a signed integer and not
  clamped) and a tail node (whose embedding row it reads, the start index clamped into the 60000 rows).  The kernel
  keeps an embedding as a flat row of 128 columns: it gathers the tail rows, weights column `c` of edge `e` by the
  edge's weight for the factor `c / 32`, and adds the rows into the head nodes.  The reference keeps an embedding as
  four chunks of 32 lanes: it gathers the tail slabs, weights chunk `f` by the edge's weight for `f` broadcast over
  the lanes, adds the slabs into the head nodes and flattens.  At row `n`, column `32 f + q` both are the zero word
  plus the sum, over the edges whose head is `n`, of the tail row's entry at column `32 f + q` times the edge's
  weight for factor `f`: the same terms over the same set of edges, so no law of arithmetic is needed.
-/
import proofs.«168221_j52458730553670_2_alg».proof.KernelIdeal
import proofs.«168221_j52458730553670_2_alg».proof.ReferenceIdeal
import proofs.«168221_j52458730553670_2_alg».proof.Proof.LibRowIndex
import proofs.«168221_j52458730553670_2_alg».proof.Proof.LibSlabIndex
import proofs.«168221_j52458730553670_2_alg».proof.Proof.BodyEntries
import proofs.«168221_j52458730553670_2_alg».proof.Proof.FactorChunks
import proofs.«168221_j52458730553670_2_alg».proof.Proof.KernelForms
import Idealize.ShloMosaic.Lib.ValueIdx
import Idealize.ShloMosaic.Lib.IdealHost

noncomputable section

open scoped BigOperators

namespace Cert.Agreement.EdgeLayer

open Idealize.ShloMosaic Idealize.ShloMosaic.ValueIdx
open Cert.Lib.RowIndex Cert.Lib.SlabIndex
open Cert.KernelIdeal.BodyEntries (factorOf lane)
open Cert.ReferenceIdeal.FactorChunks (col)

variable [Cert.ReferenceIdeal.Facts] [Cert.KernelIdeal.Facts]

/-! ## Columns, lanes and factors -/

/-- Column `32 f + q` is lane `q` of factor `f`, under either name. -/
theorem col_eq_lane (f : Fin 4) (q : Fin 32) : col f q = lane f q := rfl

/-- Column `32 f + q` belongs to factor `f`. -/
theorem factorOf_col (f : Fin 4) (q : Fin 32) : factorOf (col f q) = f :=
  Fin.ext (by show (32 * f.val + q.val) / 32 = f.val; omega)

/-- Every column is `32 f + q` for its factor `f = c / 32` and lane `q = c % 32`. -/
theorem exists_col (c : Fin 128) : ∃ (f : Fin 4) (q : Fin 32), c = col f q :=
  ⟨⟨c.val / 32, by omega⟩, ⟨c.val % 32, by omega⟩, Fin.ext (by show c.val = 32 * (c.val / 32) + c.val % 32; omega)⟩

/-- The tail node of edge `e`: its start index read as a signed integer and clamped into the 60000 rows. -/
abbrev tailRow (ts : IVec Cert.ReferenceIdeal.S1200000x1 32) (e : Fin 1200000) : Fin 60000 :=
  ⟨min (ts (ix2 e 0)).toInt.toNat (60000 - 1), by omega⟩

/-- The aggregated value at row `n`, column `32 f + q`: the zero word plus, over the edges whose head is `n`, the tail
    row's entry at that column times the edge's weight for factor `f`. -/
def aggregate (ego : FVec Ideal Cert.ReferenceIdeal.S60000x128 .f32) (w : FVec Ideal Cert.ReferenceIdeal.S1200000x4 .f32)
    (hs ts : IVec Cert.ReferenceIdeal.S1200000x1 32) (n : Fin 60000) (f : Fin 4) (q : Fin 32) : EReal :=
  Ideal.ofBits .f32 0x00000000#32
    + ∑ e ∈ Finset.univ.filter (fun e : Fin 1200000 => (hs (ix2 e 0)).toInt = (n.val : Int)),
        ego (ix2 (tailRow ts e) (col f q)) * w (ix2 e f)

/-! ## The kernel's side: rows of 128 columns -/

/-- The kernel's scatter-add of the edge values, at row `n`, column `32 f + q`. -/
theorem kernelLayer_apply (ego : FVec Ideal Cert.ReferenceIdeal.S60000x128 .f32)
    (w : FVec Ideal Cert.ReferenceIdeal.S1200000x4 .f32) (hs ts : IVec Cert.ReferenceIdeal.S1200000x1 32)
    (n : Fin 60000) (f : Fin 4) (q : Fin 32) :
    Host.scatterAdd (F := Ideal) Cert.KernelIdeal.scatter_S60000x128_S1200000x1_S1200000x128_1_0_0_1
        (broadcastInDim Cert.KernelIdeal.S60000x128 ![] Cert.KernelIdeal.Facts₀.bcast_S_S60000x128
          (constant (F := Ideal) Cert.KernelIdeal.S_ .f32 0x00000000#32))
        hs
        (Cert.KernelIdeal.Forms.edgeValue w
          (Host.gather Cert.KernelIdeal.gather_S60000x128_S1200000x1_S1200000x128_1_0_n_n_0_1_1128 ego ts))
        (ix2 n (col f q))
      = aggregate ego w hs ts n f q := by
  refine (rowScatterAdd_apply_of_eq Cert.KernelIdeal.Facts₀.scatter_S60000x128_S1200000x1_S1200000x128_1_0_0_1_wf
    _ rfl _ hs _ n (col f q)).trans ?_
  rw [broadcastInDim_scalar_apply, constant_apply]
  unfold aggregate
  refine congrArg (_ + ·) (Finset.sum_congr rfl fun e _ => ?_)
  show Host.gather Cert.KernelIdeal.gather_S60000x128_S1200000x1_S1200000x128_1_0_n_n_0_1_1128 ego ts (ix2 e (col f q))
      * w (ix2 e (factorOf (col f q))) = _
  rw [factorOf_col]
  exact congrArg (· * w (ix2 e f))
    (rowGather_apply (by omega) Cert.KernelIdeal.Facts₀.gather_S60000x128_S1200000x1_S1200000x128_1_0_n_n_0_1_1128_wf
      ego ts e (col f q))

/-! ## The reference's side: four chunks of 32 lanes -/

/-- The reference's aggregation over factor chunks: the tail slabs of the chunked embeddings, each chunk weighted by the
    edge's weight for it, added into the head nodes from the zero array. -/
def layerR (ego : FVec Ideal Cert.ReferenceIdeal.S60000x128 .f32) (w : FVec Ideal Cert.ReferenceIdeal.S1200000x4 .f32)
    (hs ts : IVec Cert.ReferenceIdeal.S1200000x1 32) : FVec Ideal Cert.ReferenceIdeal.S60000x4x32 .f32 :=
  Host.scatterAdd (F := Ideal) Cert.ReferenceIdeal.scatter_S60000x4x32_S1200000x1_S1200000x4x32_12_0_0_1
    (broadcastInDim Cert.ReferenceIdeal.S60000x4x32 ![] Cert.ReferenceIdeal.Facts₀.bcast_S_S60000x4x32
      (constant (F := Ideal) Cert.ReferenceIdeal.S_ .f32 0x00000000#32))
    hs
    (mulf
      (Host.gather Cert.ReferenceIdeal.gather_S60000x4x32_S1200000x1_S1200000x4x32_12_0_n_n_0_1_1432
        (shapeCast Cert.ReferenceIdeal.S60000x4x32 ego Cert.ReferenceIdeal.Facts₀.shapeCasts_S60000x128_S60000x4x32) ts)
      (broadcastInDim Cert.ReferenceIdeal.S1200000x4x32 ![0, 1, 2] Cert.ReferenceIdeal.Facts₀.bcast_S1200000x4x1_S1200000x4x32_0_1_2
        (broadcastInDim Cert.ReferenceIdeal.S1200000x4x1 ![0, 1] Cert.ReferenceIdeal.Facts₀.bcast_S1200000x4_S1200000x4x1_0_1 w)))

/-- The reference's aggregation at row `n`, chunk `f`, lane `q`. -/
theorem layerR_apply (ego : FVec Ideal Cert.ReferenceIdeal.S60000x128 .f32)
    (w : FVec Ideal Cert.ReferenceIdeal.S1200000x4 .f32) (hs ts : IVec Cert.ReferenceIdeal.S1200000x1 32)
    (n : Fin 60000) (f : Fin 4) (q : Fin 32) :
    layerR ego w hs ts (ix3 n f q) = aggregate ego w hs ts n f q := by
  unfold layerR
  refine (slabScatterAdd_apply_of_eq Cert.ReferenceIdeal.Facts₀.scatter_S60000x4x32_S1200000x1_S1200000x4x32_12_0_0_1_wf
    _ rfl _ hs _ n f q).trans ?_
  rw [broadcastInDim_scalar_apply, constant_apply]
  unfold aggregate
  refine congrArg (_ + ·) (Finset.sum_congr rfl fun e _ => ?_)
  rw [Cert.ReferenceIdeal.FactorChunks.weightedChunk_apply]
  refine congrArg (· * w (ix2 e f)) ?_
  refine (slabGather_apply_of_eq (by omega)
    Cert.ReferenceIdeal.Facts₀.gather_S60000x4x32_S1200000x1_S1200000x4x32_12_0_n_n_0_1_1432_wf _ rfl _ ts e f q).trans ?_
  exact Cert.ReferenceIdeal.FactorChunks.reshape_chunks_apply ego _ _ f q

/-! ## The two sides agree -/

/-- The kernel's scatter-add of the edge values over rows of 128 columns is the reference's scatter-add over factor
    chunks, flattened. -/
theorem layer_eq (ego : FVec Ideal Cert.ReferenceIdeal.S60000x128 .f32)
    (w : FVec Ideal Cert.ReferenceIdeal.S1200000x4 .f32) (hs ts : IVec Cert.ReferenceIdeal.S1200000x1 32) :
    Host.scatterAdd (F := Ideal) Cert.KernelIdeal.scatter_S60000x128_S1200000x1_S1200000x128_1_0_0_1
        (broadcastInDim Cert.KernelIdeal.S60000x128 ![] Cert.KernelIdeal.Facts₀.bcast_S_S60000x128
          (constant (F := Ideal) Cert.KernelIdeal.S_ .f32 0x00000000#32))
        hs
        (Cert.KernelIdeal.Forms.edgeValue w
          (Host.gather Cert.KernelIdeal.gather_S60000x128_S1200000x1_S1200000x128_1_0_n_n_0_1_1128 ego ts))
      = shapeCast Cert.ReferenceIdeal.S60000x128 (layerR ego w hs ts)
          Cert.ReferenceIdeal.Facts₀.shapeCasts_S60000x4x32_S60000x128 := by
  funext i
  obtain ⟨n, c, rfl⟩ : ∃ (n : Fin 60000) (c : Fin 128), i = ix2 n c := ⟨i 0, i 1, eq_ix2 i⟩
  obtain ⟨f, q, rfl⟩ := exists_col c
  rw [Cert.ReferenceIdeal.FactorChunks.reshape_flat_apply]
  exact (kernelLayer_apply ego w hs ts n f q).trans (layerR_apply ego w hs ts n f q).symm

end Cert.Agreement.EdgeLayer

end
-- ==== Proof.RoutingAgreement.lean ====
/-
  The kernel's routing scores are the reference's.

  The kernel reads every node's embedding as a flat row of 128 columns and scores an edge, for factor `f`, over the
  factor's 32 columns `32 f + q`; the reference keeps the same row as four chunks of 32 lanes and scores the edge over
  the lanes of chunk `f`.  Lane `q` of chunk `f` IS column `32 f + q`, and an edge's head and tail rows are gathered
  by the same clamped node numbers on both sides, so both scores are sums over `q` of the same two families of
  numbers `a q` (head) and `b q` (tail).  The kernel multiplies a lane by the reciprocal `1 / m` of its floored
  norm `m = max (√(∑ a²)) 1e-12`, the reference divides the lane by `m`: as `m ≥ 1e-12 > 0` is not zero, both are
  `a q · m⁻¹` on the extended reals.
-/
import proofs.«168221_j52458730553670_2_alg».proof.Proof.KernelForms
import proofs.«168221_j52458730553670_2_alg».proof.Proof.FactorChunks
import proofs.«168221_j52458730553670_2_alg».proof.Proof.Grouping
import proofs.«168221_j52458730553670_2_alg».proof.Proof.LibSlabIndex

noncomputable section

open scoped BigOperators

namespace Cert.Agreement.Routing

open Idealize.ShloMosaic Idealize.ShloMosaic.ValueIdx
open Cert.KernelIdeal.BodyEntries (lane rowInvNorm)
open Cert.ReferenceIdeal.FactorChunks (col reshape_chunks_apply reshape_flat_apply laneSum_apply l2normalize_apply' hostTanh_apply)

/-! ## The one law: multiplying by the reciprocal of a nonzero divisor is dividing by it -/

/-- A norm floored at `1e-12` is not zero. -/
theorem floored_ne_zero (s : EReal) : max (Ideal.sqrt s) (Ideal.ofBits .f32 0x2B8CBCCC#32) ≠ 0 :=
  (lt_of_lt_of_le Cert.KernelIdeal.Grouping.eps_pos (le_max_right _ _)).ne'

/-- For a divisor `m ≠ 0`, `z · (1 / m) = z / m`: both are `z · m⁻¹`. -/
theorem mul_one_div (z m : EReal) (hm : m ≠ 0) :
    z * Ideal.div (Ideal.ofBits .f32 0x3F800000#32) m = Ideal.div z m := by
  unfold Ideal.div
  rw [if_neg hm, if_neg hm, Ideal.ofBits_one_f32, one_mul]

/-- The node an edge's index word names: read signed and clamped into `[0, 59999]`. -/
def node (iw : IVec Cert.ReferenceIdeal.S1200000x1 32) (e : Fin 1200000) : Fin 60000 :=
  ⟨min (iw (ix2 e 0)).toInt.toNat (60000 - 1), by omega⟩

/-! ## The reference's score at an entry -/

variable [Cert.ReferenceIdeal.Facts]

/-- The reference's composed score of two chunked edge arrays `A`, `B` at edge `e` and chunk `f`: over the 32 lanes,
    the normalised lane of `A` times the hyperbolic tangent of the normalised lane of `B`. -/
theorem chunkScore_apply (A B : FVec Ideal Cert.ReferenceIdeal.S1200000x4x32 .f32) (e : Fin 1200000) (f : Fin 4) :
    (Host.reduceAdd (mulf (Host.divf A (broadcastInDim Cert.ReferenceIdeal.S1200000x4x32 ![0, 1, 2] Cert.ReferenceIdeal.Facts₀.bcast_S1200000x4x1_S1200000x4x32_0_1_2 (maximumf (Host.sqrt (broadcastInDim Cert.ReferenceIdeal.S1200000x4x1 ![0, 1] Cert.ReferenceIdeal.Facts₀.bcast_S1200000x4_S1200000x4x1_0_1 (Host.reduceAdd (mulf A A) (constant (F := Ideal) Cert.ReferenceIdeal.S_ .f32 0x00000000#32) Cert.ReferenceIdeal.Facts₀.reducesTo_S1200000x4x32_S1200000x4_d2 Cert.ReferenceIdeal.Facts₀.h_S_))) (broadcastInDim Cert.ReferenceIdeal.S1200000x4x1 ![] Cert.ReferenceIdeal.Facts₀.bcast_S_S1200000x4x1 (constant (F := Ideal) Cert.ReferenceIdeal.S_ .f32 0x2B8CBCCC#32))))) (Host.tanh (Host.divf B (broadcastInDim Cert.ReferenceIdeal.S1200000x4x32 ![0, 1, 2] Cert.ReferenceIdeal.Facts₀.bcast_S1200000x4x1_S1200000x4x32_0_1_2 (maximumf (Host.sqrt (broadcastInDim Cert.ReferenceIdeal.S1200000x4x1 ![0, 1] Cert.ReferenceIdeal.Facts₀.bcast_S1200000x4_S1200000x4x1_0_1 (Host.reduceAdd (mulf B B) (constant (F := Ideal) Cert.ReferenceIdeal.S_ .f32 0x00000000#32) Cert.ReferenceIdeal.Facts₀.reducesTo_S1200000x4x32_S1200000x4_d2 Cert.ReferenceIdeal.Facts₀.h_S_))) (broadcastInDim Cert.ReferenceIdeal.S1200000x4x1 ![] Cert.ReferenceIdeal.Facts₀.bcast_S_S1200000x4x1 (constant (F := Ideal) Cert.ReferenceIdeal.S_ .f32 0x2B8CBCCC#32))))))) (constant (F := Ideal) Cert.ReferenceIdeal.S_ .f32 0x00000000#32) Cert.ReferenceIdeal.Facts₀.reducesTo_S1200000x4x32_S1200000x4_d2 Cert.ReferenceIdeal.Facts₀.h_S_) (ix2 e f)
      = ∑ q : Fin 32,
          Ideal.div (A (ix3 e f q))
              (max (Ideal.sqrt (∑ q' : Fin 32, A (ix3 e f q') * A (ix3 e f q'))) (Ideal.ofBits .f32 0x2B8CBCCC#32))
            * Ideal.tanh (Ideal.div (B (ix3 e f q))
              (max (Ideal.sqrt (∑ q' : Fin 32, B (ix3 e f q') * B (ix3 e f q'))) (Ideal.ofBits .f32 0x2B8CBCCC#32))) := by
  rw [laneSum_apply, constant_apply, Ideal.ofBits_zero_f32, zero_add]
  refine Finset.sum_congr rfl fun q _ => ?_
  rw [mulf_apply, hostTanh_apply, l2normalize_apply', l2normalize_apply']

/-- The reference's routing scores as a function of the chunked factor embeddings `fe3`, the flat node embeddings
    `ego` and the edges' head and tail node columns: the composed term of the reference, its two gathered arrays being
    the head rows of `fe3` and the tail rows of `ego` chunked. -/
def routeR (fe3 : FVec Ideal Cert.ReferenceIdeal.S60000x4x32 .f32) (ego : FVec Ideal Cert.ReferenceIdeal.S60000x128 .f32)
    (hw tw : IVec Cert.ReferenceIdeal.S1200000x1 32) : FVec Ideal Cert.ReferenceIdeal.S1200000x4 .f32 :=
  Host.reduceAdd (mulf (Host.divf (Host.gather Cert.ReferenceIdeal.gather_S60000x4x32_S1200000x1_S1200000x4x32_12_0_n_n_0_1_1432 fe3 hw) (broadcastInDim Cert.ReferenceIdeal.S1200000x4x32 ![0, 1, 2] Cert.ReferenceIdeal.Facts₀.bcast_S1200000x4x1_S1200000x4x32_0_1_2 (maximumf (Host.sqrt (broadcastInDim Cert.ReferenceIdeal.S1200000x4x1 ![0, 1] Cert.ReferenceIdeal.Facts₀.bcast_S1200000x4_S1200000x4x1_0_1 (Host.reduceAdd (mulf (Host.gather Cert.ReferenceIdeal.gather_S60000x4x32_S1200000x1_S1200000x4x32_12_0_n_n_0_1_1432 fe3 hw) (Host.gather Cert.ReferenceIdeal.gather_S60000x4x32_S1200000x1_S1200000x4x32_12_0_n_n_0_1_1432 fe3 hw)) (constant (F := Ideal) Cert.ReferenceIdeal.S_ .f32 0x00000000#32) Cert.ReferenceIdeal.Facts₀.reducesTo_S1200000x4x32_S1200000x4_d2 Cert.ReferenceIdeal.Facts₀.h_S_))) (broadcastInDim Cert.ReferenceIdeal.S1200000x4x1 ![] Cert.ReferenceIdeal.Facts₀.bcast_S_S1200000x4x1 (constant (F := Ideal) Cert.ReferenceIdeal.S_ .f32 0x2B8CBCCC#32))))) (Host.tanh (Host.divf (Host.gather Cert.ReferenceIdeal.gather_S60000x4x32_S1200000x1_S1200000x4x32_12_0_n_n_0_1_1432 (shapeCast _ ego Cert.ReferenceIdeal.Facts₀.shapeCasts_S60000x128_S60000x4x32) tw) (broadcastInDim Cert.ReferenceIdeal.S1200000x4x32 ![0, 1, 2] Cert.ReferenceIdeal.Facts₀.bcast_S1200000x4x1_S1200000x4x32_0_1_2 (maximumf (Host.sqrt (broadcastInDim Cert.ReferenceIdeal.S1200000x4x1 ![0, 1] Cert.ReferenceIdeal.Facts₀.bcast_S1200000x4_S1200000x4x1_0_1 (Host.reduceAdd (mulf (Host.gather Cert.ReferenceIdeal.gather_S60000x4x32_S1200000x1_S1200000x4x32_12_0_n_n_0_1_1432 (shapeCast _ ego Cert.ReferenceIdeal.Facts₀.shapeCasts_S60000x128_S60000x4x32) tw) (Host.gather Cert.ReferenceIdeal.gather_S60000x4x32_S1200000x1_S1200000x4x32_12_0_n_n_0_1_1432 (shapeCast _ ego Cert.ReferenceIdeal.Facts₀.shapeCasts_S60000x128_S60000x4x32) tw)) (constant (F := Ideal) Cert.ReferenceIdeal.S_ .f32 0x00000000#32) Cert.ReferenceIdeal.Facts₀.reducesTo_S1200000x4x32_S1200000x4_d2 Cert.ReferenceIdeal.Facts₀.h_S_))) (broadcastInDim Cert.ReferenceIdeal.S1200000x4x1 ![] Cert.ReferenceIdeal.Facts₀.bcast_S_S1200000x4x1 (constant (F := Ideal) Cert.ReferenceIdeal.S_ .f32 0x2B8CBCCC#32))))))) (constant (F := Ideal) Cert.ReferenceIdeal.S_ .f32 0x00000000#32) Cert.ReferenceIdeal.Facts₀.reducesTo_S1200000x4x32_S1200000x4_d2 Cert.ReferenceIdeal.Facts₀.h_S_

/-! ## The two gathers at an entry -/

/-- The reference's slab gather at `(e, f, q)`: the chunked array at the edge's node, chunk `f`, lane `q`. -/
theorem chunkGather_apply (x : FVec Ideal Cert.ReferenceIdeal.S60000x4x32 .f32) (iw : IVec Cert.ReferenceIdeal.S1200000x1 32)
    (e : Fin 1200000) (f : Fin 4) (q : Fin 32) :
    Host.gather Cert.ReferenceIdeal.gather_S60000x4x32_S1200000x1_S1200000x4x32_12_0_n_n_0_1_1432 x iw (ix3 e f q) = x (ix3 (node iw e) f q) :=
  Cert.Lib.SlabIndex.slabGather_apply_of_eq (N := 60000) (A := 4) (B := 32) (E := 1200000) (by decide)
    Cert.ReferenceIdeal.Facts₀.gather_S60000x4x32_S1200000x1_S1200000x4x32_12_0_n_n_0_1_1432_wf _ rfl x iw e f q

variable [Cert.KernelIdeal.Facts]

/-- The kernel's row gather at `(e, c)`: the flat array at the edge's node and column `c`. -/
theorem flatGather_apply (x : FVec Ideal Cert.KernelIdeal.S60000x128 .f32) (iw : IVec Cert.KernelIdeal.S1200000x1 32)
    (e : Fin 1200000) (c : Fin 128) :
    Host.gather Cert.KernelIdeal.gather_S60000x128_S1200000x1_S1200000x128_1_0_n_n_0_1_1128 x iw (ix2 e c) = x (ix2 (node iw e) c) :=
  Cert.Lib.RowIndex.rowGather_apply (N := 60000) (C := 128) (E := 1200000) (by decide)
    Cert.KernelIdeal.Facts₀.gather_S60000x128_S1200000x1_S1200000x128_1_0_n_n_0_1_1128_wf x iw e c

/-! ## The agreement -/

/-- The kernel's routing scores of the gathered flat rows are the reference's routing scores. -/
theorem route_eq (fe3 : FVec Ideal Cert.ReferenceIdeal.S60000x4x32 .f32) (ego : FVec Ideal Cert.ReferenceIdeal.S60000x128 .f32)
    (hw tw : IVec Cert.ReferenceIdeal.S1200000x1 32) :
    Cert.KernelIdeal.Forms.routeScore
        (Host.gather Cert.KernelIdeal.gather_S60000x128_S1200000x1_S1200000x128_1_0_n_n_0_1_1128
          (shapeCast Cert.ReferenceIdeal.S60000x128 fe3 Cert.ReferenceIdeal.Facts₀.shapeCasts_S60000x4x32_S60000x128) hw)
        (Host.gather Cert.KernelIdeal.gather_S60000x128_S1200000x1_S1200000x128_1_0_n_n_0_1_1128 ego tw)
      = routeR fe3 ego hw tw := by
  funext i
  obtain ⟨e, f, rfl⟩ : ∃ (e : Fin 1200000) (f : Fin 4), i = ix2 e f := ⟨i 0, i 1, eq_ix2 i⟩
  -- the head row's lanes and the tail row's lanes, on either side
  have hY : ∀ q : Fin 32,
      Host.gather Cert.KernelIdeal.gather_S60000x128_S1200000x1_S1200000x128_1_0_n_n_0_1_1128
          (shapeCast Cert.ReferenceIdeal.S60000x128 fe3 Cert.ReferenceIdeal.Facts₀.shapeCasts_S60000x4x32_S60000x128) hw
          (ix2 e (lane f q)) = fe3 (ix3 (node hw e) f q) := fun q =>
    (flatGather_apply _ hw e (lane f q)).trans (reshape_flat_apply fe3 _ (node hw e) f q)
  have hX : ∀ q : Fin 32, Host.gather Cert.KernelIdeal.gather_S60000x128_S1200000x1_S1200000x128_1_0_n_n_0_1_1128 ego tw (ix2 e (lane f q)) = ego (ix2 (node tw e) (col f q)) := fun q =>
    flatGather_apply ego tw e (lane f q)
  have hA : ∀ q : Fin 32, Host.gather Cert.ReferenceIdeal.gather_S60000x4x32_S1200000x1_S1200000x4x32_12_0_n_n_0_1_1432 fe3 hw (ix3 e f q) = fe3 (ix3 (node hw e) f q) := fun q =>
    chunkGather_apply fe3 hw e f q
  have hB : ∀ q : Fin 32,
      Host.gather Cert.ReferenceIdeal.gather_S60000x4x32_S1200000x1_S1200000x4x32_12_0_n_n_0_1_1432 (shapeCast _ ego Cert.ReferenceIdeal.Facts₀.shapeCasts_S60000x128_S60000x4x32) tw (ix3 e f q)
        = ego (ix2 (node tw e) (col f q)) := fun q =>
    (chunkGather_apply _ tw e f q).trans (reshape_chunks_apply ego _ (node tw e) f q)
  unfold routeR
  rw [chunkScore_apply]
  unfold Cert.KernelIdeal.Forms.routeScore rowInvNorm
  simp only [hY, hX, hA, hB]
  refine Finset.sum_congr rfl fun q _ => ?_
  rw [mul_one_div _ _ (floored_ne_zero _), mul_one_div _ _ (floored_ne_zero _)]

end Cert.Agreement.Routing

end
-- ==== Proof.ReferenceValue.lean ====
/-
  The reference's three results as one closed term of its argument arrays, built from named stages.

  The reference concatenates the user and item embeddings into 60000 node rows and the two edge lists into 1200000
  directed edges (heads and tails), and runs two rounds of the same pipeline: a softmax of the edges' factor scores
  over the four factors, a symmetric degree normalisation of it (each edge's weight divided by the square roots of its
  head's and its tail's summed weights), one aggregation of the weighted tail embeddings into the heads, and — between
  the rounds — new factor scores, one plus the routing score of each edge.  It then averages the node embeddings with
  the second round's aggregate and looks up the batch's users, positive items and negative items.  Every statement
  here is a regrouping of the program's composed term under these names: nothing is computed.
-/
import proofs.«168221_j52458730553670_2_alg».proof.Proof.Gen.ReferenceIdeal.Run
import proofs.«168221_j52458730553670_2_alg».proof.Proof.EdgeLayer
import proofs.«168221_j52458730553670_2_alg».proof.Proof.RoutingAgreement

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.Agreement.EdgeLayer (layerR)
open Cert.Agreement.Routing (routeR)

/-! ## The edge lists and the node embeddings -/

/-- Every edge's head node: the first list's users, then the second list's items shifted past the 40000 users. -/
def headsR (a2 a3 : IVec S600000 32) : IVec S1200000 32 :=
  concatenate S1200000 0 [⟨S600000, a2⟩, ⟨S600000, (addi a3 (broadcastInDim S600000 ![] bcast_S_S600000 (constantI S_ 32 40000#32)))⟩] concatenates_S600000_S600000_S1200000_d0

/-- Every edge's tail node: the items shifted past the users, then the users. -/
def tailsR (a2 a3 : IVec S600000 32) : IVec S1200000 32 :=
  concatenate S1200000 0 [⟨S600000, (addi a3 (broadcastInDim S600000 ![] bcast_S_S600000 (constantI S_ 32 40000#32)))⟩, ⟨S600000, a2⟩] concatenates_S600000_S600000_S1200000_d0

/-- The node embeddings: the 40000 user rows, then the 20000 item rows. -/
def nodesR (a0 : FVec Ideal S40000x128 .f32) (a1 : FVec Ideal S20000x128 .f32) : FVec Ideal S60000x128 .f32 :=
  concatenate S60000x128 0 [⟨S40000x128, a0⟩, ⟨S20000x128, a1⟩] concatenates_S40000x128_S20000x128_S60000x128_d0

/-- The first round's factor scores: one for every edge and factor. -/
def onesR : FVec Ideal S1200000x4 .f32 :=
  broadcastInDim S1200000x4 ![] bcast_S_S1200000x4 (constant (F := Ideal) S_ .f32 0x3F800000#32)

/-- A list of node numbers as a column of gather indices: a negative number wrapped by 60000 first. -/
def wrapColR (v : IVec S1200000 32) : IVec S1200000x1 32 :=
  broadcastInDim S1200000x1 ![0] bcast_S1200000_S1200000x1_0 (select (cmpi .slt v (broadcastInDim S1200000 ![] bcast_S_S1200000 (constantI S_ 32 0#32))) (addi v (broadcastInDim S1200000 ![] bcast_S_S1200000 (constantI S_ 32 60000#32))) v)

/-- A list of node numbers as a column of scatter indices, as it stands. -/
def colR (v : IVec S1200000 32) : IVec S1200000x1 32 :=
  broadcastInDim S1200000x1 ![0] bcast_S1200000_S1200000x1_0 v

/-! ## The edge weights of one round -/

/-- The exponential of each score less its edge's largest score over the four factors. -/
def expShiftR (a : FVec Ideal S1200000x4 .f32) : FVec Ideal S1200000x4 .f32 :=
  Host.exp (subf a (broadcastInDim S1200000x4 ![0, 1] bcast_S1200000x1_S1200000x4_0_1 (broadcastInDim S1200000x1 ![0] bcast_S1200000_S1200000x1_0 (maximumf (broadcastInDim S1200000 ![] bcast_S_S1200000 (constant (F := Ideal) S_ .f32 0xFF800000#32)) (Host.reduce FloatOps.maximumf a (constant (F := Ideal) S_ .f32 0xFF800000#32) reducesTo_S1200000x4_S1200000_d1 h_S_)))))

/-- Each entry divided by its edge's sum over the four factors. -/
def rowShareR (x : FVec Ideal S1200000x4 .f32) : FVec Ideal S1200000x4 .f32 :=
  Host.divf x (broadcastInDim S1200000x4 ![0, 1] bcast_S1200000x1_S1200000x4_0_1 (broadcastInDim S1200000x1 ![0] bcast_S1200000_S1200000x1_0 (Host.reduceAdd x (constant (F := Ideal) S_ .f32 0x00000000#32) reducesTo_S1200000x4_S1200000_d1 h_S_)))

/-- The softmax of the scores over the four factors. -/
def softmaxR (a : FVec Ideal S1200000x4 .f32) : FVec Ideal S1200000x4 .f32 := rowShareR (expShiftR a)

/-- One over the square root of each node's summed edge weights (floored), factor by factor. -/
def degreeNormR (h : IVec S1200000 32) (s : FVec Ideal S1200000x4 .f32) : FVec Ideal S60000x4 .f32 :=
  Host.divf (broadcastInDim S60000x4 ![] bcast_S_S60000x4 (constant (F := Ideal) S_ .f32 0x3F800000#32)) (Host.sqrt (maximumf (Host.scatterAdd scatter_S60000x4_S1200000x1_S1200000x4_1_0_0_1 (broadcastInDim S60000x4 ![] bcast_S_S60000x4 (constant (F := Ideal) S_ .f32 0x00000000#32)) (broadcastInDim S1200000x1 ![0] bcast_S1200000_S1200000x1_0 h) s) (broadcastInDim S60000x4 ![] bcast_S_S60000x4 (constant (F := Ideal) S_ .f32 0x322BCC77#32))))

/-- The edge weights of a round from its factor scores: the softmax, times the degree normaliser at the edge's head,
    times the degree normaliser at its tail. -/
def edgeWeightsR (a : FVec Ideal S1200000x4 .f32) (h t : IVec S1200000 32) : FVec Ideal S1200000x4 .f32 :=
  mulf (mulf (softmaxR a) (Host.gather gather_S60000x4_S1200000x1_S1200000x4_1_0_n_n_0_1_14 (degreeNormR h (softmaxR a)) (wrapColR h)))
    (Host.gather gather_S60000x4_S1200000x1_S1200000x4_1_0_n_n_0_1_14 (degreeNormR h (softmaxR a)) (wrapColR t))

/-! ## The final average -/

/-- The mean of the node embeddings and the aggregate, entry by entry: the two stacked, summed, halved. -/
def pooledR (ego fe : FVec Ideal S60000x128 .f32) : FVec Ideal S60000x128 .f32 :=
  Host.divf (Host.reduceAdd (concatenate S60000x2x128 1 [⟨S60000x1x128, (broadcastInDim S60000x1x128 ![0, 2] bcast_S60000x128_S60000x1x128_0_2 ego)⟩, ⟨S60000x1x128, (broadcastInDim S60000x1x128 ![0, 2] bcast_S60000x128_S60000x1x128_0_2 fe)⟩] concatenates_S60000x1x128_S60000x1x128_S60000x2x128_d1) (constant (F := Ideal) S_ .f32 0x00000000#32) reducesTo_S60000x2x128_S60000x128_d1 h_S_) (broadcastInDim S60000x128 ![] bcast_S_S60000x128 (constant (F := Ideal) S_ .f32 0x40000000#32))

/-! ## The program's named stages are these -/

section Stages

variable (V0 : Valuation τ sig (Elt Ideal))

theorem heads_eq : Value.res_main_v2 V0 = headsR (V0 (Proc.devRef .tc main_arg2)) (V0 (Proc.devRef .tc main_arg3)) := rfl

theorem tails_eq : Value.res_main_v5 V0 = tailsR (V0 (Proc.devRef .tc main_arg2)) (V0 (Proc.devRef .tc main_arg3)) := rfl

theorem nodes_eq : Value.res_main_v6 V0 = nodesR (V0 (Proc.devRef .tc main_arg0)) (V0 (Proc.devRef .tc main_arg1)) := rfl

theorem ones_eq : Value.res_main_v7 V0 = onesR := rfl

theorem chunks_eq : Value.res_main_v8 V0 = shapeCast S60000x4x32 (nodesR (V0 (Proc.devRef .tc main_arg0)) (V0 (Proc.devRef .tc main_arg1))) shapeCasts_S60000x128_S60000x4x32 := by
  unfold Value.res_main_v8; rw [nodes_eq]; rfl

theorem expShift1_eq : Value.res_main_v15 V0 = expShiftR onesR := by
  unfold Value.res_main_v15; rw [ones_eq]; rfl

theorem softmax1_eq : Value.res_main_v19 V0 = softmaxR onesR := by
  unfold Value.res_main_v19; rw [expShift1_eq]; rfl

theorem degreeNorm1_eq : Value.res_main_v27 V0 = degreeNormR (headsR (V0 (Proc.devRef .tc main_arg2)) (V0 (Proc.devRef .tc main_arg3))) (softmaxR onesR) := by
  unfold Value.res_main_v27; rw [heads_eq, softmax1_eq]; rfl

set_option maxRecDepth 8192 in
theorem headChunks_eq : Value.res_main_v63 V0 = Host.gather gather_S60000x4x32_S1200000x1_S1200000x4x32_12_0_n_n_0_1_1432 (layerR (nodesR (V0 (Proc.devRef .tc main_arg0)) (V0 (Proc.devRef .tc main_arg1))) (edgeWeightsR onesR (headsR (V0 (Proc.devRef .tc main_arg2)) (V0 (Proc.devRef .tc main_arg3))) (tailsR (V0 (Proc.devRef .tc main_arg2)) (V0 (Proc.devRef .tc main_arg3)))) (colR (headsR (V0 (Proc.devRef .tc main_arg2)) (V0 (Proc.devRef .tc main_arg3)))) (wrapColR (tailsR (V0 (Proc.devRef .tc main_arg2)) (V0 (Proc.devRef .tc main_arg3))))) (wrapColR (headsR (V0 (Proc.devRef .tc main_arg2)) (V0 (Proc.devRef .tc main_arg3)))) := by
  unfold Value.res_main_v63; rw [heads_eq, tails_eq, chunks_eq, softmax1_eq, degreeNorm1_eq]; rfl

set_option maxRecDepth 8192 in
theorem tailChunks_eq : Value.res_main_v78 V0
    = Host.gather gather_S60000x4x32_S1200000x1_S1200000x4x32_12_0_n_n_0_1_1432 (shapeCast S60000x4x32 (nodesR (V0 (Proc.devRef .tc main_arg0)) (V0 (Proc.devRef .tc main_arg1))) shapeCasts_S60000x128_S60000x4x32) (wrapColR (tailsR (V0 (Proc.devRef .tc main_arg2)) (V0 (Proc.devRef .tc main_arg3)))) := by
  unfold Value.res_main_v78; rw [tails_eq, chunks_eq]; rfl

set_option maxRecDepth 8192 in
theorem scores2_eq : Value.res_main_v90 V0 = addf onesR (routeR (layerR (nodesR (V0 (Proc.devRef .tc main_arg0)) (V0 (Proc.devRef .tc main_arg1))) (edgeWeightsR onesR (headsR (V0 (Proc.devRef .tc main_arg2)) (V0 (Proc.devRef .tc main_arg3))) (tailsR (V0 (Proc.devRef .tc main_arg2)) (V0 (Proc.devRef .tc main_arg3)))) (colR (headsR (V0 (Proc.devRef .tc main_arg2)) (V0 (Proc.devRef .tc main_arg3)))) (wrapColR (tailsR (V0 (Proc.devRef .tc main_arg2)) (V0 (Proc.devRef .tc main_arg3))))) (nodesR (V0 (Proc.devRef .tc main_arg0)) (V0 (Proc.devRef .tc main_arg1))) (wrapColR (headsR (V0 (Proc.devRef .tc main_arg2)) (V0 (Proc.devRef .tc main_arg3)))) (wrapColR (tailsR (V0 (Proc.devRef .tc main_arg2)) (V0 (Proc.devRef .tc main_arg3))))) := by
  unfold Value.res_main_v90; rw [ones_eq, headChunks_eq, tailChunks_eq]; rfl

set_option maxRecDepth 8192 in
theorem expShift2_eq : Value.res_main_v97 V0 = expShiftR (addf onesR (routeR (layerR (nodesR (V0 (Proc.devRef .tc main_arg0)) (V0 (Proc.devRef .tc main_arg1))) (edgeWeightsR onesR (headsR (V0 (Proc.devRef .tc main_arg2)) (V0 (Proc.devRef .tc main_arg3))) (tailsR (V0 (Proc.devRef .tc main_arg2)) (V0 (Proc.devRef .tc main_arg3)))) (colR (headsR (V0 (Proc.devRef .tc main_arg2)) (V0 (Proc.devRef .tc main_arg3)))) (wrapColR (tailsR (V0 (Proc.devRef .tc main_arg2)) (V0 (Proc.devRef .tc main_arg3))))) (nodesR (V0 (Proc.devRef .tc main_arg0)) (V0 (Proc.devRef .tc main_arg1))) (wrapColR (headsR (V0 (Proc.devRef .tc main_arg2)) (V0 (Proc.devRef .tc main_arg3)))) (wrapColR (tailsR (V0 (Proc.devRef .tc main_arg2)) (V0 (Proc.devRef .tc main_arg3)))))) := by
  unfold Value.res_main_v97; rw [scores2_eq]; rfl

set_option maxRecDepth 8192 in
theorem softmax2_eq : Value.res_main_v101 V0 = softmaxR (addf onesR (routeR (layerR (nodesR (V0 (Proc.devRef .tc main_arg0)) (V0 (Proc.devRef .tc main_arg1))) (edgeWeightsR onesR (headsR (V0 (Proc.devRef .tc main_arg2)) (V0 (Proc.devRef .tc main_arg3))) (tailsR (V0 (Proc.devRef .tc main_arg2)) (V0 (Proc.devRef .tc main_arg3)))) (colR (headsR (V0 (Proc.devRef .tc main_arg2)) (V0 (Proc.devRef .tc main_arg3)))) (wrapColR (tailsR (V0 (Proc.devRef .tc main_arg2)) (V0 (Proc.devRef .tc main_arg3))))) (nodesR (V0 (Proc.devRef .tc main_arg0)) (V0 (Proc.devRef .tc main_arg1))) (wrapColR (headsR (V0 (Proc.devRef .tc main_arg2)) (V0 (Proc.devRef .tc main_arg3)))) (wrapColR (tailsR (V0 (Proc.devRef .tc main_arg2)) (V0 (Proc.devRef .tc main_arg3)))))) := by
  unfold Value.res_main_v101; rw [expShift2_eq]; rfl

set_option maxRecDepth 8192 in
theorem degreeNorm2_eq : Value.res_main_v109 V0 = degreeNormR (headsR (V0 (Proc.devRef .tc main_arg2)) (V0 (Proc.devRef .tc main_arg3))) (softmaxR (addf onesR (routeR (layerR (nodesR (V0 (Proc.devRef .tc main_arg0)) (V0 (Proc.devRef .tc main_arg1))) (edgeWeightsR onesR (headsR (V0 (Proc.devRef .tc main_arg2)) (V0 (Proc.devRef .tc main_arg3))) (tailsR (V0 (Proc.devRef .tc main_arg2)) (V0 (Proc.devRef .tc main_arg3)))) (colR (headsR (V0 (Proc.devRef .tc main_arg2)) (V0 (Proc.devRef .tc main_arg3)))) (wrapColR (tailsR (V0 (Proc.devRef .tc main_arg2)) (V0 (Proc.devRef .tc main_arg3))))) (nodesR (V0 (Proc.devRef .tc main_arg0)) (V0 (Proc.devRef .tc main_arg1))) (wrapColR (headsR (V0 (Proc.devRef .tc main_arg2)) (V0 (Proc.devRef .tc main_arg3)))) (wrapColR (tailsR (V0 (Proc.devRef .tc main_arg2)) (V0 (Proc.devRef .tc main_arg3))))))) := by
  unfold Value.res_main_v109; rw [heads_eq, softmax2_eq]; rfl

set_option maxRecDepth 8192 in
theorem pooled_eq : Value.res_main_v145 V0 = pooledR (nodesR (V0 (Proc.devRef .tc main_arg0)) (V0 (Proc.devRef .tc main_arg1))) (shapeCast S60000x128 (layerR (nodesR (V0 (Proc.devRef .tc main_arg0)) (V0 (Proc.devRef .tc main_arg1))) (edgeWeightsR (addf onesR (routeR (layerR (nodesR (V0 (Proc.devRef .tc main_arg0)) (V0 (Proc.devRef .tc main_arg1))) (edgeWeightsR onesR (headsR (V0 (Proc.devRef .tc main_arg2)) (V0 (Proc.devRef .tc main_arg3))) (tailsR (V0 (Proc.devRef .tc main_arg2)) (V0 (Proc.devRef .tc main_arg3)))) (colR (headsR (V0 (Proc.devRef .tc main_arg2)) (V0 (Proc.devRef .tc main_arg3)))) (wrapColR (tailsR (V0 (Proc.devRef .tc main_arg2)) (V0 (Proc.devRef .tc main_arg3))))) (nodesR (V0 (Proc.devRef .tc main_arg0)) (V0 (Proc.devRef .tc main_arg1))) (wrapColR (headsR (V0 (Proc.devRef .tc main_arg2)) (V0 (Proc.devRef .tc main_arg3)))) (wrapColR (tailsR (V0 (Proc.devRef .tc main_arg2)) (V0 (Proc.devRef .tc main_arg3)))))) (headsR (V0 (Proc.devRef .tc main_arg2)) (V0 (Proc.devRef .tc main_arg3))) (tailsR (V0 (Proc.devRef .tc main_arg2)) (V0 (Proc.devRef .tc main_arg3)))) (colR (headsR (V0 (Proc.devRef .tc main_arg2)) (V0 (Proc.devRef .tc main_arg3)))) (wrapColR (tailsR (V0 (Proc.devRef .tc main_arg2)) (V0 (Proc.devRef .tc main_arg3))))) shapeCasts_S60000x4x32_S60000x128) := by
  unfold Value.res_main_v145; rw [heads_eq, tails_eq, nodes_eq, chunks_eq, softmax2_eq, degreeNorm2_eq]; rfl

set_option maxRecDepth 8192 in
theorem pooledItems_eq : Value.res_main_v147 V0
    = extractStridedSlice S20000x128 ![40000, 0] (pooledR (nodesR (V0 (Proc.devRef .tc main_arg0)) (V0 (Proc.devRef .tc main_arg1))) (shapeCast S60000x128 (layerR (nodesR (V0 (Proc.devRef .tc main_arg0)) (V0 (Proc.devRef .tc main_arg1))) (edgeWeightsR (addf onesR (routeR (layerR (nodesR (V0 (Proc.devRef .tc main_arg0)) (V0 (Proc.devRef .tc main_arg1))) (edgeWeightsR onesR (headsR (V0 (Proc.devRef .tc main_arg2)) (V0 (Proc.devRef .tc main_arg3))) (tailsR (V0 (Proc.devRef .tc main_arg2)) (V0 (Proc.devRef .tc main_arg3)))) (colR (headsR (V0 (Proc.devRef .tc main_arg2)) (V0 (Proc.devRef .tc main_arg3)))) (wrapColR (tailsR (V0 (Proc.devRef .tc main_arg2)) (V0 (Proc.devRef .tc main_arg3))))) (nodesR (V0 (Proc.devRef .tc main_arg0)) (V0 (Proc.devRef .tc main_arg1))) (wrapColR (headsR (V0 (Proc.devRef .tc main_arg2)) (V0 (Proc.devRef .tc main_arg3)))) (wrapColR (tailsR (V0 (Proc.devRef .tc main_arg2)) (V0 (Proc.devRef .tc main_arg3)))))) (headsR (V0 (Proc.devRef .tc main_arg2)) (V0 (Proc.devRef .tc main_arg3))) (tailsR (V0 (Proc.devRef .tc main_arg2)) (V0 (Proc.devRef .tc main_arg3)))) (colR (headsR (V0 (Proc.devRef .tc main_arg2)) (V0 (Proc.devRef .tc main_arg3)))) (wrapColR (tailsR (V0 (Proc.devRef .tc main_arg2)) (V0 (Proc.devRef .tc main_arg3))))) shapeCasts_S60000x4x32_S60000x128)) slices_S60000x128_S20000x128_40000_0 := by
  unfold Value.res_main_v147; rw [pooled_eq]

/-! ## The three results -/

set_option maxRecDepth 8192 in
/-- The batch's user embeddings: rows of the first 40000 rows of the average. -/
theorem result0 : Value.val4 V0 (Proc.devRef .tc main_v154)
    = Host.gather gather_S40000x128_S4096x1_S4096x128_1_0_n_n_0_1_1128
        (extractStridedSlice S40000x128 ![0, 0] (pooledR (nodesR (V0 (Proc.devRef .tc main_arg0)) (V0 (Proc.devRef .tc main_arg1))) (shapeCast S60000x128 (layerR (nodesR (V0 (Proc.devRef .tc main_arg0)) (V0 (Proc.devRef .tc main_arg1))) (edgeWeightsR (addf onesR (routeR (layerR (nodesR (V0 (Proc.devRef .tc main_arg0)) (V0 (Proc.devRef .tc main_arg1))) (edgeWeightsR onesR (headsR (V0 (Proc.devRef .tc main_arg2)) (V0 (Proc.devRef .tc main_arg3))) (tailsR (V0 (Proc.devRef .tc main_arg2)) (V0 (Proc.devRef .tc main_arg3)))) (colR (headsR (V0 (Proc.devRef .tc main_arg2)) (V0 (Proc.devRef .tc main_arg3)))) (wrapColR (tailsR (V0 (Proc.devRef .tc main_arg2)) (V0 (Proc.devRef .tc main_arg3))))) (nodesR (V0 (Proc.devRef .tc main_arg0)) (V0 (Proc.devRef .tc main_arg1))) (wrapColR (headsR (V0 (Proc.devRef .tc main_arg2)) (V0 (Proc.devRef .tc main_arg3)))) (wrapColR (tailsR (V0 (Proc.devRef .tc main_arg2)) (V0 (Proc.devRef .tc main_arg3)))))) (headsR (V0 (Proc.devRef .tc main_arg2)) (V0 (Proc.devRef .tc main_arg3))) (tailsR (V0 (Proc.devRef .tc main_arg2)) (V0 (Proc.devRef .tc main_arg3)))) (colR (headsR (V0 (Proc.devRef .tc main_arg2)) (V0 (Proc.devRef .tc main_arg3)))) (wrapColR (tailsR (V0 (Proc.devRef .tc main_arg2)) (V0 (Proc.devRef .tc main_arg3))))) shapeCasts_S60000x4x32_S60000x128)) slices_S60000x128_S40000x128_0_0)
        (broadcastInDim S4096x1 ![0] bcast_S4096_S4096x1_0 (select (cmpi .slt (V0 (Proc.devRef .tc main_arg4)) (broadcastInDim S4096 ![] bcast_S_S4096 (constantI S_ 32 0#32))) (addi (V0 (Proc.devRef .tc main_arg4)) (broadcastInDim S4096 ![] bcast_S_S4096 (constantI S_ 32 40000#32))) (V0 (Proc.devRef .tc main_arg4)))) := by
  rw [Value.val4_main_v154, pooled_eq]

set_option maxRecDepth 8192 in
/-- The batch's positive item embeddings: rows of the last 20000 rows of the average. -/
theorem result1 : Value.val4 V0 (Proc.devRef .tc main_v161)
    = Host.gather gather_S20000x128_S4096x1_S4096x128_1_0_n_n_0_1_1128
        (extractStridedSlice S20000x128 ![40000, 0] (pooledR (nodesR (V0 (Proc.devRef .tc main_arg0)) (V0 (Proc.devRef .tc main_arg1))) (shapeCast S60000x128 (layerR (nodesR (V0 (Proc.devRef .tc main_arg0)) (V0 (Proc.devRef .tc main_arg1))) (edgeWeightsR (addf onesR (routeR (layerR (nodesR (V0 (Proc.devRef .tc main_arg0)) (V0 (Proc.devRef .tc main_arg1))) (edgeWeightsR onesR (headsR (V0 (Proc.devRef .tc main_arg2)) (V0 (Proc.devRef .tc main_arg3))) (tailsR (V0 (Proc.devRef .tc main_arg2)) (V0 (Proc.devRef .tc main_arg3)))) (colR (headsR (V0 (Proc.devRef .tc main_arg2)) (V0 (Proc.devRef .tc main_arg3)))) (wrapColR (tailsR (V0 (Proc.devRef .tc main_arg2)) (V0 (Proc.devRef .tc main_arg3))))) (nodesR (V0 (Proc.devRef .tc main_arg0)) (V0 (Proc.devRef .tc main_arg1))) (wrapColR (headsR (V0 (Proc.devRef .tc main_arg2)) (V0 (Proc.devRef .tc main_arg3)))) (wrapColR (tailsR (V0 (Proc.devRef .tc main_arg2)) (V0 (Proc.devRef .tc main_arg3)))))) (headsR (V0 (Proc.devRef .tc main_arg2)) (V0 (Proc.devRef .tc main_arg3))) (tailsR (V0 (Proc.devRef .tc main_arg2)) (V0 (Proc.devRef .tc main_arg3)))) (colR (headsR (V0 (Proc.devRef .tc main_arg2)) (V0 (Proc.devRef .tc main_arg3)))) (wrapColR (tailsR (V0 (Proc.devRef .tc main_arg2)) (V0 (Proc.devRef .tc main_arg3))))) shapeCasts_S60000x4x32_S60000x128)) slices_S60000x128_S20000x128_40000_0)
        (broadcastInDim S4096x1 ![0] bcast_S4096_S4096x1_0 (select (cmpi .slt (V0 (Proc.devRef .tc main_arg5)) (broadcastInDim S4096 ![] bcast_S_S4096 (constantI S_ 32 0#32))) (addi (V0 (Proc.devRef .tc main_arg5)) (broadcastInDim S4096 ![] bcast_S_S4096 (constantI S_ 32 20000#32))) (V0 (Proc.devRef .tc main_arg5)))) := by
  rw [Value.val4_main_v161, pooledItems_eq]

set_option maxRecDepth 8192 in
/-- The batch's negative item embeddings: rows of the last 20000 rows of the average. -/
theorem result2 : Value.val4 V0 (Proc.devRef .tc main_v168)
    = Host.gather gather_S20000x128_S4096x1_S4096x128_1_0_n_n_0_1_1128
        (extractStridedSlice S20000x128 ![40000, 0] (pooledR (nodesR (V0 (Proc.devRef .tc main_arg0)) (V0 (Proc.devRef .tc main_arg1))) (shapeCast S60000x128 (layerR (nodesR (V0 (Proc.devRef .tc main_arg0)) (V0 (Proc.devRef .tc main_arg1))) (edgeWeightsR (addf onesR (routeR (layerR (nodesR (V0 (Proc.devRef .tc main_arg0)) (V0 (Proc.devRef .tc main_arg1))) (edgeWeightsR onesR (headsR (V0 (Proc.devRef .tc main_arg2)) (V0 (Proc.devRef .tc main_arg3))) (tailsR (V0 (Proc.devRef .tc main_arg2)) (V0 (Proc.devRef .tc main_arg3)))) (colR (headsR (V0 (Proc.devRef .tc main_arg2)) (V0 (Proc.devRef .tc main_arg3)))) (wrapColR (tailsR (V0 (Proc.devRef .tc main_arg2)) (V0 (Proc.devRef .tc main_arg3))))) (nodesR (V0 (Proc.devRef .tc main_arg0)) (V0 (Proc.devRef .tc main_arg1))) (wrapColR (headsR (V0 (Proc.devRef .tc main_arg2)) (V0 (Proc.devRef .tc main_arg3)))) (wrapColR (tailsR (V0 (Proc.devRef .tc main_arg2)) (V0 (Proc.devRef .tc main_arg3)))))) (headsR (V0 (Proc.devRef .tc main_arg2)) (V0 (Proc.devRef .tc main_arg3))) (tailsR (V0 (Proc.devRef .tc main_arg2)) (V0 (Proc.devRef .tc main_arg3)))) (colR (headsR (V0 (Proc.devRef .tc main_arg2)) (V0 (Proc.devRef .tc main_arg3)))) (wrapColR (tailsR (V0 (Proc.devRef .tc main_arg2)) (V0 (Proc.devRef .tc main_arg3))))) shapeCasts_S60000x4x32_S60000x128)) slices_S60000x128_S20000x128_40000_0)
        (broadcastInDim S4096x1 ![0] bcast_S4096_S4096x1_0 (select (cmpi .slt (V0 (Proc.devRef .tc main_arg6)) (broadcastInDim S4096 ![] bcast_S_S4096 (constantI S_ 32 0#32))) (addi (V0 (Proc.devRef .tc main_arg6)) (broadcastInDim S4096 ![] bcast_S_S4096 (constantI S_ 32 20000#32))) (V0 (Proc.devRef .tc main_arg6)))) := by
  rw [Value.val4_main_v168, pooledItems_eq]

end Stages

end Cert.ReferenceIdeal.RefValue

end
-- ==== Proof.TableAgreement.lean ====
/-
  The kernel's node table is the reference's.

  Both programs build the same graph from the same arguments and run two rounds: edge weights from the factor scores,
  one propagation of the weighted tail embeddings into the heads, and between the rounds new scores from the first
  propagation.  The kernel propagates rows of 128 columns and scores an edge over a factor's 32 columns; the reference
  propagates four chunks of 32 lanes and scores an edge over a chunk's lanes.  One propagation agrees with one chunked
  aggregation, flattened; the routing scores agree; every other stage is the same term under the two programs' names.
  So the averaged node tables agree, and with them the three gathered results.
-/
import proofs.«168221_j52458730553670_2_alg».proof.Proof.KernelValue
import proofs.«168221_j52458730553670_2_alg».proof.Proof.ReferenceValue
import proofs.«168221_j52458730553670_2_alg».proof.Proof.EdgeLayer
import proofs.«168221_j52458730553670_2_alg».proof.Proof.RoutingAgreement

noncomputable section

namespace Cert.Agreement.Table

open Idealize.ShloMosaic
open Cert.Agreement.EdgeLayer (layerR layer_eq)
open Cert.Agreement.Routing (routeR route_eq)
open Cert.ReferenceIdeal.RefValue
open Cert.KernelIdeal.KernelValue (tailRows propagate scores2 finalTable)

/-! ## A stage under the kernel's names is the stage under the reference's names

Each program states its own copy of the shapes, the dimension records and the side conditions; the copies have the
same bodies, and any two proofs of a side condition are equal, so each pair of stages is one term. -/

theorem nodes_bridge (a0 : FVec Ideal Cert.KernelIdeal.S40000x128 .f32) (a1 : FVec Ideal Cert.KernelIdeal.S20000x128 .f32) :
    Cert.KernelIdeal.EdgeLists.nodes a0 a1 = nodesR a0 a1 := rfl

theorem heads_bridge (a2 a3 : IVec Cert.KernelIdeal.S600000 32) : Cert.KernelIdeal.EdgeLists.heads a2 a3 = headsR a2 a3 := rfl

theorem tails_bridge (a2 a3 : IVec Cert.KernelIdeal.S600000 32) : Cert.KernelIdeal.EdgeLists.tails a2 a3 = tailsR a2 a3 := rfl

theorem ones_bridge : Cert.KernelIdeal.EdgeLists.ones = onesR := rfl

theorem wrapCol_bridge (v : IVec Cert.KernelIdeal.S1200000 32) : Cert.KernelIdeal.EdgeLists.wrapCol v = wrapColR v := rfl

theorem col_bridge (v : IVec Cert.KernelIdeal.S1200000 32) : Cert.KernelIdeal.EdgeLists.col v = colR v := rfl

theorem expShifted_bridge (a : FVec Ideal Cert.KernelIdeal.S1200000x4 .f32) : Cert.KernelIdeal.EdgeWeights.expShifted a = expShiftR a := rfl

theorem softmax_bridge (a : FVec Ideal Cert.KernelIdeal.S1200000x4 .f32) : Cert.KernelIdeal.EdgeWeights.softmax4 a = softmaxR a := by
  unfold Cert.KernelIdeal.EdgeWeights.softmax4 softmaxR rowShareR
  rw [expShifted_bridge] <;> rfl

theorem degree_bridge (s : FVec Ideal Cert.KernelIdeal.S1200000x4 .f32) (h : IVec Cert.KernelIdeal.S1200000 32) :
    Cert.KernelIdeal.EdgeWeights.invSqrtDegree s h = degreeNormR h s := by
  unfold Cert.KernelIdeal.EdgeWeights.invSqrtDegree degreeNormR
  rw [col_bridge] <;> rfl

theorem edgeWeights_bridge (a : FVec Ideal Cert.KernelIdeal.S1200000x4 .f32) (h t : IVec Cert.KernelIdeal.S1200000 32) :
    Cert.KernelIdeal.EdgeWeights.edgeWeights a h t = edgeWeightsR a h t := by
  unfold Cert.KernelIdeal.EdgeWeights.edgeWeights edgeWeightsR
  rw [softmax_bridge, degree_bridge, wrapCol_bridge, wrapCol_bridge] <;> rfl

theorem pooled_bridge (ego fe : FVec Ideal Cert.KernelIdeal.S60000x128 .f32) : Cert.KernelIdeal.LaterStretches.pooled ego fe = pooledR ego fe := rfl

/-! ## One propagation is one chunked aggregation, flattened -/

section Table

variable (a0 : FVec Ideal Cert.KernelIdeal.S40000x128 .f32) (a1 : FVec Ideal Cert.KernelIdeal.S20000x128 .f32) (a2 a3 : IVec Cert.KernelIdeal.S600000 32)

/-- The kernel's propagation with weights `w` is the reference's aggregation over factor chunks with the same weights,
    flattened. -/
theorem propagate_eq (w : FVec Ideal Cert.KernelIdeal.S1200000x4 .f32) :
    propagate a0 a1 a2 a3 w
      = shapeCast Cert.ReferenceIdeal.S60000x128 (layerR (nodesR a0 a1) w (colR (headsR a2 a3)) (wrapColR (tailsR a2 a3))) Cert.ReferenceIdeal.Gen.shapeCasts_S60000x4x32_S60000x128 := by
  unfold propagate tailRows
  rw [nodes_bridge, heads_bridge, tails_bridge, col_bridge, wrapCol_bridge]
  exact layer_eq (nodesR a0 a1) w (colR (headsR a2 a3)) (wrapColR (tailsR a2 a3))

/-- The kernel's second-round scores are the reference's: one plus the routing score of the first aggregate read at the
    heads against the node embeddings read at the tails. -/
theorem scores2_eq : scores2 a0 a1 a2 a3 = addf onesR (routeR (layerR (nodesR a0 a1) (edgeWeightsR onesR (headsR a2 a3) (tailsR a2 a3)) (colR (headsR a2 a3)) (wrapColR (tailsR a2 a3))) (nodesR a0 a1) (wrapColR (headsR a2 a3)) (wrapColR (tailsR a2 a3))) := by
  unfold scores2 tailRows
  rw [propagate_eq, nodes_bridge, heads_bridge, tails_bridge, ones_bridge, edgeWeights_bridge, wrapCol_bridge, wrapCol_bridge]
  exact congrArg (addf onesR) (route_eq (layerR (nodesR a0 a1) (edgeWeightsR onesR (headsR a2 a3) (tailsR a2 a3)) (colR (headsR a2 a3)) (wrapColR (tailsR a2 a3))) (nodesR a0 a1) (wrapColR (headsR a2 a3)) (wrapColR (tailsR a2 a3)))

/-- The kernel's node table is the reference's average of the node embeddings with the second aggregate. -/
theorem table_eq : finalTable a0 a1 a2 a3 = pooledR (nodesR a0 a1) (shapeCast Cert.ReferenceIdeal.S60000x128 (layerR (nodesR a0 a1) (edgeWeightsR (addf onesR (routeR (layerR (nodesR a0 a1) (edgeWeightsR onesR (headsR a2 a3) (tailsR a2 a3)) (colR (headsR a2 a3)) (wrapColR (tailsR a2 a3))) (nodesR a0 a1) (wrapColR (headsR a2 a3)) (wrapColR (tailsR a2 a3)))) (headsR a2 a3) (tailsR a2 a3)) (colR (headsR a2 a3)) (wrapColR (tailsR a2 a3))) Cert.ReferenceIdeal.Gen.shapeCasts_S60000x4x32_S60000x128) := by
  unfold finalTable
  rw [propagate_eq, scores2_eq, pooled_bridge, nodes_bridge, heads_bridge, tails_bridge, edgeWeights_bridge] <;> rfl

/-! ## The three results -/

/-- The batch's user rows. -/
theorem final0 (a4 : IVec Cert.KernelIdeal.S4096 32) :
    Host.gather Cert.KernelIdeal.gather_S40000x128_S4096x1_S4096x128_1_0_n_n_0_1_1128
        (extractStridedSlice Cert.KernelIdeal.S40000x128 ![0, 0] (finalTable a0 a1 a2 a3) Cert.KernelIdeal.Facts₀.slices_S60000x128_S40000x128_0_0)
        (Cert.KernelIdeal.LaterStretches.wrapRows 40000#32 a4)
      = Host.gather Cert.ReferenceIdeal.gather_S40000x128_S4096x1_S4096x128_1_0_n_n_0_1_1128
          (extractStridedSlice Cert.ReferenceIdeal.S40000x128 ![0, 0] (pooledR (nodesR a0 a1) (shapeCast Cert.ReferenceIdeal.S60000x128 (layerR (nodesR a0 a1) (edgeWeightsR (addf onesR (routeR (layerR (nodesR a0 a1) (edgeWeightsR onesR (headsR a2 a3) (tailsR a2 a3)) (colR (headsR a2 a3)) (wrapColR (tailsR a2 a3))) (nodesR a0 a1) (wrapColR (headsR a2 a3)) (wrapColR (tailsR a2 a3)))) (headsR a2 a3) (tailsR a2 a3)) (colR (headsR a2 a3)) (wrapColR (tailsR a2 a3))) Cert.ReferenceIdeal.Gen.shapeCasts_S60000x4x32_S60000x128)) Cert.ReferenceIdeal.Gen.slices_S60000x128_S40000x128_0_0)
          (broadcastInDim Cert.ReferenceIdeal.S4096x1 ![0] Cert.ReferenceIdeal.Gen.bcast_S4096_S4096x1_0 (select (cmpi .slt a4 (broadcastInDim Cert.ReferenceIdeal.S4096 ![] Cert.ReferenceIdeal.Gen.bcast_S_S4096 (constantI Cert.ReferenceIdeal.S_ 32 0#32))) (addi a4 (broadcastInDim Cert.ReferenceIdeal.S4096 ![] Cert.ReferenceIdeal.Gen.bcast_S_S4096 (constantI Cert.ReferenceIdeal.S_ 32 40000#32))) a4)) := by
  rw [table_eq]
  rfl

/-- The batch's positive item rows. -/
theorem final1 (a5 : IVec Cert.KernelIdeal.S4096 32) :
    Host.gather Cert.KernelIdeal.gather_S20000x128_S4096x1_S4096x128_1_0_n_n_0_1_1128
        (extractStridedSlice Cert.KernelIdeal.S20000x128 ![40000, 0] (finalTable a0 a1 a2 a3) Cert.KernelIdeal.Facts₀.slices_S60000x128_S20000x128_40000_0)
        (Cert.KernelIdeal.LaterStretches.wrapRows 20000#32 a5)
      = Host.gather Cert.ReferenceIdeal.gather_S20000x128_S4096x1_S4096x128_1_0_n_n_0_1_1128
          (extractStridedSlice Cert.ReferenceIdeal.S20000x128 ![40000, 0] (pooledR (nodesR a0 a1) (shapeCast Cert.ReferenceIdeal.S60000x128 (layerR (nodesR a0 a1) (edgeWeightsR (addf onesR (routeR (layerR (nodesR a0 a1) (edgeWeightsR onesR (headsR a2 a3) (tailsR a2 a3)) (colR (headsR a2 a3)) (wrapColR (tailsR a2 a3))) (nodesR a0 a1) (wrapColR (headsR a2 a3)) (wrapColR (tailsR a2 a3)))) (headsR a2 a3) (tailsR a2 a3)) (colR (headsR a2 a3)) (wrapColR (tailsR a2 a3))) Cert.ReferenceIdeal.Gen.shapeCasts_S60000x4x32_S60000x128)) Cert.ReferenceIdeal.Gen.slices_S60000x128_S20000x128_40000_0)
          (broadcastInDim Cert.ReferenceIdeal.S4096x1 ![0] Cert.ReferenceIdeal.Gen.bcast_S4096_S4096x1_0 (select (cmpi .slt a5 (broadcastInDim Cert.ReferenceIdeal.S4096 ![] Cert.ReferenceIdeal.Gen.bcast_S_S4096 (constantI Cert.ReferenceIdeal.S_ 32 0#32))) (addi a5 (broadcastInDim Cert.ReferenceIdeal.S4096 ![] Cert.ReferenceIdeal.Gen.bcast_S_S4096 (constantI Cert.ReferenceIdeal.S_ 32 20000#32))) a5)) := by
  rw [table_eq]
  rfl

/-- The batch's negative item rows. -/
theorem final2 (a6 : IVec Cert.KernelIdeal.S4096 32) :
    Host.gather Cert.KernelIdeal.gather_S20000x128_S4096x1_S4096x128_1_0_n_n_0_1_1128
        (extractStridedSlice Cert.KernelIdeal.S20000x128 ![40000, 0] (finalTable a0 a1 a2 a3) Cert.KernelIdeal.Facts₀.slices_S60000x128_S20000x128_40000_0)
        (Cert.KernelIdeal.LaterStretches.wrapRows 20000#32 a6)
      = Host.gather Cert.ReferenceIdeal.gather_S20000x128_S4096x1_S4096x128_1_0_n_n_0_1_1128
          (extractStridedSlice Cert.ReferenceIdeal.S20000x128 ![40000, 0] (pooledR (nodesR a0 a1) (shapeCast Cert.ReferenceIdeal.S60000x128 (layerR (nodesR a0 a1) (edgeWeightsR (addf onesR (routeR (layerR (nodesR a0 a1) (edgeWeightsR onesR (headsR a2 a3) (tailsR a2 a3)) (colR (headsR a2 a3)) (wrapColR (tailsR a2 a3))) (nodesR a0 a1) (wrapColR (headsR a2 a3)) (wrapColR (tailsR a2 a3)))) (headsR a2 a3) (tailsR a2 a3)) (colR (headsR a2 a3)) (wrapColR (tailsR a2 a3))) Cert.ReferenceIdeal.Gen.shapeCasts_S60000x4x32_S60000x128)) Cert.ReferenceIdeal.Gen.slices_S60000x128_S20000x128_40000_0)
          (broadcastInDim Cert.ReferenceIdeal.S4096x1 ![0] Cert.ReferenceIdeal.Gen.bcast_S4096_S4096x1_0 (select (cmpi .slt a6 (broadcastInDim Cert.ReferenceIdeal.S4096 ![] Cert.ReferenceIdeal.Gen.bcast_S_S4096 (constantI Cert.ReferenceIdeal.S_ 32 0#32))) (addi a6 (broadcastInDim Cert.ReferenceIdeal.S4096 ![] Cert.ReferenceIdeal.Gen.bcast_S_S4096 (constantI Cert.ReferenceIdeal.S_ 32 20000#32))) a6)) := by
  rw [table_eq]
  rfl

end Table

end Cert.Agreement.Table

end
-- ==== Proof.lean ====
/-
  The certificate of a disentangled graph-convolution forward pass: 40 000 users and 20 000 items with 128-wide
  embeddings in 4 factors of 32 columns, 600 000 interactions read as 1 200 000 directed edges, one layer with two
  routing iterations, and three batches of 4096 rows gathered from the mean of the embeddings before and after.

  The kernel keeps every embedding as a flat row of 128 columns and does the per-factor work inside three pipelined
  regions with two constant 0/1 matrices: a product with the [4, 128] one repeats a per-factor number over the
  factor's 32 columns, a product with the [128, 4] one sums a factor's 32 columns.  The reference keeps every
  embedding as 4 chunks of 32 and broadcasts and reduces over the chunk axis.  At the ideal instance the two are one
  function of the arguments:
  * a product with a 0/1 matrix is exact on the extended reals (`x · 0 = 0`, `x · 1 = x`, `x + 0 = x`), so the
    regions' edge values and routing scores are the reference's chunked products and sums read through the reshape
    `[n, 128] ↔ [n, 4, 32]`;
  * a scatter-add of rows by head node and a gather of rows commute with that reshape (the same edges land in the
    same node; the same row is read);
  * the kernel multiplies by the reciprocal of a floored norm where the reference divides by it: the floor 1e-12 is
    positive, so the norm is not zero and both are the product with its inverse.
  No finiteness of the inputs is used.  The softmax, degree and mean stages are the same operations in both programs.

  The frames of the two kernel programs are the generated ones; the reference's frame is its generated run with the
  results dropped; the idealization rewrote nothing, so `preserves` is trivial.
-/
import proofs.«168221_j52458730553670_2_alg».proof.Defs
import proofs.«168221_j52458730553670_2_alg».proof.Proof.Gen.Kernel
import proofs.«168221_j52458730553670_2_alg».proof.Proof.Gen.Kernel.Skeleton
import proofs.«168221_j52458730553670_2_alg».proof.Proof.Gen.Kernel.Launch
import proofs.«168221_j52458730553670_2_alg».proof.Proof.Gen.Kernel.Points
import proofs.«168221_j52458730553670_2_alg».proof.Proof.Gen.Kernel.Frame
import proofs.«168221_j52458730553670_2_alg».proof.Proof.Gen.KernelIdeal
import proofs.«168221_j52458730553670_2_alg».proof.Proof.Gen.KernelIdeal.Skeleton
import proofs.«168221_j52458730553670_2_alg».proof.Proof.Gen.KernelIdeal.Launch
import proofs.«168221_j52458730553670_2_alg».proof.Proof.Gen.KernelIdeal.Points
import proofs.«168221_j52458730553670_2_alg».proof.Proof.Gen.KernelIdeal.Frame
import proofs.«168221_j52458730553670_2_alg».proof.Proof.Gen.ReferenceIdeal
import proofs.«168221_j52458730553670_2_alg».proof.Proof.Gen.ReferenceIdeal.Run
import proofs.«168221_j52458730553670_2_alg».proof.Proof.Gen.Pre_finite_inputs
import proofs.«168221_j52458730553670_2_alg».proof.Proof.KernelRun
import proofs.«168221_j52458730553670_2_alg».proof.Proof.KernelValue
import proofs.«168221_j52458730553670_2_alg».proof.Proof.ReferenceValue
import proofs.«168221_j52458730553670_2_alg».proof.Proof.TableAgreement
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

set_option maxHeartbeats 2000000 in
/-- Both idealized programs run, and end with the same three results: the kernel's are rows of its final table, the
    reference's rows of its pooled table, and the two tables are one function of arguments that agree. -/
theorem algebraic : Cert.algebraic_KernelIdeal_ReferenceIdeal := by
  intro m ρ m' ρ' _ hagree
  refine ⟨fun c => Cert.KernelIdeal.Gen.W7 m ρ c (Proc.devRef .tc Cert.KernelIdeal.main_v116),
    fun c => Cert.KernelIdeal.Gen.W7 m ρ c (Proc.devRef .tc Cert.KernelIdeal.main_v123),
    fun c => Cert.KernelIdeal.Gen.W7 m ρ c (Proc.devRef .tc Cert.KernelIdeal.main_v130),
    Cert.KernelIdeal.RunValue.run (F := Ideal) m ρ, ?_⟩
  refine (θ_run Cert.ReferenceIdeal.defs _ _).mono (fun r h c => ?_) (Cert.ReferenceIdeal.Value.run (F := Ideal) m' ρ')
  obtain ⟨h0, h1, h2, hargs⟩ := h c
  obtain ⟨e0, e1, e2, e3, e4, e5, e6⟩ := hagree c
  have E0 : StableHlo.launchContents m' c (Proc.devRef .tc Cert.ReferenceIdeal.main_arg0) = m ((c.tc : Thread Cert.KernelIdeal.nD Cert.KernelIdeal.τ).loc Cert.KernelIdeal.main_arg0) := e0
  have E1 : StableHlo.launchContents m' c (Proc.devRef .tc Cert.ReferenceIdeal.main_arg1) = m ((c.tc : Thread Cert.KernelIdeal.nD Cert.KernelIdeal.τ).loc Cert.KernelIdeal.main_arg1) := e1
  have E2 : StableHlo.launchContents m' c (Proc.devRef .tc Cert.ReferenceIdeal.main_arg2) = m ((c.tc : Thread Cert.KernelIdeal.nD Cert.KernelIdeal.τ).loc Cert.KernelIdeal.main_arg2) := e2
  have E3 : StableHlo.launchContents m' c (Proc.devRef .tc Cert.ReferenceIdeal.main_arg3) = m ((c.tc : Thread Cert.KernelIdeal.nD Cert.KernelIdeal.τ).loc Cert.KernelIdeal.main_arg3) := e3
  have E4 : StableHlo.launchContents m' c (Proc.devRef .tc Cert.ReferenceIdeal.main_arg4) = m ((c.tc : Thread Cert.KernelIdeal.nD Cert.KernelIdeal.τ).loc Cert.KernelIdeal.main_arg4) := e4
  have E5 : StableHlo.launchContents m' c (Proc.devRef .tc Cert.ReferenceIdeal.main_arg5) = m ((c.tc : Thread Cert.KernelIdeal.nD Cert.KernelIdeal.τ).loc Cert.KernelIdeal.main_arg5) := e5
  have E6 : StableHlo.launchContents m' c (Proc.devRef .tc Cert.ReferenceIdeal.main_arg6) = m ((c.tc : Thread Cert.KernelIdeal.nD Cert.KernelIdeal.τ).loc Cert.KernelIdeal.main_arg6) := e6
  refine ⟨h0.trans ?_, h1.trans ?_, h2.trans ?_, hargs⟩
  · show _ = Cert.KernelIdeal.Gen.W7 m ρ c (Proc.devRef .tc Cert.KernelIdeal.main_v116)
    rw [Cert.KernelIdeal.KernelValue.result0 m ρ c, Cert.Agreement.Table.final0,
      ← Cert.ReferenceIdeal.Value.val4_main_v154 (StableHlo.launchContents m' c),
      Cert.ReferenceIdeal.RefValue.result0 (StableHlo.launchContents m' c), E0, E1, E2, E3, E4]
  · show _ = Cert.KernelIdeal.Gen.W7 m ρ c (Proc.devRef .tc Cert.KernelIdeal.main_v123)
    rw [Cert.KernelIdeal.KernelValue.result1 m ρ c, Cert.Agreement.Table.final1,
      ← Cert.ReferenceIdeal.Value.val4_main_v161 (StableHlo.launchContents m' c),
      Cert.ReferenceIdeal.RefValue.result1 (StableHlo.launchContents m' c), E0, E1, E2, E3, E5]
  · show _ = Cert.KernelIdeal.Gen.W7 m ρ c (Proc.devRef .tc Cert.KernelIdeal.main_v130)
    rw [Cert.KernelIdeal.KernelValue.result2 m ρ c, Cert.Agreement.Table.final2,
      ← Cert.ReferenceIdeal.Value.val4_main_v168 (StableHlo.launchContents m' c),
      Cert.ReferenceIdeal.RefValue.result2 (StableHlo.launchContents m' c), E0, E1, E2, E3, E6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
